-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000 : Shape := ⟨2, ![16, 100000]⟩
abbrev S3200000 : Shape := ⟨1, ![3200000]⟩
abbrev S100000 : Shape := ⟨1, ![100000]⟩
abbrev S_ : Shape := ⟨0, ![]⟩

class Facts : Prop where
  bcast_S_S16x100000 : S_.BroadcastsInDim S16x100000 (![] : Fin 0 → Fin S16x100000.rank)
  reducesTo_S16x100000_S_d0_1 : S16x100000.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S3200000 32) (main_v33 : IVec S_ 1) : IVec S_ 1 :=
  let main_c_12 : IVec S_ 32 := constantI S_ 32 0#32
  let main_v34 : IVec S3200000 32 := broadcastInDim S3200000 ![] bcast_S_S3200000 main_c_12
  let main_v35 : IVec S3200000 1 := cmpi .sge main_arg2 main_v34
  let main_c_13 : IVec S_ 1 := constantI S_ 1 1#1
  let main_v36 : IVec S_ 1 := (fun x v => Host.reduce IntOp.andi x v reducesTo_S3200000_S_d0 h_S_) main_v35 main_c_13
  let main_v37 : IVec S_ 1 := andi main_v33 main_v36
  main_v37

def fn_part1 {F : FTy → Type} [FloatOps F] (main_arg2 : IVec S3200000 32) (main_arg6 : FVec F S100000 .f32) (main_arg7 : FVec F S100000 .f32) (main_arg8 : FVec F S100000 .f32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S100000 .f32 := Host.absf main_arg6
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg7
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg2 main_v33

def fn {F : FTy → Type} [FloatOps F] (main_arg0 : FVec F S16x100000 .f32) (main_arg1 : IVec S3200000 32) (main_arg2 : IVec S3200000 32) (main_arg3 : FVec F S3200000 .f32) (main_arg4 : FVec F S3200000 .f32) (main_arg5 : FVec F S3200000 .f32) (main_arg6 : FVec F S100000 .f32) (main_arg7 : FVec F S100000 .f32) (main_arg8 : FVec F S100000 .f32) : IVec S_ 1 :=
  let main_v0 : FVec F S16x100000 .f32 := Host.absf main_arg0
  let main_cst : FVec F S_ .f32 := constant S_ .f32 0x7F800000#32
  let main_v1 : FVec F S16x100000 .f32 := broadcastInDim S16x100000 ![] bcast_S_S16x100000 main_cst
  let main_v2 : IVec S16x100000 1 := cmpf .olt main_v0 main_v1
  let main_c : IVec S_ 1 := constantI S_ 1 1#1
  let main_v3 : IVec S_ 1 := (fun x v => Host.reduce IntOp.andi x v reducesTo_S16x100000_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3200000 .f32 := Host.absf main_arg5
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg2 main_arg6 main_arg7 main_arg8 main_v13 main_v16
-- ==== Kernel.lean ====
abbrev S16x100000 : Shape := ⟨2, ![16, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S16x3200000 : Shape := ⟨2, ![16, 3200000]⟩
abbrev S1x3200000 : Shape := ⟨2, ![1, 3200000]⟩
abbrev S3x3200000 : Shape := ⟨2, ![3, 3200000]⟩
abbrev S16x64000 : Shape := ⟨2, ![16, 64000]⟩
abbrev S3x64000 : Shape := ⟨2, ![3, 64000]⟩
abbrev S1x64000 : Shape := ⟨2, ![1, 64000]⟩
abbrev S1x100000 : Shape := ⟨2, ![1, 100000]⟩
abbrev S3x100000 : Shape := ⟨2, ![3, 100000]⟩
abbrev S8x100000 : Shape := ⟨2, ![8, 100000]⟩

abbrev nBuf : Space → Nat
  | .hbm => 53
  | .vmem => 11
  | .smem => 0
  | _ => 0

abbrev bufTy : (tb : Table) → Fin (tcTables nBuf tb) → BufTy
  | .hbm, ⟨0, _⟩ => ⟨S16x100000, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S3200000, .f32⟩
  | .hbm, ⟨5, _⟩ => ⟨S3200000, .f32⟩
  | .hbm, ⟨6, _⟩ => ⟨S100000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S1, .i32⟩
  | .hbm, ⟨18, _⟩ => ⟨S_, .i32⟩
  | .hbm, ⟨19, _⟩ => ⟨S3200000x1, .i32⟩
  | .hbm, ⟨20, _⟩ => ⟨S3200000x1, .i1⟩
  | .hbm, ⟨21, _⟩ => ⟨S1x1, .i32⟩
  | .hbm, ⟨22, _⟩ => ⟨S3200000x1, .i32⟩
  | .hbm, ⟨23, _⟩ => ⟨S3200000x1, .i1⟩
  | .hbm, ⟨24, _⟩ => ⟨S3200000x1, .i1⟩
  | .hbm, ⟨25, _⟩ => ⟨S_, .i1⟩
  | .hbm, ⟨26, _⟩ => ⟨S3200000, .i1⟩
  | .hbm, ⟨27, _⟩ => ⟨S16x3200000, .f32⟩
  | .hbm, ⟨28, _⟩ => ⟨S16x3200000, .i1⟩
  | .hbm, ⟨29, _⟩ => ⟨S_, .f32⟩
  | .hbm, ⟨30, _⟩ => ⟨S16x3200000, .f32⟩
  | .hbm, ⟨31, _⟩ => ⟨S16x3200000, .f32⟩
  | .hbm, ⟨32, _⟩ => ⟨S1x3200000, .f32⟩
  | .hbm, ⟨33, _⟩ => ⟨S1x3200000, .f32⟩
  | .hbm, ⟨34, _⟩ => ⟨S1x3200000, .f32⟩
  | .hbm, ⟨35, _⟩ => ⟨S3x3200000, .f32⟩
  | .hbm, ⟨36, _⟩ => ⟨S16x3200000, .f32⟩
  | .hbm, ⟨37, _⟩ => ⟨S_, .f32⟩
  | .hbm, ⟨38, _⟩ => ⟨S16x100000, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S16x100000, .f32⟩
  | .hbm, ⟨48, _⟩ => ⟨S1x100000, .f32⟩
  | .hbm, ⟨49, _⟩ => ⟨S1x100000, .f32⟩
  | .hbm, ⟨50, _⟩ => ⟨S1x100000, .f32⟩
  | .hbm, ⟨51, _⟩ => ⟨S3x100000, .f32⟩
  | .hbm, ⟨52, _⟩ => ⟨S16x100000, .f32⟩
  | .local _ .vmem, ⟨0, _⟩ => ⟨S16x64000, .f32⟩
  | .local _ .vmem, ⟨1, _⟩ => ⟨S16x64000, .f32⟩
  | .local _ .vmem, ⟨2, _⟩ => ⟨S3x64000, .f32⟩
  | .local _ .vmem, ⟨3, _⟩ => ⟨S3x64000, .f32⟩
  | .local _ .vmem, ⟨4, _⟩ => ⟨S16x64000, .f32⟩
  | .local _ .vmem, ⟨5, _⟩ => ⟨S16x64000, .f32⟩
  | .local _ .vmem, ⟨6, _⟩ => ⟨S8x100000, .f32⟩
  | .local _ .vmem, ⟨7, _⟩ => ⟨S8x100000, .f32⟩
  | .local _ .vmem, ⟨8, _⟩ => ⟨S3x100000, .f32⟩
  | .local _ .vmem, ⟨9, _⟩ => ⟨S8x100000, .f32⟩
  | .local _ .vmem, ⟨10, _⟩ => ⟨S8x100000, .f32⟩
  | _, _ => ⟨S16x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_c : Ref sig .tc := ⟨.hbm, 39, rfl⟩
abbrev main_v7 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  shapeCasts_S3200000_S1x3200000 : S3200000.ShapeCasts S1x3200000
  concatenates_S1x3200000_S1x3200000_S1x3200000_S3x3200000_d0 : Shape.Concatenates [S1x3200000, S1x3200000, S1x3200000] S3x3200000 0
  inb_S16x64000_S16x64000_0_0 : ∀ a, (![0, 0] : Fin 2 → Nat) a + S16x64000.size a ≤ S16x64000.size a
  h_S16x64000 : 0 < S16x64000.numel
  shapeCasts_S16x64000_S16x64000 : S16x64000.ShapeCasts S16x64000
  inb_S3x64000_S3x64000_0_0 : ∀ a, (![0, 0] : Fin 2 → Nat) a + S3x64000.size a ≤ S3x64000.size a
  h_S3x64000 : 0 < S3x64000.numel
  shapeCasts_S3x64000_S3x64000 : S3x64000.ShapeCasts S3x64000
  slices_S3x64000_o0_0_S1x64000 : S3x64000.Slices ![0, 0] S1x64000
  slices_S3x64000_o1_0_S1x64000 : S3x64000.Slices ![1, 0] S1x64000
  slices_S3x64000_o2_0_S1x64000 : S3x64000.Slices ![2, 0] S1x64000
  broadcasts_S1x64000_S16x64000 : S1x64000.Broadcasts S16x64000
  bcast_S_S16x100000 : S_.BroadcastsInDim S16x100000 (![] : Fin 0 → Fin S16x100000.rank)
  shapeCasts_S100000_S1x100000 : S100000.ShapeCasts S1x100000
  concatenates_S1x100000_S1x100000_S1x100000_S3x100000_d0 : Shape.Concatenates [S1x100000, S1x100000, S1x100000] S3x100000 0
  inb_S8x100000_S8x100000_0_0 : ∀ a, (![0, 0] : Fin 2 → Nat) a + S8x100000.size a ≤ S8x100000.size a
  h_S8x100000 : 0 < S8x100000.numel
  shapeCasts_S8x100000_S8x100000 : S8x100000.ShapeCasts S8x100000
  inb_S3x100000_S3x100000_0_0 : ∀ a, (![0, 0] : Fin 2 → Nat) a + S3x100000.size a ≤ S3x100000.size a
  h_S3x100000 : 0 < S3x100000.numel
  shapeCasts_S3x100000_S3x100000 : S3x100000.ShapeCasts S3x100000
  slices_S3x100000_o0_0_S1x100000 : S3x100000.Slices ![0, 0] S1x100000
  slices_S3x100000_o1_0_S1x100000 : S3x100000.Slices ![1, 0] S1x100000
  slices_S3x100000_o2_0_S1x100000 : S3x100000.Slices ![2, 0] S1x100000
  broadcasts_S1x100000_S8x100000 : S1x100000.Broadcasts S8x100000
  gather_S16x100000_S3200000x1_S16x3200000_0_1_n_n_1_1_161_wf : GatherDims.WF S16x100000 S3200000x1 S16x3200000 [0] [1] [] [1] [] 1 ![16, 1]
  scatter_S16x100000_S3200000x1_S16x3200000_0_1_1_1_wf : ScatterDims.WF S16x100000 S3200000x1 S16x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64000.size a ≤ S16x3200000.size a
  hwx0_0 : ∀ i : grid0.Coords, EltTy.bits .f32 = 32 ∨ (Rect.block (s := S16x3200000) S16x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x64000.size a ≤ S3x3200000.size a
  hwx0_1 : ∀ i : grid0.Coords, EltTy.bits .f32 = 32 ∨ (Rect.block (s := S3x3200000) S3x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64000.size a ≤ S16x3200000.size a
  hwx0_2 : ∀ i : grid0.Coords, EltTy.bits .f32 = 32 ∨ (Rect.block (s := S16x3200000) S16x64000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x100000.size a ≤ S16x100000.size a
  hwx1_0 : ∀ i : grid1.Coords, EltTy.bits .f32 = 32 ∨ (Rect.block (s := S16x100000) S8x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x100000.size a ≤ S3x100000.size a
  hwx1_1 : ∀ i : grid1.Coords, EltTy.bits .f32 = 32 ∨ (Rect.block (s := S3x100000) S3x100000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x100000.size a ≤ S16x100000.size a
  hwx1_2 : ∀ i : grid1.Coords, EltTy.bits .f32 = 32 ∨ (Rect.block (s := S16x100000) S8x100000.size (cc1_transform_2 i) (hinb1_2 i)).WholeWords (EltTy.packing .f32)

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def scatter_S16x100000_S3200000x1_S16x3200000_0_1_1_1 : ScatterDims S16x100000 S3200000x1 S16x3200000 where
  updateWindowDims := [0]
  insertedWindowDims := [1]
  scatterDimsToOperandDims := [1]
  indexVectorDim := 1
  wf := scatter_S16x100000_S3200000x1_S16x3200000_0_1_1_1_wf

abbrev win0_0 : Pipeline.Window sig grid0 :=
  Pipeline.Window.ofSpec (Memref.whole main_v0) S16x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x64000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S8x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S3x100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S8x100000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x100000 : Shape := ⟨2, ![16, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S16x3200000 : Shape := ⟨2, ![16, 3200000]⟩
abbrev S1x3200000 : Shape := ⟨2, ![1, 3200000]⟩
abbrev S3200000x16 : Shape := ⟨2, ![3200000, 16]⟩
abbrev S100000x16 : Shape := ⟨2, ![100000, 16]⟩
abbrev S1x100000 : Shape := ⟨2, ![1, 100000]⟩

abbrev nBuf : Space → Nat
  | .hbm => 72
  | .vmem => 0
  | .smem => 0
  | _ => 0

abbrev bufTy : (tb : Table) → Fin (tcTables nBuf tb) → BufTy
  | .hbm, ⟨0, _⟩ => ⟨S16x100000, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S3200000, .f32⟩
  | .hbm, ⟨5, _⟩ => ⟨S3200000, .f32⟩
  | .hbm, ⟨6, _⟩ => ⟨S100000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S1, .i32⟩
  | .hbm, ⟨18, _⟩ => ⟨S_, .i32⟩
  | .hbm, ⟨19, _⟩ => ⟨S3200000x1, .i32⟩
  | .hbm, ⟨20, _⟩ => ⟨S3200000x1, .i1⟩
  | .hbm, ⟨21, _⟩ => ⟨S1x1, .i32⟩
  | .hbm, ⟨22, _⟩ => ⟨S3200000x1, .i32⟩
  | .hbm, ⟨23, _⟩ => ⟨S3200000x1, .i1⟩
  | .hbm, ⟨24, _⟩ => ⟨S3200000x1, .i1⟩
  | .hbm, ⟨25, _⟩ => ⟨S_, .i1⟩
  | .hbm, ⟨26, _⟩ => ⟨S3200000, .i1⟩
  | .hbm, ⟨27, _⟩ => ⟨S16x3200000, .f32⟩
  | .hbm, ⟨28, _⟩ => ⟨S16x3200000, .i1⟩
  | .hbm, ⟨29, _⟩ => ⟨S_, .f32⟩
  | .hbm, ⟨30, _⟩ => ⟨S16x3200000, .f32⟩
  | .hbm, ⟨31, _⟩ => ⟨S16x3200000, .f32⟩
  | .hbm, ⟨32, _⟩ => ⟨S1x3200000, .f32⟩
  | .hbm, ⟨33, _⟩ => ⟨S16x3200000, .f32⟩
  | .hbm, ⟨34, _⟩ => ⟨S16x3200000, .f32⟩
  | .hbm, ⟨35, _⟩ => ⟨S1x3200000, .f32⟩
  | .hbm, ⟨36, _⟩ => ⟨S16x3200000, .f32⟩
  | .hbm, ⟨37, _⟩ => ⟨S16x3200000, .f32⟩
  | .hbm, ⟨38, _⟩ => ⟨S_, .f32⟩
  | .hbm, ⟨39, _⟩ => ⟨S3200000, .f32⟩
  | .hbm, ⟨40, _⟩ => ⟨S3200000, .f32⟩
  | .hbm, ⟨41, _⟩ => ⟨S1x3200000, .f32⟩
  | .hbm, ⟨42, _⟩ => ⟨S16x3200000, .f32⟩
  | .hbm, ⟨43, _⟩ => ⟨S16x3200000, .f32⟩
  | .hbm, ⟨44, _⟩ => ⟨S16x3200000, .f32⟩
  | .hbm, ⟨45, _⟩ => ⟨S1x3200000, .f32⟩
  | .hbm, ⟨46, _⟩ => ⟨S16x3200000, .f32⟩
  | .hbm, ⟨47, _⟩ => ⟨S16x3200000, .f32⟩
  | .hbm, ⟨48, _⟩ => ⟨S16x3200000, .f32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S16x100000, .f32⟩
  | .hbm, ⟨55, _⟩ => ⟨S1x100000, .f32⟩
  | .hbm, ⟨56, _⟩ => ⟨S16x100000, .f32⟩
  | .hbm, ⟨57, _⟩ => ⟨S16x100000, .f32⟩
  | .hbm, ⟨58, _⟩ => ⟨S1x100000, .f32⟩
  | .hbm, ⟨59, _⟩ => ⟨S16x100000, .f32⟩
  | .hbm, ⟨60, _⟩ => ⟨S16x100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S1x100000, .f32⟩
  | .hbm, ⟨65, _⟩ => ⟨S16x100000, .f32⟩
  | .hbm, ⟨66, _⟩ => ⟨S16x100000, .f32⟩
  | .hbm, ⟨67, _⟩ => ⟨S16x100000, .f32⟩
  | .hbm, ⟨68, _⟩ => ⟨S1x100000, .f32⟩
  | .hbm, ⟨69, _⟩ => ⟨S16x100000, .f32⟩
  | .hbm, ⟨70, _⟩ => ⟨S16x100000, .f32⟩
  | .hbm, ⟨71, _⟩ => ⟨S16x100000, .f32⟩
  | _, _ => ⟨S16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_1 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  bcast_S3200000_S1x3200000_1 : S3200000.BroadcastsInDim S1x3200000 (![1] : Fin 1 → Fin S1x3200000.rank)
  bcast_S1x3200000_S16x3200000_0_1 : S1x3200000.BroadcastsInDim S16x3200000 (![0, 1] : Fin 2 → Fin S16x3200000.rank)
  transposes_S16x3200000_S3200000x16_1_0 : S16x3200000.Transposes [1, 0] S3200000x16
  bcast_S_S100000x16 : S_.BroadcastsInDim S100000x16 (![] : Fin 0 → Fin S100000x16.rank)
  transposes_S100000x16_S16x100000_1_0 : S100000x16.Transposes [1, 0] S16x100000
  bcast_S100000_S1x100000_1 : S100000.BroadcastsInDim S1x100000 (![1] : Fin 1 → Fin S1x100000.rank)
  bcast_S1x100000_S16x100000_0_1 : S1x100000.BroadcastsInDim S16x100000 (![0, 1] : Fin 2 → Fin S16x100000.rank)
  bcast_S_S100000 : S_.BroadcastsInDim S100000 (![] : Fin 0 → Fin S100000.rank)
  gather_S16x100000_S3200000x1_S16x3200000_0_1_n_n_1_1_161_wf : GatherDims.WF S16x100000 S3200000x1 S16x3200000 [0] [1] [] [1] [] 1 ![16, 1]
  scatter_S100000x16_S3200000x1_S3200000x16_1_0_0_1_wf : ScatterDims.WF S100000x16 S3200000x1 S3200000x16 [1] [0] [0] 1

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KEdge.lean ====
/-
  The edge stage (the first of the program's two kernel regions), at any float instance and at any contents
  `V` the region may find in the arrays of its three windows.

  The grid has 50 points. At point t the region hands the body the t-th block of 64000 columns of the gathered
  source values ([16, 64000] out of [16, 3200000]), the same columns of the three stacked edge-parameter rows
  ([3, 64000] out of [3, 3200000]), and the output's staging buffer. The body loads the two input blocks whole,
  and stores ONE value over the whole output block: the blend of the parameter rows and the source values
  (`k0_pay1`). So what the body leaves in the output buffer is that value, whatever the buffer held before, and
  it leaves the two input buffers as it found them. That is the whole content of this module: the body's triple,
  the proof data the launch theorems take (each window's buffer after the body at each point), and the body
  obligation at every point.
-/
import proofs.«120978_j38508676776060_2_alg».proof.Proof.Gen.Kernel.Launch
import proofs.«120978_j38508676776060_2_alg».proof.Proof.Gen.Kernel.Skeleton
import proofs.«120978_j38508676776060_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point works on. -/
def edgeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point (fetched there, or still there from the point before),
    for any proof data over `V`'s arrays whose body leaves the block in place: the source values' window, -/
theorem edge_before0_of {c : Dev nD} (dat : Dat τ (Elt F) Unit ℕ (UR sig nD τ) ℕ cfg0 c)
    (hA : dat.A 0 = V c (Pipeline.arrRef spec0 0))
    (hafter : ∀ t, dat.after 0 t = edgeBlk V c 0 t) (t : Fin cfg0.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)

/-- and the parameter rows' window. -/
theorem edge_before1_of {c : Dev nD} (dat : Dat τ (Elt F) Unit ℕ (UR sig nD τ) ℕ cfg0 c)
    (hA : dat.A 1 = V c (Pipeline.arrRef spec0 1))
    (hafter : ∀ t, dat.after 1 t = edgeBlk V c 1 t) (t : Fin cfg0.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)

/-! ## What the body reads and writes -/

/-- The whole [16, 64000] block: the rectangle of the source-value load and of the one store. -/
abbrev rEdge : Rect S16x64000 := Rect.unit (s := S16x64000) ![0, 0] S16x64000.size inb_S16x64000_S16x64000_0_0
/-- The whole [3, 64000] block of the three parameter rows. -/
abbrev rEdgeP : Rect S3x64000 := Rect.unit (s := S3x64000) ![0, 0] S3x64000.size inb_S3x64000_S3x64000_0_0

/-- The output buffer after the body, from the two input blocks: its one store, over the whole block. -/
def edgeOut (x0 : Vec F S16x64000 .f32) (x1 : Vec F S3x64000 .f32) : Vec F S16x64000 .f32 :=
  View.canon [⟨rEdge, k0_pay1 (View.ld x0 rEdge) (View.ld x1 rEdgeP)⟩]

/-- The one store covers the buffer. -/
theorem edge_cover (p0 : Vec F S16x64000 .f32) (y : S16x64000.Idx) :
    ∃ pc ∈ ([⟨rEdge, p0⟩] : List (View.Piece (Elt F) S16x64000 .f32)), y ∈ pc.1.set :=
  View.cover_of_tiled [⟨rEdge, p0⟩] S16x64000.size (by rfl) y

/-! ## The body's triple -/

set_option maxHeartbeats 1000000 in
/-- The body on whole staging memrefs — the inputs' at read contents `x0`, `x1`, the output's at anything — runs to
    the continuation holding the inputs' as they were and the output's at `edgeOut x0 x1`. -/
theorem edge_sound (c : Dev nD) (E : Set ℕ) (i : grid0.Coords)
    (arg1 : Memref sig .tc .vmem S16x64000 .f32) (harg1 : arg1.IsWhole) (arg2 : Memref sig .tc .vmem S3x64000 .f32) (harg2 : arg2.IsWhole)
    (arg3 : Memref sig .tc .vmem S16x64000 .f32) (harg3 : arg3.IsWhole)
    (x0 : Vec F S16x64000 .f32) (x1 : Vec F S3x64000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (edgeOut x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (edge_cover _)

/-! ## The proof data -/

/-- The proof data of the edge stage on core `c`: the arrays as the region finds them; after the body at point `t`
    each input's buffer at its block and the output's at `edgeOut` of the two input blocks; the invariant the scoped
    rest and the generator register, untouched; nothing owed; full shares. -/
def edgeDat (c : Dev nD) : Dat τ (Elt F) Unit ℕ (UR sig nD τ) ℕ cfg0 c where
  A w := V c (Pipeline.arrRef spec0 w)
  after w t := match w with
    | ⟨0, _⟩ => edgeBlk V c 0 t
    | ⟨1, _⟩ => edgeBlk V c 1 t
    | ⟨2, _⟩ => edgeOut (edgeBlk V c 0 t) (edgeBlk V c 1 t)
  Φ _ := Pipeline.ΦA spec0 c
  q _ := fullShare
  owed _ := 0

theorem edge_A (c : Dev nD) (w : Fin cfg0.W) : (edgeDat V c).A w = V c (Pipeline.arrRef spec0 w) := by
  dsimp only [edgeDat]
theorem edge_after0 (c : Dev nD) (t : Fin cfg0.N) : (edgeDat V c).after 0 t = edgeBlk V c 0 t := by dsimp only [edgeDat]
theorem edge_after1 (c : Dev nD) (t : Fin cfg0.N) : (edgeDat V c).after 1 t = edgeBlk V c 1 t := by dsimp only [edgeDat]
theorem edge_after2 (c : Dev nD) (t : Fin cfg0.N) :
    (edgeDat V c).after 2 t = edgeOut (edgeBlk V c 0 t) (edgeBlk V c 1 t) := by dsimp only [edgeDat]

theorem edge_before0 (c : Dev nD) (t : Fin cfg0.N) (d) : (edgeDat V c).before 0 t d = edgeBlk V c 0 t :=
  edge_before0_of V (edgeDat V c) (edge_A V c 0) (edge_after0 V c) t d
theorem edge_before1 (c : Dev nD) (t : Fin cfg0.N) (d) : (edgeDat V c).before 1 t d = edgeBlk V c 1 t :=
  edge_before1_of V (edgeDat V c) (edge_A V c 1) (edge_after1 V c) t d

/-! ## The body obligation -/

/-- What the body is called with at point `t`, the windows one by one, -/
def edgePre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d)))

/-- and what it returns. -/
def edgePost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t))

/-- The body at any point: the inputs' memrefs hold their blocks, so `edge_sound` applies; the invariant and the core's
    dues pass through unread. -/
theorem edge_body (c : Dev nD) (t : Fin cfg0.N) :
    edgePre V c t ⊢ wp frame (wpE (defs₀ (F := F)) Variants.none c none) Set.univ (bodyAt0 t) (fun _ => edgePost V c t) := by
  unfold edgePre edgePost bodyAt0
  simp only [edge_before0, edge_before1]
  rw [show (edgeDat V c).Φ t.succ = (edgeDat V c).Φ t.castSucc from rfl,
    show (edgeDat V c).owesAt () t.succ = (edgeDat V c).owesAt () t.castSucc from rfl,
    edge_after0, edge_after1, edge_after2]
  iintro ⟨HΦ, Ho, ⟨%d0, H0⟩, ⟨%d1, H1⟩, ⟨%d2, H2⟩⟩
  iapply (edge_sound c Set.univ _ _ _ _ _ _ _ (edgeBlk V c 0 t) (edgeBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem edge_obligation (c : Dev nD) : BodyObligation (edgeDat (F := F) V c) (defs₀ (F := F)) Variants.none () Set.univ := fun t => by
  rw [bigSep_W0, bigSep_W0]
  exact edge_body V c t

end Cert.Kernel.Stage

end
-- ==== Proof.KNode.lean ====
/-
  The node stage (the second of the program's two kernel regions), at any float instance and at any contents
  `V` the region may find in the arrays of its three windows.

  The grid has 2 points. At point t the region hands the body rows 8t … 8t+7 of the aggregated messages
  ([8, 100000] out of [16, 100000]), the three stacked node-parameter rows whole ([3, 100000], the same block at
  both points, fetched once), and the output's staging buffer. The body loads the two input blocks whole and
  stores ONE value over the whole output block: the blend of the parameter rows and the aggregated messages
  (`k1_pay1`). So what the body leaves in the output buffer is that value, whatever the buffer held before, and
  it leaves the two input buffers as it found them: the body's triple, the proof data the launch theorems take,
  and the body obligation at every point.
-/
import proofs.«120978_j38508676776060_2_alg».proof.Proof.Gen.Kernel.Launch
import proofs.«120978_j38508676776060_2_alg».proof.Proof.Gen.Kernel.Skeleton
import proofs.«120978_j38508676776060_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point works on. -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point (fetched there, or still there from the point before),
    for any proof data over `V`'s arrays whose body leaves the block in place: the aggregated messages' window, -/
theorem node_before0_of {c : Dev nD} (dat : Dat τ (Elt F) Unit ℕ (UR sig nD τ) ℕ cfg1 c)
    (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)

/-- and the parameter rows' window. -/
theorem node_before1_of {c : Dev nD} (dat : Dat τ (Elt F) Unit ℕ (UR sig nD τ) ℕ cfg1 c)
    (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)

/-! ## What the body reads and writes -/

/-- The whole [8, 100000] block: the rectangle of the load of the aggregated messages and of the one store. -/
abbrev rNode : Rect S8x100000 := Rect.unit (s := S8x100000) ![0, 0] S8x100000.size inb_S8x100000_S8x100000_0_0
/-- The whole [3, 100000] block of the three parameter rows. -/
abbrev rNodeP : Rect S3x100000 := Rect.unit (s := S3x100000) ![0, 0] S3x100000.size inb_S3x100000_S3x100000_0_0

/-- The output buffer after the body, from the two input blocks: its one store, over the whole block. -/
def nodeOut (x0 : Vec F S8x100000 .f32) (x1 : Vec F S3x100000 .f32) : Vec F S8x100000 .f32 :=
  View.canon [⟨rNode, k1_pay1 (View.ld x0 rNode) (View.ld x1 rNodeP)⟩]

/-- The one store covers the buffer. -/
theorem node_cover (p0 : Vec F S8x100000 .f32) (y : S8x100000.Idx) :
    ∃ pc ∈ ([⟨rNode, p0⟩] : List (View.Piece (Elt F) S8x100000 .f32)), y ∈ pc.1.set :=
  View.cover_of_tiled [⟨rNode, p0⟩] S8x100000.size (by rfl) y

/-! ## The body's triple -/

set_option maxHeartbeats 1000000 in
/-- The body on whole staging memrefs — the inputs' at read contents `x0`, `x1`, the output's at anything — runs to
    the continuation holding the inputs' as they were and the output's at `nodeOut x0 x1`. -/
theorem node_sound (c : Dev nD) (E : Set ℕ) (i : grid1.Coords)
    (arg1 : Memref sig .tc .vmem S8x100000 .f32) (harg1 : arg1.IsWhole) (arg2 : Memref sig .tc .vmem S3x100000 .f32) (harg2 : arg2.IsWhole)
    (arg3 : Memref sig .tc .vmem S8x100000 .f32) (harg3 : arg3.IsWhole)
    (x0 : Vec F S8x100000 .f32) (x1 : Vec F S3x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (nodeOut x0 x1)) -∗ K ⟨⟩))
      ⊢ wp frame (wpE (defs₀ (F := F)) Variants.none c none) E (cc1__node_kernel i arg1 harg1 arg2 harg2 arg3 harg3) K := by
  simp only [cc1__node_kernel_eq_skeleton]; unfold cc1__node_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (node_cover _)

/-! ## The proof data -/

/-- The proof data of the node stage on core `c`: the arrays as the region finds them; after the body at point `t`
    each input's buffer at its block and the output's at `nodeOut` of the two input blocks; the invariant the scoped
    rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeOut (nodeBlk V c 0 t) (nodeBlk V c 1 t)
  Φ _ := Pipeline.ΦA spec1 c
  q _ := fullShare
  owed _ := 0

theorem node_A (c : Dev nD) (w : Fin cfg1.W) : (nodeDat V c).A w = V c (Pipeline.arrRef spec1 w) := by
  dsimp only [nodeDat]
theorem node_after0 (c : Dev nD) (t : Fin cfg1.N) : (nodeDat V c).after 0 t = nodeBlk V c 0 t := by dsimp only [nodeDat]
theorem node_after1 (c : Dev nD) (t : Fin cfg1.N) : (nodeDat V c).after 1 t = nodeBlk V c 1 t := by dsimp only [nodeDat]
theorem node_after2 (c : Dev nD) (t : Fin cfg1.N) :
    (nodeDat V c).after 2 t = nodeOut (nodeBlk V c 0 t) (nodeBlk V c 1 t) := by dsimp only [nodeDat]

theorem node_before0 (c : Dev nD) (t : Fin cfg1.N) (d) : (nodeDat V c).before 0 t d = nodeBlk V c 0 t :=
  node_before0_of V (nodeDat V c) (node_A V c 0) (node_after0 V c) t d
theorem node_before1 (c : Dev nD) (t : Fin cfg1.N) (d) : (nodeDat V c).before 1 t d = nodeBlk V c 1 t :=
  node_before1_of V (nodeDat V c) (node_A V c 1) (node_after1 V c) t d

/-! ## The body obligation -/

/-- What the body is called with at point `t`, the windows one by one, -/
def nodePre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d)))

/-- and what it returns. -/
def nodePost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t))

/-- The body at any point: the inputs' memrefs hold their blocks, so `node_sound` applies; the invariant and the core's
    dues pass through unread. -/
theorem node_body (c : Dev nD) (t : Fin cfg1.N) :
    nodePre V c t ⊢ wp frame (wpE (defs₀ (F := F)) Variants.none c none) Set.univ (bodyAt1 t) (fun _ => nodePost V c t) := by
  unfold nodePre nodePost bodyAt1
  simp only [node_before0, node_before1]
  rw [show (nodeDat V c).Φ t.succ = (nodeDat V c).Φ t.castSucc from rfl,
    show (nodeDat V c).owesAt () t.succ = (nodeDat V c).owesAt () t.castSucc from rfl,
    node_after0, node_after1, node_after2]
  iintro ⟨HΦ, Ho, ⟨%d0, H0⟩, ⟨%d1, H1⟩, ⟨%d2, H2⟩⟩
  iapply (node_sound c Set.univ _ _ _ _ _ _ _ (nodeBlk V c 0 t) (nodeBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem node_obligation (c : Dev nD) : BodyObligation (nodeDat (F := F) V c) (defs₀ (F := F)) Variants.none () Set.univ := fun t => by
  rw [bigSep_W1, bigSep_W1]
  exact node_body V c t

end Cert.Kernel.Stage

end
-- ==== Proof.KRun.lean ====
/-
  The program's run, at any float instance: every weakly fair execution of @main from a memory with zero counters
  terminates, nothing faulting, and in every final memory each unscoped buffer holds what the fold below says.

  @main is five items in order: the 23 host operations that gather the source values, the 4 that stack the edge
  parameters, the edge stage, the 15 host operations between the stages (the accumulating scatter of the messages
  onto the nodes and the stacking of the node parameters), and the node stage. The buffers' contents at each
  boundary are a fold from the launch memory: a host stretch applies its operations; a stage replaces its windows'
  arrays by what its write-backs leave (the inputs as entered, the output folded over the grid) and leaves every
  other buffer alone. No item writes an argument, so each argument's buffer walks back through the fold to its
  launch contents; the result buffer ends at what the node stage's write-backs leave.
-/
import proofs.«120978_j38508676776060_2_alg».proof.Proof.KEdge
import proofs.«120978_j38508676776060_2_alg».proof.Proof.KNode
import proofs.«120978_j38508676776060_2_alg».proof.Proof.Gen.Kernel.Regions

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the gather of the source values. -/
abbrev W1 : Dev nD → Valuation τ sig (Elt F) := fun c => StableHlo.after hostOps0 (W0 m ρ c)
/-- After the stacking of the edge parameters: what the edge stage is entered from. -/
abbrev W2 : Dev nD → Valuation τ sig (Elt F) := fun c => StableHlo.after hostOps0_1 (W1 m ρ c)
/-- The same read at the TensorCore's references. -/
abbrev Ve : (c : Dev nD) → (b : Ref sig .tc) → Buf (Elt F) ((c : Thread nD τ).loc b) := fun c b => W2 m ρ c b
/-- After the edge stage: its arrays at what its write-backs leave, every other buffer as entered. -/
def W3 (c : Dev nD) : Valuation τ sig (Elt F) :=
  Pipeline.withArrays spec0 c (W2 m ρ c) fun w => (edgeDat (Ve m ρ) c).arrAt w cfg0.N
theorem W3_arr (c : Dev nD) (w : Fin cfg0.W) :
    W3 m ρ c (Proc.devRef .tc (Pipeline.arrRef spec0 w)) = (edgeDat (Ve m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev Vx : (c : Dev nD) → (b : Ref sig .tc) → Buf (Elt F) ((c : Thread nD τ).loc b) := fun c b => W3 m ρ c b
theorem edge_hF (c : Dev nD) (w : Fin cfg0.W) : (edgeDat (Ve m ρ) c).arrAt w cfg0.N = Vx m ρ c (Pipeline.arrRef spec0 w) :=
  (W3_arr m ρ c w).symm
theorem edge_hrest (c : Dev nD) : ∀ b, b ∉ Finset.univ.image (Pipeline.arrRef spec0) → Vx m ρ c b = Ve m ρ c b :=
  fun b hb => W3_of_ne m ρ c b fun w e => hb (Finset.mem_image.mpr ⟨w, Finset.mem_univ _, e⟩)

/-- After the host operations between the stages: what the node stage is entered from. -/
abbrev W4 : Dev nD → Valuation τ sig (Elt F) := fun c => StableHlo.after hostOps1 (W3 m ρ c)
abbrev Vn : (c : Dev nD) → (b : Ref sig .tc) → Buf (Elt F) ((c : Thread nD τ).loc b) := fun c b => W4 m ρ c b
/-- After the node stage: its arrays at what its write-backs leave, every other buffer as entered. -/
def W5 (c : Dev nD) : Valuation τ sig (Elt F) :=
  Pipeline.withArrays spec1 c (W4 m ρ c) fun w => (nodeDat (Vn m ρ) c).arrAt w cfg1.N
theorem W5_arr (c : Dev nD) (w : Fin cfg1.W) :
    W5 m ρ c (Proc.devRef .tc (Pipeline.arrRef spec1 w)) = (nodeDat (Vn m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev Vy : (c : Dev nD) → (b : Ref sig .tc) → Buf (Elt F) ((c : Thread nD τ).loc b) := fun c b => W5 m ρ c b
theorem node_hF (c : Dev nD) (w : Fin cfg1.W) : (nodeDat (Vn m ρ) c).arrAt w cfg1.N = Vy m ρ c (Pipeline.arrRef spec1 w) :=
  (W5_arr m ρ c w).symm
theorem node_hrest (c : Dev nD) : ∀ b, b ∉ Finset.univ.image (Pipeline.arrRef spec1) → Vy m ρ c b = Vn m ρ c b :=
  fun b hb => W5_of_ne m ρ c b fun w e => hb (Finset.mem_image.mpr ⟨w, Finset.mem_univ _, e⟩)

/-! ## The arguments end as launched -/

/-- A buffer that is no array of either stage and that no host operation writes ends holding its launch contents. -/
theorem W5_untouched (c : Dev nD) (r : Ref sig .tc) (h5 : ∀ w, Pipeline.arrRef spec1 w ≠ r) (h4 : r ∉ hostOps1_W)
    (h3 : ∀ w, Pipeline.arrRef spec0 w ≠ r) (h2 : r ∉ hostOps0_1_W) (h1 : r ∉ hostOps0_W) :
    W5 m ρ c (Proc.devRef .tc r) = m ((c : Thread nD τ).loc r) :=
  (W5_of_ne m ρ c r h5).trans <| (StableHlo.after_of_writes_sub hostOps1 _ hostOps1_writes h4).trans <|
    (W3_of_ne m ρ c r h3).trans <| (StableHlo.after_of_writes_sub hostOps0_1 _ hostOps0_1_writes h2).trans <|
    (StableHlo.after_of_writes_sub hostOps0 _ hostOps0_writes h1).trans rfl

/-! ## The proof data family and the thread state -/

/-- No pipeline has a prefetched table. -/
abbrev noTables : (p : Fin 2) → (pcfgs (F := F) p).Adm := fun p => (cfgs p).toPCfg_adm
/-- Each stage's proof data at the contents the stage is entered from. -/
def pdat : (p : Fin 2) → (c : Dev nD) → Dat τ (Elt F) Unit ℕ (UR sig nD τ) ℕ (Pipeline.pin (pcfgs (F := F)) noTables p) c
  | ⟨0, _⟩ => fun c => edgeDat (Ve m ρ) c
  | ⟨1, _⟩ => fun c => nodeDat (Vn m ρ) c
abbrev noVariants : Variants := Variants.none
/-- No core owes another anything: no level is assigned. -/
abbrev noPairs : GSem nD τ sig → Finset Unit := fun _ => ∅
abbrev lvl0 : GSem nD τ sig → Unit → ℕ := fun _ _ => 0
/-- What rides beside the buffers through every item: the core's generator register at some state, and the core
    owing nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Last (c : Dev nD) : sProp 𝕄 := iprop(StableHlo.held (c : Thread nD τ) (Pipeline.ucRefs τ sig) (W5 m ρ c) ∗ ∃ r, prngReg c r)

/-! ## The stages as segments -/

-- a library lemma stated over the pinned configuration unifies with the printed one only when unification may unfold
-- plain definitions in a metavariable's type
set_option backward.isDefEq.respectTransparency.types false in
/-- The edge stage as a segment: entered from every unscoped buffer at the contents before it, left with the stage's
    arrays at what its write-backs leave and every other buffer as entered. Its arrays are split out of the unscoped
    buffers on entry and put back on exit; the generator register goes into the stage's invariant and comes out;
    nothing is owed; the kernel has no semaphore of its own. -/
def edgeSeg : Pipeline.RegionSeg (pcfgs (F := F)) noTables (pdat m ρ) () defs₀ noVariants noPairs lvl0 0 where
  win := launch0.win.to₀
  block_pos := launch0.block_pos
  stage_whole := launch0.stage_whole
  K := PEmpty
  osem k := k.elim
  ho := Pipeline.OwnSemFacts.none _
  hbody c := (edge_obligation (Ve m ρ) c).loose
  hwaits := Pipeline.hwaits_of_owed_zero _ _ _ _ noPairs lvl0 0 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ve m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (Ve m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (Ve m ρ c) (Vx m ρ c) ((pdat m ρ 0 c).arrAt · cfg0.N) (edge_hF m ρ c) (edge_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The node stage as a segment: entered from every unscoped buffer at the contents before it, left with the stage's
    arrays at what its write-backs leave and every other buffer as entered. Its arrays are split out of the unscoped
    buffers on entry and put back on exit; the generator register goes into the stage's invariant and comes out;
    nothing is owed; the kernel has no semaphore of its own. -/
def nodeSeg : Pipeline.RegionSeg (pcfgs (F := F)) noTables (pdat m ρ) () defs₀ noVariants noPairs lvl0 1 where
  win := launch1.win.to₀
  block_pos := launch1.block_pos
  stage_whole := launch1.stage_whole
  K := PEmpty
  osem k := k.elim
  ho := Pipeline.OwnSemFacts.none _
  hbody c := (node_obligation (Vn m ρ) c).loose
  hwaits := Pipeline.hwaits_of_owed_zero _ _ _ _ noPairs lvl0 1 fun _ _ => rfl
  pre c := iprop(StableHlo.held (c : Thread nD τ) (Pipeline.ucRefs τ sig) (W4 m ρ c) ∗ Rest c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vn m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (Vn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (Vn m ρ c) (Vy m ρ c) ((pdat m ρ 1 c).arrAt · cfg1.N) (node_hF m ρ c) (node_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's five items in order. -/
abbrev items : List (Pipeline.Seg (pcfgs (F := F)) noTables (pdat m ρ) () defs₀ noVariants noPairs lvl0) :=
  [ .host (hostSeg hostOps0 hostOps0_sub hostOps0_fresh (W0 m ρ)),
    .host (hostSeg hostOps0_1 hostOps0_1_sub hostOps0_1_fresh (W1 m ρ)),
    .region (edgeSeg m ρ),
    .host (hostSeg hostOps1 hostOps1_sub hostOps1_fresh (W3 m ρ)),
    .region (nodeSeg m ρ) ]

-- the kit's implicit arguments are found by unifying its conclusion with this one, which takes unfolding plain
-- definitions in a metavariable's type
set_option backward.isDefEq.respectTransparency.types false in
/-- THE RUN: from any memory with zero counters every weakly fair execution of @main on the TensorCores terminates,
    nothing faulting, and in every final memory every unscoped buffer holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdat m ρ) () cellOf_inj emb₁ defs₀ noVariants noPairs lvl0 m ρ main (items m ρ)
    (fun c Q => by
      rewrite [main_chain c, Pipeline.Seg.run_eq_chain,
        show (items m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Last m ρ)
    (hch := ⟨fun _ => .rfl, fun _ => .rfl, fun _ => .rfl, fun _ => .rfl, fun _ => .rfl, fun _ => .rfl⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Stage

end
-- ==== Proof.KKept.lean ====
/-
  The run's post read at the nine argument buffers: each is unscoped, is no array of either stage, and is written
  by none of the three stretches of host operations, so in every final memory it holds its launch contents.
-/
import proofs.«120978_j38508676776060_2_alg».proof.Proof.KRun

set_option maxRecDepth 16384

noncomputable section

namespace Cert.Kernel.Stage

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- One such buffer, from the run's post. -/
theorem kept_of (s : MemSt nD τ sig (Elt F))
    (h : ∀ c : Dev nD, ∀ b ∈ Pipeline.ucRefs τ sig, s.mem (((c : Thread nD τ)).1, b) = W5 m ρ c b) (c : Dev nD) (r : Ref sig .tc)
    (hu : ¬ (Proc.devRef .tc r : DevRef τ sig).isScoped) (h5 : ∀ w, Pipeline.arrRef spec1 w ≠ r) (h4 : r ∉ hostOps1_W)
    (h3 : ∀ w, Pipeline.arrRef spec0 w ≠ r) (h2 : r ∉ hostOps0_1_W) (h1 : r ∉ hostOps0_W) :
    s.mem ((c.tc : Thread nD τ).loc r) = m ((c.tc : Thread nD τ).loc r) :=
  (h c _ (mem_uc r hu)).trans (W5_untouched m ρ c r h5 h4 h3 h2 h1)

/-- The nine arguments, in order. -/
theorem args_kept (s : MemSt nD τ sig (Elt F))
    (h : ∀ c : Dev nD, ∀ b ∈ Pipeline.ucRefs τ sig, s.mem (((c : Thread nD τ)).1, b) = W5 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8) :=
  ⟨kept_of m ρ s h c main_arg0 (by decide) (by decide) (by decide) (by decide) (by decide) (by decide),
   kept_of m ρ s h c main_arg1 (by decide) (by decide) (by decide) (by decide) (by decide) (by decide),
   kept_of m ρ s h c main_arg2 (by decide) (by decide) (by decide) (by decide) (by decide) (by decide),
   kept_of m ρ s h c main_arg3 (by decide) (by decide) (by decide) (by decide) (by decide) (by decide),
   kept_of m ρ s h c main_arg4 (by decide) (by decide) (by decide) (by decide) (by decide) (by decide),
   kept_of m ρ s h c main_arg5 (by decide) (by decide) (by decide) (by decide) (by decide) (by decide),
   kept_of m ρ s h c main_arg6 (by decide) (by decide) (by decide) (by decide) (by decide) (by decide),
   kept_of m ρ s h c main_arg7 (by decide) (by decide) (by decide) (by decide) (by decide) (by decide),
   kept_of m ρ s h c main_arg8 (by decide) (by decide) (by decide) (by decide) (by decide) (by decide)⟩

/-- The frame: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m ρ r.2 h c) (run_all m ρ)

end Cert.Kernel.Stage

end
-- ==== Proof.KIEdge.lean ====
/-
  The edge stage (the first of the program's two kernel regions), at any float instance and at any contents
  `V` the region may find in the arrays of its three windows.

  The grid has 50 points. At point t the region hands the body the t-th block of 64000 columns of the gathered
  source values ([16, 64000] out of [16, 3200000]), the same columns of the three stacked edge-parameter rows
  ([3, 64000] out of [3, 3200000]), and the output's staging buffer. The body loads the two input blocks whole,
  and stores ONE value over the whole output block: the blend of the parameter rows and the source values
  (`k0_pay1`). So what the body leaves in the output buffer is that value, whatever the buffer held before, and
  it leaves the two input buffers as it found them. That is the whole content of this module: the body's triple,
  the proof data the launch theorems take (each window's buffer after the body at each point), and the body
  obligation at every point.
-/
import proofs.«120978_j38508676776060_2_alg».proof.Proof.Gen.KernelIdeal.Launch
import proofs.«120978_j38508676776060_2_alg».proof.Proof.Gen.KernelIdeal.Skeleton
import proofs.«120978_j38508676776060_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point works on. -/
def edgeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point (fetched there, or still there from the point before),
    for any proof data over `V`'s arrays whose body leaves the block in place: the source values' window, -/
theorem edge_before0_of {c : Dev nD} (dat : Dat τ (Elt F) Unit ℕ (UR sig nD τ) ℕ cfg0 c)
    (hA : dat.A 0 = V c (Pipeline.arrRef spec0 0))
    (hafter : ∀ t, dat.after 0 t = edgeBlk V c 0 t) (t : Fin cfg0.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)

/-- and the parameter rows' window. -/
theorem edge_before1_of {c : Dev nD} (dat : Dat τ (Elt F) Unit ℕ (UR sig nD τ) ℕ cfg0 c)
    (hA : dat.A 1 = V c (Pipeline.arrRef spec0 1))
    (hafter : ∀ t, dat.after 1 t = edgeBlk V c 1 t) (t : Fin cfg0.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)

/-! ## What the body reads and writes -/

/-- The whole [16, 64000] block: the rectangle of the source-value load and of the one store. -/
abbrev rEdge : Rect S16x64000 := Rect.unit (s := S16x64000) ![0, 0] S16x64000.size inb_S16x64000_S16x64000_0_0
/-- The whole [3, 64000] block of the three parameter rows. -/
abbrev rEdgeP : Rect S3x64000 := Rect.unit (s := S3x64000) ![0, 0] S3x64000.size inb_S3x64000_S3x64000_0_0

/-- The output buffer after the body, from the two input blocks: its one store, over the whole block. -/
def edgeOut (x0 : Vec F S16x64000 .f32) (x1 : Vec F S3x64000 .f32) : Vec F S16x64000 .f32 :=
  View.canon [⟨rEdge, k0_pay1 (View.ld x0 rEdge) (View.ld x1 rEdgeP)⟩]

/-- The one store covers the buffer. -/
theorem edge_cover (p0 : Vec F S16x64000 .f32) (y : S16x64000.Idx) :
    ∃ pc ∈ ([⟨rEdge, p0⟩] : List (View.Piece (Elt F) S16x64000 .f32)), y ∈ pc.1.set :=
  View.cover_of_tiled [⟨rEdge, p0⟩] S16x64000.size (by rfl) y

/-! ## The body's triple -/

set_option maxHeartbeats 1000000 in
/-- The body on whole staging memrefs — the inputs' at read contents `x0`, `x1`, the output's at anything — runs to
    the continuation holding the inputs' as they were and the output's at `edgeOut x0 x1`. -/
theorem edge_sound (c : Dev nD) (E : Set ℕ) (i : grid0.Coords)
    (arg1 : Memref sig .tc .vmem S16x64000 .f32) (harg1 : arg1.IsWhole) (arg2 : Memref sig .tc .vmem S3x64000 .f32) (harg2 : arg2.IsWhole)
    (arg3 : Memref sig .tc .vmem S16x64000 .f32) (harg3 : arg3.IsWhole)
    (x0 : Vec F S16x64000 .f32) (x1 : Vec F S3x64000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (edgeOut x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (edge_cover _)

/-! ## The proof data -/

/-- The proof data of the edge stage on core `c`: the arrays as the region finds them; after the body at point `t`
    each input's buffer at its block and the output's at `edgeOut` of the two input blocks; the invariant the scoped
    rest and the generator register, untouched; nothing owed; full shares. -/
def edgeDat (c : Dev nD) : Dat τ (Elt F) Unit ℕ (UR sig nD τ) ℕ cfg0 c where
  A w := V c (Pipeline.arrRef spec0 w)
  after w t := match w with
    | ⟨0, _⟩ => edgeBlk V c 0 t
    | ⟨1, _⟩ => edgeBlk V c 1 t
    | ⟨2, _⟩ => edgeOut (edgeBlk V c 0 t) (edgeBlk V c 1 t)
  Φ _ := Pipeline.ΦA spec0 c
  q _ := fullShare
  owed _ := 0

theorem edge_A (c : Dev nD) (w : Fin cfg0.W) : (edgeDat V c).A w = V c (Pipeline.arrRef spec0 w) := by
  dsimp only [edgeDat]
theorem edge_after0 (c : Dev nD) (t : Fin cfg0.N) : (edgeDat V c).after 0 t = edgeBlk V c 0 t := by dsimp only [edgeDat]
theorem edge_after1 (c : Dev nD) (t : Fin cfg0.N) : (edgeDat V c).after 1 t = edgeBlk V c 1 t := by dsimp only [edgeDat]
theorem edge_after2 (c : Dev nD) (t : Fin cfg0.N) :
    (edgeDat V c).after 2 t = edgeOut (edgeBlk V c 0 t) (edgeBlk V c 1 t) := by dsimp only [edgeDat]

theorem edge_before0 (c : Dev nD) (t : Fin cfg0.N) (d) : (edgeDat V c).before 0 t d = edgeBlk V c 0 t :=
  edge_before0_of V (edgeDat V c) (edge_A V c 0) (edge_after0 V c) t d
theorem edge_before1 (c : Dev nD) (t : Fin cfg0.N) (d) : (edgeDat V c).before 1 t d = edgeBlk V c 1 t :=
  edge_before1_of V (edgeDat V c) (edge_A V c 1) (edge_after1 V c) t d

/-! ## The body obligation -/

/-- What the body is called with at point `t`, the windows one by one, -/
def edgePre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d)))

/-- and what it returns. -/
def edgePost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t))

/-- The body at any point: the inputs' memrefs hold their blocks, so `edge_sound` applies; the invariant and the core's
    dues pass through unread. -/
theorem edge_body (c : Dev nD) (t : Fin cfg0.N) :
    edgePre V c t ⊢ wp frame (wpE (defs₀ (F := F)) Variants.none c none) Set.univ (bodyAt0 t) (fun _ => edgePost V c t) := by
  unfold edgePre edgePost bodyAt0
  simp only [edge_before0, edge_before1]
  rw [show (edgeDat V c).Φ t.succ = (edgeDat V c).Φ t.castSucc from rfl,
    show (edgeDat V c).owesAt () t.succ = (edgeDat V c).owesAt () t.castSucc from rfl,
    edge_after0, edge_after1, edge_after2]
  iintro ⟨HΦ, Ho, ⟨%d0, H0⟩, ⟨%d1, H1⟩, ⟨%d2, H2⟩⟩
  iapply (edge_sound c Set.univ _ _ _ _ _ _ _ (edgeBlk V c 0 t) (edgeBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem edge_obligation (c : Dev nD) : BodyObligation (edgeDat (F := F) V c) (defs₀ (F := F)) Variants.none () Set.univ := fun t => by
  rw [bigSep_W0, bigSep_W0]
  exact edge_body V c t

end Cert.KernelIdeal.Stage

end
-- ==== Proof.KINode.lean ====
/-
  The node stage (the second of the program's two kernel regions), at any float instance and at any contents
  `V` the region may find in the arrays of its three windows.

  The grid has 2 points. At point t the region hands the body rows 8t … 8t+7 of the aggregated messages
  ([8, 100000] out of [16, 100000]), the three stacked node-parameter rows whole ([3, 100000], the same block at
  both points, fetched once), and the output's staging buffer. The body loads the two input blocks whole and
  stores ONE value over the whole output block: the blend of the parameter rows and the aggregated messages
  (`k1_pay1`). So what the body leaves in the output buffer is that value, whatever the buffer held before, and
  it leaves the two input buffers as it found them: the body's triple, the proof data the launch theorems take,
  and the body obligation at every point.
-/
import proofs.«120978_j38508676776060_2_alg».proof.Proof.Gen.KernelIdeal.Launch
import proofs.«120978_j38508676776060_2_alg».proof.Proof.Gen.KernelIdeal.Skeleton
import proofs.«120978_j38508676776060_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point works on. -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point (fetched there, or still there from the point before),
    for any proof data over `V`'s arrays whose body leaves the block in place: the aggregated messages' window, -/
theorem node_before0_of {c : Dev nD} (dat : Dat τ (Elt F) Unit ℕ (UR sig nD τ) ℕ cfg1 c)
    (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)

/-- and the parameter rows' window. -/
theorem node_before1_of {c : Dev nD} (dat : Dat τ (Elt F) Unit ℕ (UR sig nD τ) ℕ cfg1 c)
    (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)

/-! ## What the body reads and writes -/

/-- The whole [8, 100000] block: the rectangle of the load of the aggregated messages and of the one store. -/
abbrev rNode : Rect S8x100000 := Rect.unit (s := S8x100000) ![0, 0] S8x100000.size inb_S8x100000_S8x100000_0_0
/-- The whole [3, 100000] block of the three parameter rows. -/
abbrev rNodeP : Rect S3x100000 := Rect.unit (s := S3x100000) ![0, 0] S3x100000.size inb_S3x100000_S3x100000_0_0

/-- The output buffer after the body, from the two input blocks: its one store, over the whole block. -/
def nodeOut (x0 : Vec F S8x100000 .f32) (x1 : Vec F S3x100000 .f32) : Vec F S8x100000 .f32 :=
  View.canon [⟨rNode, k1_pay1 (View.ld x0 rNode) (View.ld x1 rNodeP)⟩]

/-- The one store covers the buffer. -/
theorem node_cover (p0 : Vec F S8x100000 .f32) (y : S8x100000.Idx) :
    ∃ pc ∈ ([⟨rNode, p0⟩] : List (View.Piece (Elt F) S8x100000 .f32)), y ∈ pc.1.set :=
  View.cover_of_tiled [⟨rNode, p0⟩] S8x100000.size (by rfl) y

/-! ## The body's triple -/

set_option maxHeartbeats 1000000 in
/-- The body on whole staging memrefs — the inputs' at read contents `x0`, `x1`, the output's at anything — runs to
    the continuation holding the inputs' as they were and the output's at `nodeOut x0 x1`. -/
theorem node_sound (c : Dev nD) (E : Set ℕ) (i : grid1.Coords)
    (arg1 : Memref sig .tc .vmem S8x100000 .f32) (harg1 : arg1.IsWhole) (arg2 : Memref sig .tc .vmem S3x100000 .f32) (harg2 : arg2.IsWhole)
    (arg3 : Memref sig .tc .vmem S8x100000 .f32) (harg3 : arg3.IsWhole)
    (x0 : Vec F S8x100000 .f32) (x1 : Vec F S3x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (nodeOut x0 x1)) -∗ K ⟨⟩))
      ⊢ wp frame (wpE (defs₀ (F := F)) Variants.none c none) E (cc1__node_kernel i arg1 harg1 arg2 harg2 arg3 harg3) K := by
  simp only [cc1__node_kernel_eq_skeleton]; unfold cc1__node_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (node_cover _)

/-! ## The proof data -/

/-- The proof data of the node stage on core `c`: the arrays as the region finds them; after the body at point `t`
    each input's buffer at its block and the output's at `nodeOut` of the two input blocks; the invariant the scoped
    rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeOut (nodeBlk V c 0 t) (nodeBlk V c 1 t)
  Φ _ := Pipeline.ΦA spec1 c
  q _ := fullShare
  owed _ := 0

theorem node_A (c : Dev nD) (w : Fin cfg1.W) : (nodeDat V c).A w = V c (Pipeline.arrRef spec1 w) := by
  dsimp only [nodeDat]
theorem node_after0 (c : Dev nD) (t : Fin cfg1.N) : (nodeDat V c).after 0 t = nodeBlk V c 0 t := by dsimp only [nodeDat]
theorem node_after1 (c : Dev nD) (t : Fin cfg1.N) : (nodeDat V c).after 1 t = nodeBlk V c 1 t := by dsimp only [nodeDat]
theorem node_after2 (c : Dev nD) (t : Fin cfg1.N) :
    (nodeDat V c).after 2 t = nodeOut (nodeBlk V c 0 t) (nodeBlk V c 1 t) := by dsimp only [nodeDat]

theorem node_before0 (c : Dev nD) (t : Fin cfg1.N) (d) : (nodeDat V c).before 0 t d = nodeBlk V c 0 t :=
  node_before0_of V (nodeDat V c) (node_A V c 0) (node_after0 V c) t d
theorem node_before1 (c : Dev nD) (t : Fin cfg1.N) (d) : (nodeDat V c).before 1 t d = nodeBlk V c 1 t :=
  node_before1_of V (nodeDat V c) (node_A V c 1) (node_after1 V c) t d

/-! ## The body obligation -/

/-- What the body is called with at point `t`, the windows one by one, -/
def nodePre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d)))

/-- and what it returns. -/
def nodePost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t))

/-- The body at any point: the inputs' memrefs hold their blocks, so `node_sound` applies; the invariant and the core's
    dues pass through unread. -/
theorem node_body (c : Dev nD) (t : Fin cfg1.N) :
    nodePre V c t ⊢ wp frame (wpE (defs₀ (F := F)) Variants.none c none) Set.univ (bodyAt1 t) (fun _ => nodePost V c t) := by
  unfold nodePre nodePost bodyAt1
  simp only [node_before0, node_before1]
  rw [show (nodeDat V c).Φ t.succ = (nodeDat V c).Φ t.castSucc from rfl,
    show (nodeDat V c).owesAt () t.succ = (nodeDat V c).owesAt () t.castSucc from rfl,
    node_after0, node_after1, node_after2]
  iintro ⟨HΦ, Ho, ⟨%d0, H0⟩, ⟨%d1, H1⟩, ⟨%d2, H2⟩⟩
  iapply (node_sound c Set.univ _ _ _ _ _ _ _ (nodeBlk V c 0 t) (nodeBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch theorems, at every point. -/
theorem node_obligation (c : Dev nD) : BodyObligation (nodeDat (F := F) V c) (defs₀ (F := F)) Variants.none () Set.univ := fun t => by
  rw [bigSep_W1, bigSep_W1]
  exact node_body V c t

end Cert.KernelIdeal.Stage

end
-- ==== Proof.KIRun.lean ====
/-
  The program's run, at any float instance: every weakly fair execution of @main from a memory with zero counters
  terminates, nothing faulting, and in every final memory each unscoped buffer holds what the fold below says.

  @main is five items in order: the 23 host operations that gather the source values, the 4 that stack the edge
  parameters, the edge stage, the 15 host operations between the stages (the accumulating scatter of the messages
  onto the nodes and the stacking of the node parameters), and the node stage. The buffers' contents at each
  boundary are a fold from the launch memory: a host stretch applies its operations; a stage replaces its windows'
  arrays by what its write-backs leave (the inputs as entered, the output folded over the grid) and leaves every
  other buffer alone. No item writes an argument, so each argument's buffer walks back through the fold to its
  launch contents; the result buffer ends at what the node stage's write-backs leave.
-/
import proofs.«120978_j38508676776060_2_alg».proof.Proof.KIEdge
import proofs.«120978_j38508676776060_2_alg».proof.Proof.KINode
import proofs.«120978_j38508676776060_2_alg».proof.Proof.Gen.KernelIdeal.Regions

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the gather of the source values. -/
abbrev W1 : Dev nD → Valuation τ sig (Elt F) := fun c => StableHlo.after hostOps0 (W0 m ρ c)
/-- After the stacking of the edge parameters: what the edge stage is entered from. -/
abbrev W2 : Dev nD → Valuation τ sig (Elt F) := fun c => StableHlo.after hostOps0_1 (W1 m ρ c)
/-- The same read at the TensorCore's references. -/
abbrev Ve : (c : Dev nD) → (b : Ref sig .tc) → Buf (Elt F) ((c : Thread nD τ).loc b) := fun c b => W2 m ρ c b
/-- After the edge stage: its arrays at what its write-backs leave, every other buffer as entered. -/
def W3 (c : Dev nD) : Valuation τ sig (Elt F) :=
  Pipeline.withArrays spec0 c (W2 m ρ c) fun w => (edgeDat (Ve m ρ) c).arrAt w cfg0.N
theorem W3_arr (c : Dev nD) (w : Fin cfg0.W) :
    W3 m ρ c (Proc.devRef .tc (Pipeline.arrRef spec0 w)) = (edgeDat (Ve m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev Vx : (c : Dev nD) → (b : Ref sig .tc) → Buf (Elt F) ((c : Thread nD τ).loc b) := fun c b => W3 m ρ c b
theorem edge_hF (c : Dev nD) (w : Fin cfg0.W) : (edgeDat (Ve m ρ) c).arrAt w cfg0.N = Vx m ρ c (Pipeline.arrRef spec0 w) :=
  (W3_arr m ρ c w).symm
theorem edge_hrest (c : Dev nD) : ∀ b, b ∉ Finset.univ.image (Pipeline.arrRef spec0) → Vx m ρ c b = Ve m ρ c b :=
  fun b hb => W3_of_ne m ρ c b fun w e => hb (Finset.mem_image.mpr ⟨w, Finset.mem_univ _, e⟩)

/-- After the host operations between the stages: what the node stage is entered from. -/
abbrev W4 : Dev nD → Valuation τ sig (Elt F) := fun c => StableHlo.after hostOps1 (W3 m ρ c)
abbrev Vn : (c : Dev nD) → (b : Ref sig .tc) → Buf (Elt F) ((c : Thread nD τ).loc b) := fun c b => W4 m ρ c b
/-- After the node stage: its arrays at what its write-backs leave, every other buffer as entered. -/
def W5 (c : Dev nD) : Valuation τ sig (Elt F) :=
  Pipeline.withArrays spec1 c (W4 m ρ c) fun w => (nodeDat (Vn m ρ) c).arrAt w cfg1.N
theorem W5_arr (c : Dev nD) (w : Fin cfg1.W) :
    W5 m ρ c (Proc.devRef .tc (Pipeline.arrRef spec1 w)) = (nodeDat (Vn m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev Vy : (c : Dev nD) → (b : Ref sig .tc) → Buf (Elt F) ((c : Thread nD τ).loc b) := fun c b => W5 m ρ c b
theorem node_hF (c : Dev nD) (w : Fin cfg1.W) : (nodeDat (Vn m ρ) c).arrAt w cfg1.N = Vy m ρ c (Pipeline.arrRef spec1 w) :=
  (W5_arr m ρ c w).symm
theorem node_hrest (c : Dev nD) : ∀ b, b ∉ Finset.univ.image (Pipeline.arrRef spec1) → Vy m ρ c b = Vn m ρ c b :=
  fun b hb => W5_of_ne m ρ c b fun w e => hb (Finset.mem_image.mpr ⟨w, Finset.mem_univ _, e⟩)

/-! ## The arguments end as launched -/

/-- A buffer that is no array of either stage and that no host operation writes ends holding its launch contents. -/
theorem W5_untouched (c : Dev nD) (r : Ref sig .tc) (h5 : ∀ w, Pipeline.arrRef spec1 w ≠ r) (h4 : r ∉ hostOps1_W)
    (h3 : ∀ w, Pipeline.arrRef spec0 w ≠ r) (h2 : r ∉ hostOps0_1_W) (h1 : r ∉ hostOps0_W) :
    W5 m ρ c (Proc.devRef .tc r) = m ((c : Thread nD τ).loc r) :=
  (W5_of_ne m ρ c r h5).trans <| (StableHlo.after_of_writes_sub hostOps1 _ hostOps1_writes h4).trans <|
    (W3_of_ne m ρ c r h3).trans <| (StableHlo.after_of_writes_sub hostOps0_1 _ hostOps0_1_writes h2).trans <|
    (StableHlo.after_of_writes_sub hostOps0 _ hostOps0_writes h1).trans rfl

/-! ## The proof data family and the thread state -/

/-- No pipeline has a prefetched table. -/
abbrev noTables : (p : Fin 2) → (pcfgs (F := F) p).Adm := fun p => (cfgs p).toPCfg_adm
/-- Each stage's proof data at the contents the stage is entered from. -/
def pdat : (p : Fin 2) → (c : Dev nD) → Dat τ (Elt F) Unit ℕ (UR sig nD τ) ℕ (Pipeline.pin (pcfgs (F := F)) noTables p) c
  | ⟨0, _⟩ => fun c => edgeDat (Ve m ρ) c
  | ⟨1, _⟩ => fun c => nodeDat (Vn m ρ) c
abbrev noVariants : Variants := Variants.none
/-- No core owes another anything: no level is assigned. -/
abbrev noPairs : GSem nD τ sig → Finset Unit := fun _ => ∅
abbrev lvl0 : GSem nD τ sig → Unit → ℕ := fun _ _ => 0
/-- What rides beside the buffers through every item: the core's generator register at some state, and the core
    owing nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Last (c : Dev nD) : sProp 𝕄 := iprop(StableHlo.held (c : Thread nD τ) (Pipeline.ucRefs τ sig) (W5 m ρ c) ∗ ∃ r, prngReg c r)

/-! ## The stages as segments -/

-- a library lemma stated over the pinned configuration unifies with the printed one only when unification may unfold
-- plain definitions in a metavariable's type
set_option backward.isDefEq.respectTransparency.types false in
/-- The edge stage as a segment: entered from every unscoped buffer at the contents before it, left with the stage's
    arrays at what its write-backs leave and every other buffer as entered. Its arrays are split out of the unscoped
    buffers on entry and put back on exit; the generator register goes into the stage's invariant and comes out;
    nothing is owed; the kernel has no semaphore of its own. -/
def edgeSeg : Pipeline.RegionSeg (pcfgs (F := F)) noTables (pdat m ρ) () defs₀ noVariants noPairs lvl0 0 where
  win := launch0.win.to₀
  block_pos := launch0.block_pos
  stage_whole := launch0.stage_whole
  K := PEmpty
  osem k := k.elim
  ho := Pipeline.OwnSemFacts.none _
  hbody c := (edge_obligation (Ve m ρ) c).loose
  hwaits := Pipeline.hwaits_of_owed_zero _ _ _ _ noPairs lvl0 0 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ve m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (Ve m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (Ve m ρ c) (Vx m ρ c) ((pdat m ρ 0 c).arrAt · cfg0.N) (edge_hF m ρ c) (edge_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The node stage as a segment: entered from every unscoped buffer at the contents before it, left with the stage's
    arrays at what its write-backs leave and every other buffer as entered. Its arrays are split out of the unscoped
    buffers on entry and put back on exit; the generator register goes into the stage's invariant and comes out;
    nothing is owed; the kernel has no semaphore of its own. -/
def nodeSeg : Pipeline.RegionSeg (pcfgs (F := F)) noTables (pdat m ρ) () defs₀ noVariants noPairs lvl0 1 where
  win := launch1.win.to₀
  block_pos := launch1.block_pos
  stage_whole := launch1.stage_whole
  K := PEmpty
  osem k := k.elim
  ho := Pipeline.OwnSemFacts.none _
  hbody c := (node_obligation (Vn m ρ) c).loose
  hwaits := Pipeline.hwaits_of_owed_zero _ _ _ _ noPairs lvl0 1 fun _ _ => rfl
  pre c := iprop(StableHlo.held (c : Thread nD τ) (Pipeline.ucRefs τ sig) (W4 m ρ c) ∗ Rest c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vn m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (Vn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (Vn m ρ c) (Vy m ρ c) ((pdat m ρ 1 c).arrAt · cfg1.N) (node_hF m ρ c) (node_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's five items in order. -/
abbrev items : List (Pipeline.Seg (pcfgs (F := F)) noTables (pdat m ρ) () defs₀ noVariants noPairs lvl0) :=
  [ .host (hostSeg hostOps0 hostOps0_sub hostOps0_fresh (W0 m ρ)),
    .host (hostSeg hostOps0_1 hostOps0_1_sub hostOps0_1_fresh (W1 m ρ)),
    .region (edgeSeg m ρ),
    .host (hostSeg hostOps1 hostOps1_sub hostOps1_fresh (W3 m ρ)),
    .region (nodeSeg m ρ) ]

-- the kit's implicit arguments are found by unifying its conclusion with this one, which takes unfolding plain
-- definitions in a metavariable's type
set_option backward.isDefEq.respectTransparency.types false in
/-- THE RUN: from any memory with zero counters every weakly fair execution of @main on the TensorCores terminates,
    nothing faulting, and in every final memory every unscoped buffer holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdat m ρ) () cellOf_inj emb₁ defs₀ noVariants noPairs lvl0 m ρ main (items m ρ)
    (fun c Q => by
      rewrite [main_chain c, Pipeline.Seg.run_eq_chain,
        show (items m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Last m ρ)
    (hch := ⟨fun _ => .rfl, fun _ => .rfl, fun _ => .rfl, fun _ => .rfl, fun _ => .rfl, fun _ => .rfl⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Stage

end
-- ==== Proof.KIKept.lean ====
/-
  The run's post read at the nine argument buffers: each is unscoped, is no array of either stage, and is written
  by none of the three stretches of host operations, so in every final memory it holds its launch contents.
-/
import proofs.«120978_j38508676776060_2_alg».proof.Proof.KIRun

set_option maxRecDepth 16384

noncomputable section

namespace Cert.KernelIdeal.Stage

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- One such buffer, from the run's post. -/
theorem kept_of (s : MemSt nD τ sig (Elt F))
    (h : ∀ c : Dev nD, ∀ b ∈ Pipeline.ucRefs τ sig, s.mem (((c : Thread nD τ)).1, b) = W5 m ρ c b) (c : Dev nD) (r : Ref sig .tc)
    (hu : ¬ (Proc.devRef .tc r : DevRef τ sig).isScoped) (h5 : ∀ w, Pipeline.arrRef spec1 w ≠ r) (h4 : r ∉ hostOps1_W)
    (h3 : ∀ w, Pipeline.arrRef spec0 w ≠ r) (h2 : r ∉ hostOps0_1_W) (h1 : r ∉ hostOps0_W) :
    s.mem ((c.tc : Thread nD τ).loc r) = m ((c.tc : Thread nD τ).loc r) :=
  (h c _ (mem_uc r hu)).trans (W5_untouched m ρ c r h5 h4 h3 h2 h1)

/-- The nine arguments, in order. -/
theorem args_kept (s : MemSt nD τ sig (Elt F))
    (h : ∀ c : Dev nD, ∀ b ∈ Pipeline.ucRefs τ sig, s.mem (((c : Thread nD τ)).1, b) = W5 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8) :=
  ⟨kept_of m ρ s h c main_arg0 (by decide) (by decide) (by decide) (by decide) (by decide) (by decide),
   kept_of m ρ s h c main_arg1 (by decide) (by decide) (by decide) (by decide) (by decide) (by decide),
   kept_of m ρ s h c main_arg2 (by decide) (by decide) (by decide) (by decide) (by decide) (by decide),
   kept_of m ρ s h c main_arg3 (by decide) (by decide) (by decide) (by decide) (by decide) (by decide),
   kept_of m ρ s h c main_arg4 (by decide) (by decide) (by decide) (by decide) (by decide) (by decide),
   kept_of m ρ s h c main_arg5 (by decide) (by decide) (by decide) (by decide) (by decide) (by decide),
   kept_of m ρ s h c main_arg6 (by decide) (by decide) (by decide) (by decide) (by decide) (by decide),
   kept_of m ρ s h c main_arg7 (by decide) (by decide) (by decide) (by decide) (by decide) (by decide),
   kept_of m ρ s h c main_arg8 (by decide) (by decide) (by decide) (by decide) (by decide) (by decide)⟩

/-- The frame: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m ρ r.2 h c) (run_all m ρ)

end Cert.KernelIdeal.Stage

end
-- ==== Proof.PreDst.lean ====
/-
  No destination index is negative.

  The precondition is a conjunction, by `and`, of one-bit words, and it is all ones. Its last conjunct says that every
  destination index, compared signed against zero, is at least zero: the and over all entries of "dst_e >= 0" is one.
  So each entry's comparison is one, which says that the entry, read signed, is at least zero. Nothing of the other
  conjuncts (the arrays' entries being finite) is used, and they are never opened.
-/
import Idealize.ShloMosaic.Lib.ValueIdx
import Idealize.ShloMosaic.Lib.ReduceAll
import proofs.«120978_j38508676776060_2_alg».proof.Defs

namespace Cert.KernelIdeal.PreDst

open Idealize.ShloMosaic Idealize.ShloMosaic.ValueIdx

/-- The rank-zero shape has one index. -/
instance : Subsingleton Cert.Pre_finite_inputs.S_.Idx := ⟨fun _ _ => funext fun d => d.elim0⟩

/-- The last conjunct alone: if the precondition's tail, whatever the conjuncts before it came to, is all ones, then
    every entry of the index array, read signed, is at least zero. -/
theorem part2_nonneg [Cert.Pre_finite_inputs.Facts] (a2 : IVec Cert.Pre_finite_inputs.S3200000 32)
    (v33 : IVec Cert.Pre_finite_inputs.S_ 1)
    (h : Cert.Pre_finite_inputs.fn_part2 (F := Ideal) a2 v33 = fun _ => 1#1) (j : Cert.Pre_finite_inputs.S3200000.Idx) :
    0 ≤ (a2 j).toInt := by
  have h0 := congrFun h ix0
  unfold Cert.Pre_finite_inputs.fn_part2 at h0
  have h1 := (IntOp.andi_eq_one.mp h0).2
  have h2 := Host.reduce_andi_all _ _ _ _ _ h1 j
  exact IntOp.cmpi_sge.mp h2

/-- Under the precondition, on every device, every destination index read signed is at least zero. -/
theorem dst_nonneg [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S3200000.Idx) :
    0 ≤ ((m ((c.tc : Thread Cert.KernelIdeal.nD Cert.KernelIdeal.τ).loc Cert.KernelIdeal.main_arg2) :
      IVec Cert.KernelIdeal.S3200000 32) j).toInt := by
  have hc := h c
  unfold Cert.Pre_finite_inputs.fn Cert.Pre_finite_inputs.fn_part1 at hc
  exact part2_nonneg _ _ hc j

end Cert.KernelIdeal.PreDst
-- ==== Proof.LibNary3.lean ====
/-
  A host operation with three operands given as a literal family (a concatenation of three arrays), read at its
  result buffer: the operation's function applied to the three operands' contents, EACH AT ITS OWN REFERENCE.

  The general rule for an operation over a family `xs` of operand references gives the function applied to
  `fun k => F (xs k)`: under that binder the reference `xs k` is no literal, and the contents of an operand that an
  earlier operation of the same line computed cannot be read off any further. For a literal family of three the
  family of contents is spelt out coordinate by coordinate instead, so that each operand's contents stand at a
  literal reference and reading the line goes on. (The library states the same for four operands.)
-/
import Idealize.ShloMosaic.Lib.StableHlo.Run

noncomputable section

namespace Cert.Lib.Nary3

open Idealize.ShloMosaic Idealize.ShloMosaic.StableHlo Idealize.SL.Sem

variable {τ : Topo} {sig : RefSig} {Val : EltTy → Type} {x a b y : Ref sig .tc}

/-- The result of a three-operand operation, with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib.Nary3

end
-- ==== Proof.LibRows3.lean ====
/-
  Three flat vectors laid as the rows of a three-row array, read at one element.

  A flat vector [n] re-laid in row-major order as the one row [1, n] has the vector's element `e` at (0, e); and
  three rows [1, n] concatenated along axis 0 into [3, n] have row `k`'s element (0, e) at (k, e). Together: the
  array whose rows are three parameter vectors has parameter `k` of column `e` at (k, e).
-/
import Idealize.ShloMosaic.Lib.ValueIdx
import Idealize.ShloMosaic.Lib.Pipeline.Value

namespace Cert.Lib.Rows3

open Idealize.ShloMosaic Idealize.ShloMosaic.ValueIdx

variable {α : Type} {n : Nat}

/-- A flat vector re-laid as one row: element (0, e) of the row is element `e` of the vector. -/
theorem row_of_flat_apply (x : (⟨1, ![n]⟩ : Shape).Idx → α) (h : (⟨1, ![n]⟩ : Shape).ShapeCasts ⟨2, ![1, n]⟩) (e : Fin n) :
    shapeCast ⟨2, ![1, n]⟩ x h (ix2 (0 : Fin 1) e) = x (ix1 e) := by
  refine (shapeCast_addUnit_apply (n := 1) ![n] x h (ix2 (0 : Fin 1) e)).trans (congrArg x ?_)
  funext a
  match a with
  | ⟨0, _⟩ => rfl

/-- The three-row list's pieces are all of the result's rank, and off axis 0 an index of a piece is the result's. -/
private theorem off_axis (k : Fin 3) (e : Fin n) (b : Fin 2) (hb : b ≠ 0) :
    ((ix2 (0 : Fin 1) e : (⟨2, ![1, n]⟩ : Shape).Idx) b).val = ((ix2 k e : (⟨2, ![3, n]⟩ : Shape).Idx) b).val := by
  match b with
  | ⟨0, _⟩ => exact absurd rfl hb
  | ⟨1, _⟩ => rfl

section Concat
variable (r0 r1 r2 : (⟨2, ![1, n]⟩ : Shape).Idx → α)
  (h : Shape.Concatenates [(⟨2, ![1, n]⟩ : Shape), ⟨2, ![1, n]⟩, ⟨2, ![1, n]⟩] ⟨2, ![3, n]⟩ 0)

/-- Row 0 of three rows concatenated along axis 0 is the first. -/
theorem concat3_row0 (e : Fin n) :
    concatenate ⟨2, ![3, n]⟩ 0 [⟨⟨2, ![1, n]⟩, r0⟩, ⟨⟨2, ![1, n]⟩, r1⟩, ⟨⟨2, ![1, n]⟩, r2⟩] h (ix2 (0 : Fin 3) e)
      = r0 (ix2 (0 : Fin 1) e) :=
  concatenate_apply_piece (t := ⟨2, ![3, n]⟩) 0 [⟨⟨2, ![1, n]⟩, r0⟩, ⟨⟨2, ![1, n]⟩, r1⟩, ⟨⟨2, ![1, n]⟩, r2⟩] h
    (ix2 (0 : Fin 3) e) 0 (by simp) ⟨2, ![1, n]⟩ r0 rfl rfl 0 rfl
    (ix2 (0 : Fin 1) e) (fun b hb => off_axis 0 e b hb) rfl

/-- Row 1 of three rows concatenated along axis 0 is the second. -/
theorem concat3_row1 (e : Fin n) :
    concatenate ⟨2, ![3, n]⟩ 0 [⟨⟨2, ![1, n]⟩, r0⟩, ⟨⟨2, ![1, n]⟩, r1⟩, ⟨⟨2, ![1, n]⟩, r2⟩] h (ix2 (1 : Fin 3) e)
      = r1 (ix2 (0 : Fin 1) e) :=
  concatenate_apply_piece (t := ⟨2, ![3, n]⟩) 0 [⟨⟨2, ![1, n]⟩, r0⟩, ⟨⟨2, ![1, n]⟩, r1⟩, ⟨⟨2, ![1, n]⟩, r2⟩] h
    (ix2 (1 : Fin 3) e) 1 (by simp) ⟨2, ![1, n]⟩ r1 rfl rfl 1 rfl
    (ix2 (0 : Fin 1) e) (fun b hb => off_axis 1 e b hb) rfl

/-- Row 2 of three rows concatenated along axis 0 is the third. -/
theorem concat3_row2 (e : Fin n) :
    concatenate ⟨2, ![3, n]⟩ 0 [⟨⟨2, ![1, n]⟩, r0⟩, ⟨⟨2, ![1, n]⟩, r1⟩, ⟨⟨2, ![1, n]⟩, r2⟩] h (ix2 (2 : Fin 3) e)
      = r2 (ix2 (0 : Fin 1) e) :=
  concatenate_apply_piece (t := ⟨2, ![3, n]⟩) 0 [⟨⟨2, ![1, n]⟩, r0⟩, ⟨⟨2, ![1, n]⟩, r1⟩, ⟨⟨2, ![1, n]⟩, r2⟩] h
    (ix2 (2 : Fin 3) e) 2 (by simp) ⟨2, ![1, n]⟩ r2 rfl rfl 2 rfl
    (ix2 (0 : Fin 1) e) (fun b hb => off_axis 2 e b hb) rfl

end Concat

section Rows3
variable (x0 x1 x2 : (⟨1, ![n]⟩ : Shape).Idx → α)
  (c0 c1 c2 : (⟨1, ![n]⟩ : Shape).ShapeCasts ⟨2, ![1, n]⟩)
  (h : Shape.Concatenates [(⟨2, ![1, n]⟩ : Shape), ⟨2, ![1, n]⟩, ⟨2, ![1, n]⟩] ⟨2, ![3, n]⟩ 0)

/-- Three flat vectors as the rows of a three-row array: row 0 at column `e` is the first vector's element `e`. -/
theorem rows3_apply0 (e : Fin n) :
    concatenate ⟨2, ![3, n]⟩ 0 [⟨⟨2, ![1, n]⟩, shapeCast ⟨2, ![1, n]⟩ x0 c0⟩, ⟨⟨2, ![1, n]⟩, shapeCast ⟨2, ![1, n]⟩ x1 c1⟩,
      ⟨⟨2, ![1, n]⟩, shapeCast ⟨2, ![1, n]⟩ x2 c2⟩] h (ix2 (0 : Fin 3) e) = x0 (ix1 e) :=
  (concat3_row0 _ _ _ h e).trans (row_of_flat_apply x0 c0 e)

/-- Row 1 at column `e` is the second vector's element `e`. -/
theorem rows3_apply1 (e : Fin n) :
    concatenate ⟨2, ![3, n]⟩ 0 [⟨⟨2, ![1, n]⟩, shapeCast ⟨2, ![1, n]⟩ x0 c0⟩, ⟨⟨2, ![1, n]⟩, shapeCast ⟨2, ![1, n]⟩ x1 c1⟩,
      ⟨⟨2, ![1, n]⟩, shapeCast ⟨2, ![1, n]⟩ x2 c2⟩] h (ix2 (1 : Fin 3) e) = x1 (ix1 e) :=
  (concat3_row1 _ _ _ h e).trans (row_of_flat_apply x1 c1 e)

/-- Row 2 at column `e` is the third vector's element `e`. -/
theorem rows3_apply2 (e : Fin n) :
    concatenate ⟨2, ![3, n]⟩ 0 [⟨⟨2, ![1, n]⟩, shapeCast ⟨2, ![1, n]⟩ x0 c0⟩, ⟨⟨2, ![1, n]⟩, shapeCast ⟨2, ![1, n]⟩ x1 c1⟩,
      ⟨⟨2, ![1, n]⟩, shapeCast ⟨2, ![1, n]⟩ x2 c2⟩] h (ix2 (2 : Fin 3) e) = x2 (ix1 e) :=
  (concat3_row2 _ _ _ h e).trans (row_of_flat_apply x2 c2 e)

end Rows3

end Cert.Lib.Rows3
-- ==== Proof.KIHost.lean ====
/-
  The four arrays the two stages read that host operations compute, read off the fold of boundary contents,
  at any float instance.

  The edge stage reads the gathered source values (the last of the 23 gather operations; the 4 operations after
  them do not write it) and the three edge-parameter rows stacked: the concatenation along axis 0 of the three
  parameter vectors, each re-laid as a [1, 3200000] row. The node stage reads the aggregated messages: the
  accumulating scatter, onto an all-zero [16, 100000] array, of the edge stage's output along the columns the
  destination indices name (a negative index first moved up by the number of nodes); and the three node-parameter
  rows stacked likewise. No host operation and no stage writes an argument, so every argument read along the way
  is its launch contents.
-/
import proofs.«120978_j38508676776060_2_alg».proof.Proof.KIRun
import proofs.«120978_j38508676776060_2_alg».proof.Proof.LibNary3
import proofs.«120978_j38508676776060_2_alg».proof.Proof.LibRows3
import Idealize.ShloMosaic.Lib.StableHlo.Run
import Idealize.ShloMosaic.Lib.Pipeline.Value
import Idealize.ShloMosaic.Lib.ValueIdx

set_option maxRecDepth 16384

noncomputable section

namespace Cert.KernelIdeal.Stage

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-! ## Buffers nothing has written yet -/

/-- A buffer the gather does not write holds its launch contents after it. -/
theorem W1_untouched (c : Dev nD) (r : Ref sig .tc) (h1 : r ∉ hostOps0_W) :
    W1 m ρ c (Proc.devRef .tc r) = m ((c : Thread nD τ).loc r) :=
  (StableHlo.after_of_writes_sub hostOps0 _ hostOps0_writes h1).trans rfl

/-- A buffer that is no array of the edge stage and that the operations before it do not write holds its launch
    contents after the edge stage. -/
theorem W3_untouched (c : Dev nD) (r : Ref sig .tc)
    (h3 : ∀ w, Pipeline.arrRef spec0 w ≠ r) (h2 : r ∉ hostOps0_1_W) (h1 : r ∉ hostOps0_W) :
    W3 m ρ c (Proc.devRef .tc r) = m ((c : Thread nD τ).loc r) :=
  (W3_of_ne m ρ c r h3).trans <| (StableHlo.after_of_writes_sub hostOps0_1 _ hostOps0_1_writes h2).trans <|
    (StableHlo.after_of_writes_sub hostOps0 _ hostOps0_writes h1).trans rfl

/-! ## What the edge stage reads -/

/-- The gathered source values, as the 23 gather operations leave them. -/
abbrev srcVals (c : Dev nD) := W1 m ρ c (Proc.devRef .tc main_v0)

/-- The edge stage finds the gathered source values: the stacking of the parameters does not write them. -/
theorem Ve_v0 (c : Dev nD) : Ve m ρ c main_v0 = srcVals m ρ c :=
  StableHlo.after_of_writes_sub hostOps0_1 _ hostOps0_1_writes (by decide)

/-- The stacked edge parameters: the three parameter vectors as rows, one above the other. -/
theorem Ve_v4_eq (c : Dev nD) : Ve m ρ c main_v4 =
    concatenate S3x3200000 0 [⟨S1x3200000, shapeCast S1x3200000 (W1 m ρ c (Proc.devRef .tc main_arg4)) shapeCasts_S3200000_S1x3200000⟩,
      ⟨S1x3200000, shapeCast S1x3200000 (W1 m ρ c (Proc.devRef .tc main_arg5)) shapeCasts_S3200000_S1x3200000⟩,
      ⟨S1x3200000, shapeCast S1x3200000 (W1 m ρ c (Proc.devRef .tc main_arg3)) shapeCasts_S3200000_S1x3200000⟩]
      concatenates_S1x3200000_S1x3200000_S1x3200000_S3x3200000_d0 := by
  show StableHlo.after hostOps0_1 (W1 m ρ c) (Proc.devRef .tc main_v4) = _
  simp only [StableHlo.after_cons, StableHlo.after_nil]
  rw [Cert.Lib.Nary3.nary3_result]
  repeat (first
    | rw [StableHlo.reshape_result]
    | (rw [StableHlo.reshape_result_ne]; rotate_left; decide))
  rfl

/-- Row 0 of the stacked edge parameters is the edge weights, -/
theorem Ve_v4_row0 (c : Dev nD) (e : Fin 3200000) : Ve m ρ c main_v4 (ix2 (0 : Fin 3) e) = m ((c : Thread nD τ).loc main_arg4) (ix1 e) := by
  rw [Ve_v4_eq, W1_untouched m ρ c main_arg4 (by decide), W1_untouched m ρ c main_arg5 (by decide), W1_untouched m ρ c main_arg3 (by decide)]
  exact Cert.Lib.Rows3.rows3_apply0 _ _ _ _ _ _ _ e
/-- row 1 the edge biases, -/
theorem Ve_v4_row1 (c : Dev nD) (e : Fin 3200000) : Ve m ρ c main_v4 (ix2 (1 : Fin 3) e) = m ((c : Thread nD τ).loc main_arg5) (ix1 e) := by
  rw [Ve_v4_eq, W1_untouched m ρ c main_arg4 (by decide), W1_untouched m ρ c main_arg5 (by decide), W1_untouched m ρ c main_arg3 (by decide)]
  exact Cert.Lib.Rows3.rows3_apply1 _ _ _ _ _ _ _ e
/-- row 2 the edge blend weights. -/
theorem Ve_v4_row2 (c : Dev nD) (e : Fin 3200000) : Ve m ρ c main_v4 (ix2 (2 : Fin 3) e) = m ((c : Thread nD τ).loc main_arg3) (ix1 e) := by
  rw [Ve_v4_eq, W1_untouched m ρ c main_arg4 (by decide), W1_untouched m ρ c main_arg5 (by decide), W1_untouched m ρ c main_arg3 (by decide)]
  exact Cert.Lib.Rows3.rows3_apply2 _ _ _ _ _ _ _ e

/-! ## What the node stage reads -/

/-- The destination indices as the scatter takes them: a negative index moved up by the number of nodes, as a column. -/
abbrev dstWrapped (d : IVec S3200000 32) : IVec S3200000x1 32 :=
  broadcastInDim S3200000x1 ![0] bcast_S3200000_S3200000x1_0
    (select (cmpi .slt d (broadcastInDim S3200000 ![] bcast_S_S3200000 (constantI S_ 32 0#32)))
      (addi d (broadcastInDim S3200000 ![] bcast_S_S3200000 (constantI S_ 32 100000#32))) d)

/-- The aggregated messages: the edge stage's output accumulated, column by column, onto an all-zero array. -/
theorem Vn_v13_eq (c : Dev nD) : Vn m ρ c main_v13 =
    Host.scatterAdd scatter_S16x100000_S3200000x1_S16x3200000_0_1_1_1
      (broadcastInDim S16x100000 ![] bcast_S_S16x100000 (constant (F := F) S_ .f32 0x00000000#32))
      (dstWrapped (m ((c : Thread nD τ).loc main_arg2)))
      (W3 m ρ c (Proc.devRef .tc main_v5)) := by
  show StableHlo.after hostOps1 (W3 m ρ c) (Proc.devRef .tc main_v13) = _
  after_results
  rw [W3_untouched m ρ c main_arg2 (by decide) (by decide) (by decide)]

/-- The stacked node parameters. -/
theorem Vn_v17_eq (c : Dev nD) : Vn m ρ c main_v17 =
    concatenate S3x100000 0 [⟨S1x100000, shapeCast S1x100000 (W3 m ρ c (Proc.devRef .tc main_arg7)) shapeCasts_S100000_S1x100000⟩,
      ⟨S1x100000, shapeCast S1x100000 (W3 m ρ c (Proc.devRef .tc main_arg8)) shapeCasts_S100000_S1x100000⟩,
      ⟨S1x100000, shapeCast S1x100000 (W3 m ρ c (Proc.devRef .tc main_arg6)) shapeCasts_S100000_S1x100000⟩]
      concatenates_S1x100000_S1x100000_S1x100000_S3x100000_d0 := by
  show StableHlo.after hostOps1 (W3 m ρ c) (Proc.devRef .tc main_v17) = _
  simp only [StableHlo.after_cons, StableHlo.after_nil]
  rw [Cert.Lib.Nary3.nary3_result]
  repeat (first
    | rw [StableHlo.reshape_result]
    | (rw [StableHlo.reshape_result_ne]; rotate_left; decide)
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rfl

/-- Row 0 of the stacked node parameters is the node weights, -/
theorem Vn_v17_row0 (c : Dev nD) (n : Fin 100000) : Vn m ρ c main_v17 (ix2 (0 : Fin 3) n) = m ((c : Thread nD τ).loc main_arg7) (ix1 n) := by
  rw [Vn_v17_eq, W3_untouched m ρ c main_arg7 (by decide) (by decide) (by decide), W3_untouched m ρ c main_arg8 (by decide) (by decide) (by decide),
    W3_untouched m ρ c main_arg6 (by decide) (by decide) (by decide)]
  exact Cert.Lib.Rows3.rows3_apply0 _ _ _ _ _ _ _ n
/-- row 1 the node biases, -/
theorem Vn_v17_row1 (c : Dev nD) (n : Fin 100000) : Vn m ρ c main_v17 (ix2 (1 : Fin 3) n) = m ((c : Thread nD τ).loc main_arg8) (ix1 n) := by
  rw [Vn_v17_eq, W3_untouched m ρ c main_arg7 (by decide) (by decide) (by decide), W3_untouched m ρ c main_arg8 (by decide) (by decide) (by decide),
    W3_untouched m ρ c main_arg6 (by decide) (by decide) (by decide)]
  exact Cert.Lib.Rows3.rows3_apply1 _ _ _ _ _ _ _ n
/-- row 2 the node blend weights. -/
theorem Vn_v17_row2 (c : Dev nD) (n : Fin 100000) : Vn m ρ c main_v17 (ix2 (2 : Fin 3) n) = m ((c : Thread nD τ).loc main_arg6) (ix1 n) := by
  rw [Vn_v17_eq, W3_untouched m ρ c main_arg7 (by decide) (by decide) (by decide), W3_untouched m ρ c main_arg8 (by decide) (by decide) (by decide),
    W3_untouched m ρ c main_arg6 (by decide) (by decide) (by decide)]
  exact Cert.Lib.Rows3.rows3_apply2 _ _ _ _ _ _ _ n

end Cert.KernelIdeal.Stage

end
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.Spec.lean ====
/-
  What both programs compute, entry by entry, on the extended reals.

  A graph layer over N nodes and E directed edges, for a batch of B rows. Edge e carries three parameters
  (w, b, alpha) and reads the value xs(r, e) its source node holds in row r; its message is the blend
      msg(r, e) = (1 - alpha_e) * lin + alpha_e * tanh lin,   lin = w_e * xs(r, e) + b_e.
  Node n sums the messages of the edges whose destination is n (read as a signed word; an edge whose
  destination is no node adds nothing), starting from the zero word, and applies the same blend with the
  node's own three parameters:
      out(r, n) = blend(nw_n, nb_n, nalpha_n, 0 + sum over e with dst_e = n of msg(r, e)).
  The number one and the number zero are kept as the words both programs carry; nothing here evaluates them.
-/
import Idealize.ShloMosaic.PureOps.Ideal
import Idealize.ShloMosaic.Lib.ValueIdx
import proofs.«120978_j38508676776060_2_alg».proof.Proof.LibSegmentSum

noncomputable section

namespace Cert.Spec

open Idealize.ShloMosaic Idealize.ShloMosaic.ValueIdx Cert.Lib.SegmentSum

/-- The number one, as the f32 word both programs carry. -/
abbrev one : EReal := Ideal.ofBits .f32 0x3F800000#32
/-- The number zero, as the f32 word both programs start their sums from. -/
abbrev zero : EReal := Ideal.ofBits .f32 0x00000000#32

/-- The blend of a linear map and its tanh: (1 - a) * (w * x + b) + a * tanh (w * x + b). -/
def blend (w b a x : EReal) : EReal :=
  (one - a) * (w * x + b) + a * Ideal.tanh (w * x + b)

/-- Edge e's message in row r, from the value xs(r, e) read at its source. -/
def msg {B E : Nat} (ew eb ea : (⟨1, ![E]⟩ : Shape).Idx → EReal) (xs : (⟨2, ![B, E]⟩ : Shape).Idx → EReal)
    (r : Fin B) (e : Fin E) : EReal :=
  blend (ew (ix1 e)) (eb (ix1 e)) (ea (ix1 e)) (xs (ix2 r e))

/-- What node n has received in row r: zero plus the messages of the edges that end at n. -/
def agg {B E N : Nat} (ids : IVec ⟨2, ![E, 1]⟩ 32) (M : Fin B → Fin E → EReal) (r : Fin B) (n : Fin N) : EReal :=
  zero + segSum ids (fun e => M r e) n

/-- The layer's output at (r, n). -/
def out {B E N : Nat} (ew eb ea : (⟨1, ![E]⟩ : Shape).Idx → EReal) (nw nb na : (⟨1, ![N]⟩ : Shape).Idx → EReal)
    (ids : IVec ⟨2, ![E, 1]⟩ 32) (xs : (⟨2, ![B, E]⟩ : Shape).Idx → EReal) (r : Fin B) (n : Fin N) : EReal :=
  blend (nw (ix1 n)) (nb (ix1 n)) (na (ix1 n)) (agg ids (msg ew eb ea xs) r n)

end Cert.Spec

end
-- ==== Proof.KIEdgeValue.lean ====
/-
  What the edge stage leaves in its output array, at the ideal instance, for any contents `V` it is entered from.

  Point t of the 50-point grid works on columns 64000·t … 64000·t + 63999 of all three arrays: the source values
  and the output [16, 3200000] in blocks [16, 64000], the three parameter rows [3, 3200000] in blocks [3, 64000],
  every block index map being (0, t). The body's one stored value, read at an entry (r, e) of the block, is the
  blend of the three parameter rows at column e and of the source value at (r, e). A block's entry (r, e) is the
  array's entry (r, 64000·t + e), on all three windows alike; so what point t writes back is block t of ONE
  function of the two input arrays: `edgeG`, the blend of the parameter rows at a column and of the source value
  there. The 50 blocks tile the output array (column j lies in block j / 64000), so the array ends holding `edgeG`.
-/
import proofs.«120978_j38508676776060_2_alg».proof.Proof.KIEdge
import proofs.«120978_j38508676776060_2_alg».proof.Proof.Spec
import Idealize.ShloMosaic.Lib.Pipeline.Value
import Idealize.ShloMosaic.Lib.ValueIdx

set_option maxRecDepth 16384

noncomputable section

namespace Cert.KernelIdeal.Stage

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The rectangles' offsets are zero. -/
theorem offs_zero : (![0, 0] : Fin 2 → Nat) = fun _ => 0 := funext fun a => by fin_cases a <;> rfl

/-- The edge stage's output as one function of its two input arrays: at (r, j) the blend of the three parameter
    rows at column j and of the source value at (r, j). -/
def edgeG (xs : S16x3200000.Idx → EReal) (p : S3x3200000.Idx → EReal) : S16x3200000.Idx → EReal :=
  fun i => Cert.Spec.blend (p (ix2 (0 : Fin 3) (i 1))) (p (ix2 (1 : Fin 3) (i 1))) (p (ix2 (2 : Fin 3) (i 1))) (xs i)

/-- The three windows' block indices at point t, decided over the grid: row block 0, column block t. -/
theorem edge_idx : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT t WRITES BACK is block t of `edgeG` of the two input arrays as the stage finds them, given the body's
    stored value at an entry (`hpay`). -/
theorem edge_flushed (hpay : ∀ (v0 : Vec Ideal S16x64000 .f32) (v2 : Vec Ideal S3x64000 .f32) (r : Fin 16) (e : Fin 64000),
      k0_pay1 (F := Ideal) v0 v2 (ix2 r e) = Cert.Spec.blend (v2 (ix2 0 e)) (v2 (ix2 1 e)) (v2 (ix2 2 e)) (v0 (ix2 r e)))
    (c : Dev nD) (t : Fin cfg0.N) :
    (edgeDat V c).flushed 2 t = ((cfg0.win 2).blk t).view.read (Elt Ideal) (edgeG (V c main_v0) (V c main_v4)) := by
  show (cfg0.win 2).cut (grid0.coords t) ((edgeDat V c).after 2 t) = _
  rw [edge_after2]
  unfold edgeOut
  rw [View.canon_unit_zero offs_zero]
  simp only [View.ld_unit_zero (S := S16x64000) offs_zero, View.ld_unit_zero (S := S3x64000) offs_zero]
  funext j
  obtain ⟨r, e, rfl⟩ : ∃ (r : Fin 16) (e : Fin 64000), j = ix2 r e := ⟨j 0, j 1, eq_ix2 j⟩
  show k0_pay1 (edgeBlk V c 0 t) (edgeBlk V c 1 t) (ix2 r e) = edgeG (V c main_v0) (V c main_v4) (((cfg0.win 2).blk t).view.emb (ix2 r e))
  rw [hpay]
  obtain ⟨a0, a1, b0, b1, o0, o1⟩ := edge_idx t
  -- a parameter row's entry e of the block is the row's entry at the output entry's column
  have hp : ∀ k : Fin 3, edgeBlk V c 1 t (ix2 k e) = V c main_v4 (ix2 k ((((cfg0.win 2).blk t).view.emb (ix2 r e)) 1)) := by
    intro k
    show V c main_v4 (((cfg0.win 1).blk t).view.emb (ix2 k e)) = _
    refine congrArg (V c main_v4) ?_
    funext a; apply Fin.ext
    match a with
    | ⟨0, _⟩ => show win0_1.index t (0 : Fin 2) * 3 + 1 * k.val = k.val; omega
    | ⟨1, _⟩ => show win0_1.index t (1 : Fin 2) * 64000 + 1 * e.val = win0_2.index t (1 : Fin 2) * 64000 + 1 * e.val; omega
  -- the source block's entry (r, e) is the source array's entry where the output block's entry (r, e) sits
  have hx : edgeBlk V c 0 t (ix2 r e) = V c main_v0 (((cfg0.win 2).blk t).view.emb (ix2 r e)) := by
    show V c main_v0 (((cfg0.win 0).blk t).view.emb (ix2 r e)) = _
    refine congrArg (V c main_v0) ?_
    funext a; apply Fin.ext
    match a with
    | ⟨0, _⟩ => show win0_0.index t (0 : Fin 2) * 16 + 1 * r.val = win0_2.index t (0 : Fin 2) * 16 + 1 * r.val; omega
    | ⟨1, _⟩ => show win0_0.index t (1 : Fin 2) * 64000 + 1 * e.val = win0_2.index t (1 : Fin 2) * 64000 + 1 * e.val; omega
  rw [hx, hp 0, hp 1, hp 2]
  rfl

/-- An index of the output array is in point t's block iff each coordinate is in the block's range on its axis. -/
theorem edge_mem_blk (t : Fin cfg0.N) (i : S16x3200000.Idx) :
    i ∈ ((cfg0.win 2).blk t).view.set ↔ ∀ a : Fin 2, win0_2.index t a * S16x64000.size a ≤ (i a).val ∧ (i a).val < win0_2.index t a * S16x64000.size a + S16x64000.size a := by
  show i ∈ ((View.whole main_v5).slice (win0_2.rect t)).set ↔ _
  rw [View.set_slice_whole, Rect.mem_set_unit]
  exact Iff.rfl

/-- Every column block is some point's. -/
theorem edge_onto : ∀ q : Fin 50, ∃ t : Fin cfg0.N, win0_2.index t = ![0, q.val] :=
  (by decide +kernel : ∀ q : Fin 50, ∃ t : Fin grid0.N, win0_2.index t = ![0, q.val])

/-- The blocks tile the output array: column j lies in the block of point j / 64000. -/
theorem edge_cover_all (i : S16x3200000.Idx) : ∃ t : Fin cfg0.N, (cfg0.win 2).flush t = true ∧ i ∈ ((cfg0.win 2).blk t).view.set := by
  have hi0 : (i 0).val < 16 := (i 0).isLt
  have hi1 : (i 1).val < 3200000 := (i 1).isLt
  obtain ⟨t, ht⟩ := edge_onto ⟨(i 1).val / 64000, by omega⟩
  have q0 : win0_2.index t (0 : Fin 2) = 0 := congrFun ht 0
  have q1 : win0_2.index t (1 : Fin 2) = (i 1).val / 64000 := congrFun ht 1
  refine ⟨t, flush0_2 t, ?_⟩
  rw [edge_mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 64000 ≤ (i 1).val ∧ (i 1).val < win0_2.index t (1 : Fin 2) * 64000 + 64000; omega

/-- THE OUTPUT ARRAY after the edge stage is `edgeG` of the two input arrays as the stage finds them. -/
theorem edge_final (hpay : ∀ (v0 : Vec Ideal S16x64000 .f32) (v2 : Vec Ideal S3x64000 .f32) (r : Fin 16) (e : Fin 64000),
      k0_pay1 (F := Ideal) v0 v2 (ix2 r e) = Cert.Spec.blend (v2 (ix2 0 e)) (v2 (ix2 1 e)) (v2 (ix2 2 e)) (v0 (ix2 r e)))
    (c : Dev nD) : (edgeDat V c).arrAt 2 cfg0.N = edgeG (V c main_v0) (V c main_v4) :=
  (edgeDat V c).arrAt_eq_of_cover 2 (edgeG (V c main_v0) (V c main_v4)) (fun t _ => edge_flushed V hpay c t) edge_cover_all

end Cert.KernelIdeal.Stage

end
-- ==== Proof.KINodeValue.lean ====
/-
  What the node stage leaves in its output array, at the ideal instance, for any contents `V` it is entered from.

  Point t of the 2-point grid works on rows 8·t … 8·t + 7 of the aggregated messages and of the output
  ([16, 100000] in blocks [8, 100000], block index (t, 0)) and on the three node-parameter rows whole
  ([3, 100000], block index (0, 0) at both points). The body's one stored value, read at an entry (r, n) of the
  block, is the blend of the three parameter rows at column n and of the aggregated message at (r, n). The
  block's entry (r, n) is the array's entry (8·t + r, n) on the first and third windows, and the parameter block
  is the parameter array; so what point t writes back is block t of ONE function of the two input arrays:
  `nodeG`. The 2 blocks tile the output array (row i lies in block i / 8), so the array ends holding `nodeG`.
-/
import proofs.«120978_j38508676776060_2_alg».proof.Proof.KINode
import proofs.«120978_j38508676776060_2_alg».proof.Proof.Spec
import Idealize.ShloMosaic.Lib.Pipeline.Value
import Idealize.ShloMosaic.Lib.ValueIdx

set_option maxRecDepth 16384

noncomputable section

namespace Cert.KernelIdeal.Stage

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The rectangles' offsets are zero. -/
theorem offs_zero' : (![0, 0] : Fin 2 → Nat) = fun _ => 0 := funext fun a => by fin_cases a <;> rfl

/-- The node stage's output as one function of its two input arrays: at (r, n) the blend of the three parameter
    rows at column n and of the aggregated message at (r, n). -/
def nodeG (ys : S16x100000.Idx → EReal) (p : S3x100000.Idx → EReal) : S16x100000.Idx → EReal :=
  fun i => Cert.Spec.blend (p (ix2 (0 : Fin 3) (i 1))) (p (ix2 (1 : Fin 3) (i 1))) (p (ix2 (2 : Fin 3) (i 1))) (ys i)

/-- The three windows' block indices at point t, decided over the grid. -/
theorem node_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of `nodeG` of the two input arrays as the stage finds them, given the body's
    stored value at an entry (`hpay`). -/
theorem node_flushed (hpay : ∀ (v0 : Vec Ideal S8x100000 .f32) (v2 : Vec Ideal S3x100000 .f32) (r : Fin 8) (n : Fin 100000),
      k1_pay1 (F := Ideal) v0 v2 (ix2 r n) = Cert.Spec.blend (v2 (ix2 0 n)) (v2 (ix2 1 n)) (v2 (ix2 2 n)) (v0 (ix2 r n)))
    (c : Dev nD) (t : Fin cfg1.N) :
    (nodeDat V c).flushed 2 t = ((cfg1.win 2).blk t).view.read (Elt Ideal) (nodeG (V c main_v13) (V c main_v17)) := by
  show (cfg1.win 2).cut (grid1.coords t) ((nodeDat V c).after 2 t) = _
  rw [node_after2]
  unfold nodeOut
  rw [View.canon_unit_zero offs_zero']
  simp only [View.ld_unit_zero (S := S8x100000) offs_zero', View.ld_unit_zero (S := S3x100000) offs_zero']
  funext j
  obtain ⟨r, n, rfl⟩ : ∃ (r : Fin 8) (n : Fin 100000), j = ix2 r n := ⟨j 0, j 1, eq_ix2 j⟩
  show k1_pay1 (nodeBlk V c 0 t) (nodeBlk V c 1 t) (ix2 r n) = nodeG (V c main_v13) (V c main_v17) (((cfg1.win 2).blk t).view.emb (ix2 r n))
  rw [hpay]
  obtain ⟨a0, a1, b0, b1, o0, o1⟩ := node_idx t
  -- a parameter row's entry n of the block is the row's entry at the output entry's column
  have hp : ∀ k : Fin 3, nodeBlk V c 1 t (ix2 k n) = V c main_v17 (ix2 k ((((cfg1.win 2).blk t).view.emb (ix2 r n)) 1)) := by
    intro k
    show V c main_v17 (((cfg1.win 1).blk t).view.emb (ix2 k n)) = _
    refine congrArg (V c main_v17) ?_
    funext a; apply Fin.ext
    match a with
    | ⟨0, _⟩ => show win1_1.index t (0 : Fin 2) * 3 + 1 * k.val = k.val; omega
    | ⟨1, _⟩ => show win1_1.index t (1 : Fin 2) * 100000 + 1 * n.val = win1_2.index t (1 : Fin 2) * 100000 + 1 * n.val; omega
  -- the message block's entry (r, n) is the message array's entry where the output block's entry (r, n) sits
  have hx : nodeBlk V c 0 t (ix2 r n) = V c main_v13 (((cfg1.win 2).blk t).view.emb (ix2 r n)) := by
    show V c main_v13 (((cfg1.win 0).blk t).view.emb (ix2 r n)) = _
    refine congrArg (V c main_v13) ?_
    funext a; apply Fin.ext
    match a with
    | ⟨0, _⟩ => show win1_0.index t (0 : Fin 2) * 8 + 1 * r.val = win1_2.index t (0 : Fin 2) * 8 + 1 * r.val; omega
    | ⟨1, _⟩ => show win1_0.index t (1 : Fin 2) * 100000 + 1 * n.val = win1_2.index t (1 : Fin 2) * 100000 + 1 * n.val; omega
  rw [hx, hp 0, hp 1, hp 2]
  rfl

/-- An index of the output array is in point t's block iff each coordinate is in the block's range on its axis. -/
theorem node_mem_blk (t : Fin cfg1.N) (i : S16x100000.Idx) :
    i ∈ ((cfg1.win 2).blk t).view.set ↔ ∀ a : Fin 2, win1_2.index t a * S8x100000.size a ≤ (i a).val ∧ (i a).val < win1_2.index t a * S8x100000.size a + S8x100000.size a := by
  show i ∈ ((View.whole main_v18).slice (win1_2.rect t)).set ↔ _
  rw [View.set_slice_whole, Rect.mem_set_unit]
  exact Iff.rfl

/-- Every row block is some point's. -/
theorem node_onto : ∀ q : Fin 2, ∃ t : Fin cfg1.N, win1_2.index t = ![q.val, 0] :=
  (by decide +kernel : ∀ q : Fin 2, ∃ t : Fin grid1.N, win1_2.index t = ![q.val, 0])

/-- The blocks tile the output array: row i lies in the block of point i / 8. -/
theorem node_cover_all (i : S16x100000.Idx) : ∃ t : Fin cfg1.N, (cfg1.win 2).flush t = true ∧ i ∈ ((cfg1.win 2).blk t).view.set := by
  have hi0 : (i 0).val < 16 := (i 0).isLt
  have hi1 : (i 1).val < 100000 := (i 1).isLt
  obtain ⟨t, ht⟩ := node_onto ⟨(i 0).val / 8, by omega⟩
  have q0 : win1_2.index t (0 : Fin 2) = (i 0).val / 8 := congrFun ht 0
  have q1 : win1_2.index t (1 : Fin 2) = 0 := congrFun ht 1
  refine ⟨t, flush1_2 t, ?_⟩
  rw [node_mem_blk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 100000 ≤ (i 1).val ∧ (i 1).val < win1_2.index t (1 : Fin 2) * 100000 + 100000; omega

/-- THE OUTPUT ARRAY after the node stage is `nodeG` of the two input arrays as the stage finds them. -/
theorem node_final (hpay : ∀ (v0 : Vec Ideal S8x100000 .f32) (v2 : Vec Ideal S3x100000 .f32) (r : Fin 8) (n : Fin 100000),
      k1_pay1 (F := Ideal) v0 v2 (ix2 r n) = Cert.Spec.blend (v2 (ix2 0 n)) (v2 (ix2 1 n)) (v2 (ix2 2 n)) (v0 (ix2 r n)))
    (c : Dev nD) : (nodeDat V c).arrAt 2 cfg1.N = nodeG (V c main_v13) (V c main_v17) :=
  (nodeDat V c).arrAt_eq_of_cover 2 (nodeG (V c main_v13) (V c main_v17)) (fun t _ => node_flushed V hpay c t) node_cover_all

end Cert.KernelIdeal.Stage

end
-- ==== Proof.PayloadAt.lean ====
/-
  The two kernel bodies' stored values, read at one element.

  Each body loads a block v0 of values and a three-row block v2 of parameters (row 0 the weights, row 1 the biases,
  row 2 the mixing coefficients), and stores, at (r, e),
      (1 - v2(2, e)) * (v2(0, e) * v0(r, e) + v2(1, e)) + v2(2, e) * tanh (v2(0, e) * v0(r, e) + v2(1, e)),
  which is the blend of the specification with the column's three parameters. The number one stays the word the
  body carries. The computation is read once over generic extents and then met with each body's own extents.
-/
import Idealize.ShloMosaic.PureOps.Ideal
import Idealize.ShloMosaic.Lib.ValueIdx
import Idealize.ShloMosaic.Lib.ValueLayout
import Idealize.ShloMosaic.Lib.Pipeline.Value
import proofs.«120978_j38508676776060_2_alg».proof.Proof.Gen.KernelIdeal.Skeleton
import proofs.«120978_j38508676776060_2_alg».proof.Proof.Spec

noncomputable section

namespace Cert.KernelIdeal.PayloadAt

open Cert.KernelIdeal Cert.KernelIdeal.Gen Idealize.ShloMosaic Idealize.ShloMosaic.ValueIdx

/-- The hyperbolic tangent of a vector at an index is the extended reals' of the element. -/
theorem tanh_apply {s : Shape} {φ : FTy} (x : FVec Ideal s φ) (i : s.Idx) : tanh x i = Ideal.tanh (x i) := rfl

/-- Row `k` of a three-row block, broadcast down `a` rows, read at (p, e): the block at (k, e). -/
theorem row_bcast_apply {a n : Nat} (o : Nat) (X : (⟨2, ![3, n]⟩ : Shape).Idx → EReal)
    (h : (⟨2, ![3, n]⟩ : Shape).Slices ![o, 0] ⟨2, ![1, n]⟩)
    (hb : (⟨2, ![1, n]⟩ : Shape).Broadcasts ⟨2, ![a, n]⟩) (k : Fin 3) (hk : k.val = o) (p : Fin a) (e : Fin n) :
    broadcastTo ⟨2, ![a, n]⟩ (extractStridedSlice ⟨2, ![1, n]⟩ ![o, 0] X h) hb (ix2 p e) = X (ix2 k e) :=
  (broadcastTo_1b_ab_apply _ hb p e).trans (slice2_axis0_apply o X h (0 : Fin 1) e k (by rw [hk]; rfl))

/-- The body's arithmetic over generic extents, at (p, e): the blend with column `e`'s three parameters. -/
theorem body_apply {a n : Nat} (v0 : FVec Ideal ⟨2, ![a, n]⟩ .f32) (v2 : FVec Ideal ⟨2, ![3, n]⟩ .f32)
    (h0 : (⟨2, ![3, n]⟩ : Shape).Slices ![0, 0] ⟨2, ![1, n]⟩)
    (h1 : (⟨2, ![3, n]⟩ : Shape).Slices ![1, 0] ⟨2, ![1, n]⟩)
    (h2 : (⟨2, ![3, n]⟩ : Shape).Slices ![2, 0] ⟨2, ![1, n]⟩)
    (hb : (⟨2, ![1, n]⟩ : Shape).Broadcasts ⟨2, ![a, n]⟩) (p : Fin a) (e : Fin n) :
    addf
      (mulf
        (broadcastTo ⟨2, ![a, n]⟩
          (subf (broadcast ⟨2, ![1, n]⟩ (Scalar.ofBits (F := Ideal) .f32 0x3F800000#32))
            (extractStridedSlice ⟨2, ![1, n]⟩ ![2, 0] v2 h2)) hb)
        (addf (mulf (broadcastTo ⟨2, ![a, n]⟩ (extractStridedSlice ⟨2, ![1, n]⟩ ![0, 0] v2 h0) hb) v0)
          (broadcastTo ⟨2, ![a, n]⟩ (extractStridedSlice ⟨2, ![1, n]⟩ ![1, 0] v2 h1) hb)))
      (mulf (broadcastTo ⟨2, ![a, n]⟩ (extractStridedSlice ⟨2, ![1, n]⟩ ![2, 0] v2 h2) hb)
        (tanh
          (addf (mulf (broadcastTo ⟨2, ![a, n]⟩ (extractStridedSlice ⟨2, ![1, n]⟩ ![0, 0] v2 h0) hb) v0)
            (broadcastTo ⟨2, ![a, n]⟩ (extractStridedSlice ⟨2, ![1, n]⟩ ![1, 0] v2 h1) hb))))
      (ix2 p e)
      = Cert.Spec.blend (v2 (ix2 0 e)) (v2 (ix2 1 e)) (v2 (ix2 2 e)) (v0 (ix2 p e)) := by
  have r0 := row_bcast_apply (a := a) 0 v2 h0 hb 0 rfl p e
  have r1 := row_bcast_apply (a := a) 1 v2 h1 hb 1 rfl p e
  have r2 := row_bcast_apply (a := a) 2 v2 h2 hb 2 rfl p e
  have rs : broadcastTo ⟨2, ![a, n]⟩
      (subf (broadcast ⟨2, ![1, n]⟩ (Scalar.ofBits (F := Ideal) .f32 0x3F800000#32))
        (extractStridedSlice ⟨2, ![1, n]⟩ ![2, 0] v2 h2)) hb (ix2 p e)
      = Cert.Spec.one - v2 (ix2 2 e) :=
    (broadcastTo_1b_ab_apply _ hb p e).trans
      (congrArg (Cert.Spec.one - ·) (slice2_axis0_apply 2 v2 h2 (0 : Fin 1) e 2 rfl))
  unfold Cert.Spec.blend
  simp only [addf_apply, mulf_apply, tanh_apply]
  rw [rs, r0, r1, r2]

/-- The edge body's stored value at (r, e): the blend of what it loaded at (r, e) with column `e`'s parameters. -/
theorem k0_pay1_apply (v0 : Vec Ideal S16x64000 .f32) (v2 : Vec Ideal S3x64000 .f32) (r : Fin 16) (e : Fin 64000) :
    k0_pay1 (F := Ideal) v0 v2 (ix2 r e)
      = Cert.Spec.blend (v2 (ix2 0 e)) (v2 (ix2 1 e)) (v2 (ix2 2 e)) (v0 (ix2 r e)) := by
  unfold k0_pay1
  simp only [shapeCast_self]
  exact body_apply v0 v2 _ _ _ _ r e

/-- The node body's stored value at (r, n): the blend of what it loaded at (r, n) with column `n`'s parameters. -/
theorem k1_pay1_apply (v0 : Vec Ideal S8x100000 .f32) (v2 : Vec Ideal S3x100000 .f32) (r : Fin 8) (n : Fin 100000) :
    k1_pay1 (F := Ideal) v0 v2 (ix2 r n)
      = Cert.Spec.blend (v2 (ix2 0 n)) (v2 (ix2 1 n)) (v2 (ix2 2 n)) (v0 (ix2 r n)) := by
  unfold k1_pay1
  simp only [shapeCast_self]
  exact body_apply v0 v2 _ _ _ _ r n

end Cert.KernelIdeal.PayloadAt

end
-- ==== Proof.LibScatterCols.lean ====
/-
  An accumulating float scatter over COLUMN indices, read at one element, at the ideal instance.

  The operand is [C, N], the scatter indices are the ids as an [E, 1] column and the updates are [C, E]: the updates'
  axis 0 is the window (it runs along operand axis 0), operand axis 1 is inserted and is the one the index names.
  Update column `e` is added onto operand column `ids[e]`, row by row, and a column whose id (read signed) is outside
  [0, N) is dropped. On the extended reals the result is an exact sum, so element (c, r) of the result is the operand's
  element plus the sum over ALL e of "update (c, e) if ids[e] = r, else 0": the same segment sum a row scatter gives,
  read along the other axis.
-/
import Idealize.ShloMosaic.PureOps.Ideal
import Idealize.ShloMosaic.Lib.ValueIdx
import proofs.«120978_j38508676776060_2_alg».proof.Proof.LibSegmentSum

noncomputable section

open scoped BigOperators

namespace Cert.Lib.ScatterCols

open Idealize.ShloMosaic Idealize.ShloMosaic.ValueIdx Cert.Lib.SegmentSum

theorem mem1 : (1 : Fin 2) ∈ ([1] : List (Fin 2)) := by decide
theorem nmem0 : (0 : Fin 2) ∉ ([1] : List (Fin 2)) := by decide
theorem kept0 : (0 : Fin 2) ∈ (List.finRange 2).filter (· ∉ ([1] : List (Fin 2))) := by decide
theorem kept1 : (1 : Fin 2) ∉ (List.finRange 2).filter (· ∉ ([1] : List (Fin 2))) := by decide

section Cols
variable {C N E w : Nat} (wf : ScatterDims.WF ⟨2, ![C, N]⟩ ⟨2, ![E, 1]⟩ ⟨2, ![C, E]⟩ [0] [1] [1] 1)

/-- The dimension numbers of a column scatter: the updates' axis 0 is the window, operand axis 1 is inserted and is the
    one the index names, the index vector sits on the indices' axis 1. -/
abbrev colsDims : ScatterDims ⟨2, ![C, N]⟩ ⟨2, ![E, 1]⟩ ⟨2, ![C, E]⟩ := ⟨[0], [1], [1], 1, wf⟩

theorem cols_start0 (ids : IVec ⟨2, ![E, 1]⟩ w) (c : Fin C) (e : Fin E) :
    (colsDims wf).start (ix2 c e) ids 0 = 0 := by
  unfold ScatterDims.start
  exact dif_neg nmem0

theorem cols_start1 (ids : IVec ⟨2, ![E, 1]⟩ w) (c : Fin C) (e : Fin E) :
    (colsDims wf).start (ix2 c e) ids 1 = rowOf ids e := by
  unfold ScatterDims.start
  refine (dif_pos mem1).trans ?_
  refine congrArg (fun z => (ids z).toInt) ?_
  funext b
  match b with
  | ⟨0, _⟩ => rfl
  | ⟨1, _⟩ => rfl

theorem cols_window0 (c : Fin C) (e : Fin E) : (colsDims wf).window (ix2 c e) 0 = c.val := by
  unfold ScatterDims.window
  exact (dif_pos kept0).trans rfl

theorem cols_window1 (c : Fin C) (e : Fin E) : (colsDims wf).window (ix2 c e) 1 = 0 := by
  unfold ScatterDims.window
  exact dif_neg kept1

/-- Update element (c, e) lands on operand element (c', r) exactly when column `e`'s id is `r` and the rows agree. -/
theorem cols_resultIdx (ids : IVec ⟨2, ![E, 1]⟩ w) (c : Fin C) (e : Fin E) (c' : Fin C) (r : Fin N) :
    (colsDims wf).resultIdx? (ix2 c e) ids = some (ix2 c' r) ↔ rowOf ids e = (r.val : Int) ∧ c = c' := by
  rw [resultIdx?_eq_some_iff]
  constructor
  · intro h
    have h0 : (0 : Int) + (c.val : Int) = (c'.val : Int) := by
      have := h 0; rw [cols_start0, cols_window0] at this; exact this
    have h1 : rowOf ids e + ((0 : Nat) : Int) = (r.val : Int) := by
      have := h 1; rw [cols_start1, cols_window1] at this; exact this
    exact ⟨by omega, Fin.ext (by omega)⟩
  · rintro ⟨hr, rfl⟩ a
    match a with
    | ⟨0, _⟩ =>
      show (colsDims wf).start (ix2 c e) ids 0 + ((colsDims wf).window (ix2 c e) 0 : Int) = (c.val : Int)
      rw [cols_start0, cols_window0]; omega
    | ⟨1, _⟩ =>
      show (colsDims wf).start (ix2 c e) ids 1 + ((colsDims wf).window (ix2 c e) 1 : Int) = (r.val : Int)
      rw [cols_start1, cols_window1]; omega

/-- ELEMENT (c, r) of a column scatter-add: the operand's element plus the segment sum of row `c` of the updates. -/
theorem cols_apply (x : (⟨2, ![C, N]⟩ : Shape).Idx → EReal) (ids : IVec ⟨2, ![E, 1]⟩ w)
    (upd : (⟨2, ![C, E]⟩ : Shape).Idx → EReal) (c : Fin C) (r : Fin N) :
    Ideal.hostScatterAdd (colsDims wf) x ids upd (ix2 c r) = x (ix2 c r) + segSum ids (fun e => upd (ix2 c e)) r := by
  unfold Ideal.hostScatterAdd segSum
  refine congrArg (x (ix2 c r) + ·) ?_
  rw [Finset.sum_filter, sum_idx2, Finset.sum_comm]
  refine Finset.sum_congr rfl fun e _ => ?_
  simp only [cols_resultIdx]
  by_cases hit : rowOf ids e = (r.val : Int)
  · simp only [hit, true_and]
    rw [Finset.sum_ite_eq' Finset.univ c (fun c' => upd (ix2 c' e))]
    simp
  · simp [hit]

/-- The same for the host operation as a program prints it, with the program's own record of these dimension numbers. -/
theorem cols_apply_host (d : ScatterDims ⟨2, ![C, N]⟩ ⟨2, ![E, 1]⟩ ⟨2, ![C, E]⟩) (hd : d = colsDims wf)
    (x : FVec Ideal ⟨2, ![C, N]⟩ .f32) (ids : IVec ⟨2, ![E, 1]⟩ w) (upd : FVec Ideal ⟨2, ![C, E]⟩ .f32) (c : Fin C) (r : Fin N) :
    Host.scatterAdd d x ids upd (ix2 c r) = x (ix2 c r) + segSum ids (fun e => upd (ix2 c e)) r := by
  subst hd
  exact cols_apply wf x ids upd c r

end Cols

end Cert.Lib.ScatterCols

end
-- ==== Proof.LibScatterBase.lean ====
/-
  Two facts about an accumulating scatter (updates added onto the entries their indices name), on the extended
  reals and for any shapes and dimension numbers.

  The updates can be accumulated onto any starting array: accumulating onto a base array gives, entry by entry,
  the base entry plus the sum of the updates landing there, and accumulating onto an all-zero array and then
  adding the base gives the base entry plus (zero plus the same sum). The two agree at every entry, infinite
  entries included, because 0 + a = a and nothing is moved across a sum.

  An index array whose entries are all nonnegative (read as signed words) is left as it is by the rule
  "where the entry is negative take another value (the entry plus the extent), elsewhere keep the entry".
-/
import Idealize.ShloMosaic.PureOps.Ideal
import Idealize.ShloMosaic.Lib.ValueIdx
import Idealize.ShloMosaic.Lib.Pipeline.Value

noncomputable section

open scoped BigOperators

namespace Cert.Lib.ScatterBase

open Idealize.ShloMosaic Idealize.ShloMosaic.ValueIdx

/-- Accumulating the updates onto an all-zero array and adding the base afterwards is accumulating them onto the
    base: at each entry both are the base entry plus the sum of the updates that land there. -/
theorem add_scatter_zeros {s si su : Shape} {w : Nat} (d : ScatterDims s si su)
    (base z : FVec Ideal s .f32) (idx : IVec si w) (upd : FVec Ideal su .f32) (hz : ∀ i, z i = 0) :
    addf base (Host.scatterAdd d z idx upd) = Host.scatterAdd d base idx upd := by
  funext i
  show base i + (z i + ∑ j ∈ Finset.univ.filter (fun j => d.resultIdx? j idx = some i), upd j)
    = base i + ∑ j ∈ Finset.univ.filter (fun j => d.resultIdx? j idx = some i), upd j
  rw [hz i, zero_add]

/-- Where every entry of `i` is nonnegative as a signed word, choosing `a` at the negative entries and `i` at the
    others gives back `i`. The array `z` compared against is zero at every entry. -/
theorem keep_of_nonneg {s : Shape} {w : Nat} (i z a : IVec s w) (hz : ∀ j, z j = 0#w) (h : ∀ j, 0 ≤ (i j).toInt) :
    select (cmpi .slt i z) a i = i := by
  funext j
  have hlt : (i j).slt 0#w = false := by
    simp only [BitVec.slt, BitVec.toInt_zero, decide_eq_false_iff_not, Int.not_lt]
    exact h j
  show (if BitVec.ofBool ((i j).slt (z j)) = 1 then _ else _) = _
  rw [hz j, hlt]
  rfl

end Cert.Lib.ScatterBase

end
-- ==== Proof.KIValue.lean ====
/-
  The kernel program's result buffer at an entry, at the ideal instance, for destination indices none of which is
  negative: the layer's output `Cert.Spec.out` of the argument arrays and the gathered source values.

  Reading backwards from the result. The node stage leaves, at (r, n), the blend of the three stacked node
  parameters at column n and of the aggregated message at (r, n). The aggregated messages are an accumulating
  scatter onto an all-zero array: at (r, n) the zero word plus the sum, over the edges whose destination column
  is n, of the edge stage's output at (r, e) — the destination read as the scatter takes it, a negative index
  moved up by the number of nodes; with no negative index that is the index itself. The edge stage leaves, at
  (r, e), the blend of the three stacked edge parameters at column e and of the gathered source value at (r, e).
-/
import proofs.«120978_j38508676776060_2_alg».proof.Proof.KIHost
import proofs.«120978_j38508676776060_2_alg».proof.Proof.KIEdgeValue
import proofs.«120978_j38508676776060_2_alg».proof.Proof.KINodeValue
import proofs.«120978_j38508676776060_2_alg».proof.Proof.PayloadAt
import proofs.«120978_j38508676776060_2_alg».proof.Proof.LibScatterCols
import proofs.«120978_j38508676776060_2_alg».proof.Proof.LibScatterBase
import proofs.«120978_j38508676776060_2_alg».proof.Proof.Spec

set_option maxRecDepth 16384

noncomputable section

namespace Cert.KernelIdeal.Stage

open Cert.KernelIdeal Cert.KernelIdeal.Gen
open Idealize.ShloMosaic Idealize.ShloMosaic.TcCoe Idealize.ShloMosaic.ValueIdx
open Idealize.SL Idealize.SL.Sem
open Cert.Lib.SegmentSum

variable (m : (ℓ : Loc nD τ sig) → Buf (Elt Ideal) ℓ) (ρ : Dev nD → PrngReg)

/-- The destination indices as a column: what the scatter is given when no index is negative. -/
abbrev dstColumn (d : IVec S3200000 32) : IVec S3200000x1 32 :=
  broadcastInDim S3200000x1 ![0] bcast_S3200000_S3200000x1_0 d

/-- THE EDGE STAGE'S OUTPUT at (r, e) is edge e's message in row r. -/
theorem msg_at (c : Dev nD) (r : Fin 16) (e : Fin 3200000) :
    W3 m ρ c (Proc.devRef .tc main_v5) (ix2 r e)
      = Cert.Spec.msg (B := 16) (E := 3200000) (m ((c : Thread nD τ).loc main_arg4)) (m ((c : Thread nD τ).loc main_arg5))
          (m ((c : Thread nD τ).loc main_arg3)) (srcVals m ρ c) r e := by
  have h : W3 m ρ c (Proc.devRef .tc main_v5) = edgeG (Ve m ρ c main_v0) (Ve m ρ c main_v4) :=
    (W3_arr m ρ c 2).trans (edge_final (Ve m ρ) Cert.KernelIdeal.PayloadAt.k0_pay1_apply c)
  rw [h]
  show Cert.Spec.blend (Ve m ρ c main_v4 (ix2 (0 : Fin 3) e)) (Ve m ρ c main_v4 (ix2 (1 : Fin 3) e)) (Ve m ρ c main_v4 (ix2 (2 : Fin 3) e))
    (Ve m ρ c main_v0 (ix2 r e)) = _
  rw [Ve_v4_row0, Ve_v4_row1, Ve_v4_row2, Ve_v0]
  rfl

/-- With no negative destination index the scatter is given the indices themselves. -/
theorem dstWrapped_eq (d : IVec S3200000 32) (hd : ∀ j, 0 ≤ (d j).toInt) : dstWrapped d = dstColumn d := by
  have hz : ∀ j, (broadcastInDim S3200000 ![] bcast_S_S3200000 (constantI S_ 32 0#32) : IVec S3200000 32) j = 0#32 := fun _ => rfl
  have hk := Cert.Lib.ScatterBase.keep_of_nonneg d (broadcastInDim S3200000 ![] bcast_S_S3200000 (constantI S_ 32 0#32))
    (addi d (broadcastInDim S3200000 ![] bcast_S_S3200000 (constantI S_ 32 100000#32))) hz hd
  show broadcastInDim S3200000x1 ![0] bcast_S3200000_S3200000x1_0
    (select (cmpi .slt d (broadcastInDim S3200000 ![] bcast_S_S3200000 (constantI S_ 32 0#32)))
      (addi d (broadcastInDim S3200000 ![] bcast_S_S3200000 (constantI S_ 32 100000#32))) d) = _
  rw [hk]

/-- THE RESULT BUFFER at (r, n), after the run, is the layer's output there. -/
theorem out_at (hdst : ∀ (c : Dev nD) (j : S3200000.Idx), 0 ≤ ((m ((c : Thread nD τ).loc main_arg2) : IVec S3200000 32) j).toInt)
    (c : Dev nD) (r : Fin 16) (n : Fin 100000) :
    W5 m ρ c (Proc.devRef .tc main_v18) (ix2 r n)
      = Cert.Spec.out (B := 16) (E := 3200000) (N := 100000) (m ((c : Thread nD τ).loc main_arg4)) (m ((c : Thread nD τ).loc main_arg5))
          (m ((c : Thread nD τ).loc main_arg3)) (m ((c : Thread nD τ).loc main_arg7)) (m ((c : Thread nD τ).loc main_arg8))
          (m ((c : Thread nD τ).loc main_arg6)) (dstColumn (m ((c : Thread nD τ).loc main_arg2))) (srcVals m ρ c) r n := by
  have h : W5 m ρ c (Proc.devRef .tc main_v18) = nodeG (Vn m ρ c main_v13) (Vn m ρ c main_v17) :=
    (W5_arr m ρ c 2).trans (node_final (Vn m ρ) Cert.KernelIdeal.PayloadAt.k1_pay1_apply c)
  rw [h]
  show Cert.Spec.blend (Vn m ρ c main_v17 (ix2 (0 : Fin 3) n)) (Vn m ρ c main_v17 (ix2 (1 : Fin 3) n)) (Vn m ρ c main_v17 (ix2 (2 : Fin 3) n))
    (Vn m ρ c main_v13 (ix2 r n)) = _
  rw [Vn_v17_row0, Vn_v17_row1, Vn_v17_row2]
  unfold Cert.Spec.out
  refine congrArg (Cert.Spec.blend _ _ _) ?_
  rw [Vn_v13_eq, dstWrapped_eq _ (hdst c)]
  refine (Cert.Lib.ScatterCols.cols_apply_host (scatter_S16x100000_S3200000x1_S16x3200000_0_1_1_1).wf
    scatter_S16x100000_S3200000x1_S16x3200000_0_1_1_1 rfl _ _ _ r n).trans ?_
  unfold Cert.Spec.agg
  refine congr (congrArg HAdd.hAdd ?_) ?_
  · rfl
  · exact congrArg (fun f => segSum _ f n) (funext fun e => msg_at m ρ c r e)

end Cert.KernelIdeal.Stage

end
-- ==== Proof.LibTypedRef.lean ====
/-
  A typed reference carries the type of the tensor value it holds; contents at that type are moved to the
  buffer's own type and back along the equation between the two. Moving a value to the buffer's type and back is
  the identity, and so is moving a buffer's contents to the value's type and back — for any typed reference,
  whatever the buffer: the equation is taken apart, never computed.

  In a line of operations over typed references one operation writes its result moved to its buffer's type and
  the next reads it moved back; with these two facts the pairs cancel, and what such a line computes is the plain
  composition of the operations' functions, with a move left only where an argument enters and the result leaves.
-/
import Idealize.ShloMosaic.Lib.StableHlo

noncomputable section

namespace Cert.Lib.TypedRef

open Idealize.ShloMosaic Idealize.ShloMosaic.StableHlo

variable {sig : RefSig} {Val : EltTy → Type} {T : BufTy}

/-- A value moved to the buffer's type and back is the value. -/
theorem ofBuf_toBuf (x : TRef sig T) (v : T.Contents Val) : x.ofBuf (x.toBuf v) = v := by
  obtain ⟨r, h, _, _⟩ := x
  subst h
  rfl

/-- A buffer's contents moved to the value's type and back are the contents. -/
theorem toBuf_ofBuf (x : TRef sig T) (v : x.ref.ty.Contents Val) : x.toBuf (x.ofBuf v) = v := by
  obtain ⟨r, h, _, _⟩ := x
  subst h
  rfl

end Cert.Lib.TypedRef

end
-- ==== Proof.KITake.lean ====
/-
  The gather of the source values, read off the fold, at any float instance.

  The first twenty-three host operations of @main are jnp.take(x, src, axis = 1) inlined: a negative source id is
  moved up by the number of columns; the [16, 100000] array's columns are gathered at the ids; and an entry whose
  moved id is not in [0, 99999] is replaced by the word 0x7FC00000. `takeK` is that composition as a function of
  the two arguments. The operations are written over typed references, which move every intermediate value to its
  buffer's type and back; the moves cancel in pairs, and the three left at the boundary (the two arguments in, the
  result out) are identities because the references are literals.
-/
import proofs.«120978_j38508676776060_2_alg».proof.Proof.KIRun
import proofs.«120978_j38508676776060_2_alg».proof.Proof.LibTypedRef
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe
open Idealize.SL Idealize.SL.Sem

variable {F : FTy → Type} [FloatOps F]

/-- The gather: x's columns at the source ids. A negative id is first moved up by the number of columns; the
    gathered entry is kept where the moved id lies in [0, 99999] and replaced by the word 0x7FC00000 elsewhere. -/
def takeK (x : FVec F S16x100000 .f32) (src : IVec S3200000 32) : FVec F S16x3200000 .f32 :=
  let c : IVec S_ 32 := constantI S_ 32 0#32
  let v0 : IVec S3200000 32 := broadcastInDim S3200000 ![] bcast_S_S3200000 c
  let v1 : IVec S3200000 1 := cmpi .slt src v0
  let c_0 : IVec S_ 32 := constantI S_ 32 100000#32
  let v2 : IVec S3200000 32 := broadcastInDim S3200000 ![] bcast_S_S3200000 c_0
  let v3 : IVec S3200000 32 := addi src v2
  let v4 : IVec S3200000 32 := select v1 v3 src
  let v5 : IVec S3200000x1 32 := broadcastInDim S3200000x1 ![0] bcast_S3200000_S3200000x1_0 v4
  let c_1 : IVec S1 32 := constantI S1 32 99999#32
  let c_2 : IVec S_ 32 := constantI S_ 32 0#32
  let v6 : IVec S3200000x1 32 := broadcastInDim S3200000x1 ![] bcast_S_S3200000x1 c_2
  let v7 : IVec S3200000x1 1 := cmpi .sge v5 v6
  let v8 : IVec S1x1 32 := broadcastInDim S1x1 ![1] bcast_S1_S1x1_1 c_1
  let v9 : IVec S3200000x1 32 := broadcastInDim S3200000x1 ![0, 1] bcast_S1x1_S3200000x1_0_1 v8
  let v10 : IVec S3200000x1 1 := cmpi .sle v5 v9
  let v11 : IVec S3200000x1 1 := andi v7 v10
  let c_3 : IVec S_ 1 := constantI S_ 1 1#1
  let v12 : IVec S3200000 1 := Host.reduce IntOp.andi v11 c_3 reducesTo_S3200000x1_S3200000_d1 h_S_
  let v13 : FVec F S16x3200000 .f32 := Host.gather gather_S16x100000_S3200000x1_S16x3200000_0_1_n_n_1_1_161 x v5
  let v14 : IVec S16x3200000 1 := broadcastInDim S16x3200000 ![1] bcast_S3200000_S16x3200000_1 v12
  let cst : FVec F S_ .f32 := constant S_ .f32 0x7FC00000#32
  let v15 : FVec F S16x3200000 .f32 := broadcastInDim S16x3200000 ![] bcast_S_S16x3200000 cst
  select v14 v13 v15

/-- The result's buffer and the two arguments' buffers, as typed references. -/
abbrev tV0 : StableHlo.TRef sig ⟨S16x3200000, .f32⟩ := .of main_v0
abbrev tA0 : StableHlo.TRef sig ⟨S16x100000, .f32⟩ := .of main_arg0
abbrev tA1 : StableHlo.TRef sig ⟨S3200000, .i32⟩ := .of main_arg1

set_option maxHeartbeats 4000000 in
/-- The fold of the twenty-three operations at the result's buffer: each operation's result at its own buffer is its
    function of its operands' buffers, the paired moves cancel, and what is left is `takeK` between the boundary's
    three moves. (The right-hand side enters as a variable with its equation, so that reading the fold does not
    traverse it.) -/
theorem take_fold_aux (V : Valuation τ sig (Elt F)) (X : (Proc.devRef (τ := τ) .tc main_v0).ty.Contents (Elt F))
    (hX : X = tV0.toBuf (takeK (tA0.ofBuf (V (Proc.devRef .tc main_arg0))) (tA1.ofBuf (V (Proc.devRef .tc main_arg1))))) :
    StableHlo.after hostOps0 V (Proc.devRef .tc main_v0) = X := by
  after_results_simp
  simp only [Cert.Lib.TypedRef.ofBuf_toBuf]
  rw [hX]
  rfl

/-- At a literal reference a move is the identity: the result's, -/
theorem move_v0 (Y : FVec F S16x3200000 .f32) : (tV0.toBuf (Val := Elt F) Y : FVec F S16x3200000 .f32) = Y := rfl
/-- the first argument's, -/
theorem move_a0 (a : FVec F S16x100000 .f32) : (tA0.ofBuf (Val := Elt F) a : FVec F S16x100000 .f32) = a := rfl
/-- the second argument's. -/
theorem move_a1 (s : IVec S3200000 32) : (tA1.ofBuf (Val := Elt F) s : IVec S3200000 32) = s := rfl

/-- So at the boundary the three moves drop out. -/
theorem take_boundary (a : FVec F S16x100000 .f32) (s : IVec S3200000 32) :
    (tV0.toBuf (Val := Elt F) (takeK (tA0.ofBuf (Val := Elt F) a) (tA1.ofBuf (Val := Elt F) s)) : FVec F S16x3200000 .f32) = takeK a s := by
  rw [move_v0, move_a0, move_a1]

/-- AFTER THE TWENTY-THREE OPERATIONS the result's buffer holds the gather of the two arguments' buffers. -/
theorem take_of_val (V : Valuation τ sig (Elt F)) :
    (StableHlo.after hostOps0 V (Proc.devRef .tc main_v0) : FVec F S16x3200000 .f32)
      = takeK (V (Proc.devRef .tc main_arg0)) (V (Proc.devRef .tc main_arg1)) :=
  (take_fold_aux V _ rfl).trans (take_boundary _ _)

end Cert.KernelIdeal.Stage

end
-- ==== Proof.RefRun.lean ====
/-
  The reference program's run, read back.

  The reference is a straight line of host operations: the twenty-three of the outlined gather
  (xs = take(x, src): the source ids wrapped where negative, the rows gathered, the entries whose id is
  out of range replaced), then the forty of the layer itself — the edge messages
  (1 - ea) * (ew * xs + eb) + ea * tanh (ew * xs + eb), their sum per destination node by an accumulating
  scatter onto zeros, and the same blend with the node parameters. Listed in order over the buffers each
  writes, the program is that list run in sequence, and what the result buffer holds at the end is the
  composition of the operations' functions applied to the launch contents of the nine arguments, which no
  operation writes. The composition is named in two parts: `takeR` (the gather) and `refOut` (the layer, as a
  function of the gathered array and the other seven arguments).
-/
import proofs.«120978_j38508676776060_2_alg».proof.ReferenceIdeal
import proofs.«120978_j38508676776060_2_alg».proof.Proof.LibTypedRef
import Idealize.ShloMosaic.Lib.StableHlo.Run

noncomputable section

namespace Cert.RefSide

open Idealize.ShloMosaic Idealize.ShloMosaic.TcCoe Idealize.SL.Sem Idealize.ShloMosaic.StableHlo Cert.ReferenceIdeal

variable {F : FTy → Type} [FloatOps F] [Cert.ReferenceIdeal.Facts]
open Cert.ReferenceIdeal.Facts₀

/-! ## The composed terms -/

/-- The gather: x's columns at the source ids. A negative id is first moved up by the number of columns; the
    gathered entry is kept where the moved id lies in [0, 99999] and replaced by the word 0x7FC00000 elsewhere. -/
def takeR (x : FVec F S16x100000 .f32) (src : IVec S3200000 32) : FVec F S16x3200000 .f32 :=
  let c : IVec S_ 32 := constantI S_ 32 0#32
  let v0 : IVec S3200000 32 := broadcastInDim S3200000 ![] bcast_S_S3200000 c
  let v1 : IVec S3200000 1 := cmpi .slt src v0
  let c_0 : IVec S_ 32 := constantI S_ 32 100000#32
  let v2 : IVec S3200000 32 := broadcastInDim S3200000 ![] bcast_S_S3200000 c_0
  let v3 : IVec S3200000 32 := addi src v2
  let v4 : IVec S3200000 32 := select v1 v3 src
  let v5 : IVec S3200000x1 32 := broadcastInDim S3200000x1 ![0] bcast_S3200000_S3200000x1_0 v4
  let c_1 : IVec S1 32 := constantI S1 32 99999#32
  let c_2 : IVec S_ 32 := constantI S_ 32 0#32
  let v6 : IVec S3200000x1 32 := broadcastInDim S3200000x1 ![] bcast_S_S3200000x1 c_2
  let v7 : IVec S3200000x1 1 := cmpi .sge v5 v6
  let v8 : IVec S1x1 32 := broadcastInDim S1x1 ![1] bcast_S1_S1x1_1 c_1
  let v9 : IVec S3200000x1 32 := broadcastInDim S3200000x1 ![0, 1] bcast_S1x1_S3200000x1_0_1 v8
  let v10 : IVec S3200000x1 1 := cmpi .sle v5 v9
  let v11 : IVec S3200000x1 1 := andi v7 v10
  let c_3 : IVec S_ 1 := constantI S_ 1 1#1
  let v12 : IVec S3200000 1 := Host.reduce IntOp.andi v11 c_3 reducesTo_S3200000x1_S3200000_d1 h_S_
  let v13 : FVec F S16x3200000 .f32 := Host.gather gather_S16x100000_S3200000x1_S16x3200000_0_1_n_n_1_1_161 x v5
  let v14 : IVec S16x3200000 1 := broadcastInDim S16x3200000 ![1] bcast_S3200000_S16x3200000_1 v12
  let cst : FVec F S_ .f32 := constant S_ .f32 0x7FC00000#32
  let v15 : FVec F S16x3200000 .f32 := broadcastInDim S16x3200000 ![] bcast_S_S16x3200000 cst
  select v14 v13 v15

/-- The destination ids as a column: the index operand of the accumulating scatter. -/
def dstCol (dst : IVec S3200000 32) : IVec S3200000x1 32 :=
  broadcastInDim S3200000x1 ![0] bcast_S3200000_S3200000x1_0 dst

/-- The layer, from the gathered array: the edge blend, its transpose scattered by destination onto zeros and
    transposed back, the node blend. -/
def refOut (xs : FVec F S16x3200000 .f32) (dst : IVec S3200000 32) (ea ew eb : FVec F S3200000 .f32)
    (na nw nb : FVec F S100000 .f32) : FVec F S16x100000 .f32 :=
  let v1 : FVec F S1x3200000 .f32 := broadcastInDim S1x3200000 ![1] bcast_S3200000_S1x3200000_1 ew
  let v2 : FVec F S16x3200000 .f32 := broadcastInDim S16x3200000 ![0, 1] bcast_S1x3200000_S16x3200000_0_1 v1
  let v3 : FVec F S16x3200000 .f32 := mulf v2 xs
  let v4 : FVec F S1x3200000 .f32 := broadcastInDim S1x3200000 ![1] bcast_S3200000_S1x3200000_1 eb
  let v5 : FVec F S16x3200000 .f32 := broadcastInDim S16x3200000 ![0, 1] bcast_S1x3200000_S16x3200000_0_1 v4
  let v6 : FVec F S16x3200000 .f32 := addf v3 v5
  let cst : FVec F S_ .f32 := constant S_ .f32 0x3F800000#32
  let v7 : FVec F S3200000 .f32 := broadcastInDim S3200000 ![] bcast_S_S3200000 cst
  let v8 : FVec F S3200000 .f32 := subf v7 ea
  let v9 : FVec F S1x3200000 .f32 := broadcastInDim S1x3200000 ![1] bcast_S3200000_S1x3200000_1 v8
  let v10 : FVec F S16x3200000 .f32 := broadcastInDim S16x3200000 ![0, 1] bcast_S1x3200000_S16x3200000_0_1 v9
  let v11 : FVec F S16x3200000 .f32 := mulf v10 v6
  let v12 : FVec F S16x3200000 .f32 := Host.tanh v6
  let v13 : FVec F S1x3200000 .f32 := broadcastInDim S1x3200000 ![1] bcast_S3200000_S1x3200000_1 ea
  let v14 : FVec F S16x3200000 .f32 := broadcastInDim S16x3200000 ![0, 1] bcast_S1x3200000_S16x3200000_0_1 v13
  let v15 : FVec F S16x3200000 .f32 := mulf v14 v12
  let v16 : FVec F S16x3200000 .f32 := addf v11 v15
  let v17 : FVec F S3200000x16 .f32 := transpose S3200000x16 [1, 0] v16 transposes_S16x3200000_S3200000x16_1_0
  let cst_0 : FVec F S_ .f32 := constant S_ .f32 0x00000000#32
  let v18 : FVec F S100000x16 .f32 := broadcastInDim S100000x16 ![] bcast_S_S100000x16 cst_0
  let v19 : IVec S3200000x1 32 := dstCol dst
  let v20 : FVec F S100000x16 .f32 := Host.scatterAdd scatter_S100000x16_S3200000x1_S3200000x16_1_0_0_1 v18 v19 v17
  let v21 : FVec F S16x100000 .f32 := transpose S16x100000 [1, 0] v20 transposes_S100000x16_S16x100000_1_0
  let v22 : FVec F S1x100000 .f32 := broadcastInDim S1x100000 ![1] bcast_S100000_S1x100000_1 nw
  let v23 : FVec F S16x100000 .f32 := broadcastInDim S16x100000 ![0, 1] bcast_S1x100000_S16x100000_0_1 v22
  let v24 : FVec F S16x100000 .f32 := mulf v23 v21
  let v25 : FVec F S1x100000 .f32 := broadcastInDim S1x100000 ![1] bcast_S100000_S1x100000_1 nb
  let v26 : FVec F S16x100000 .f32 := broadcastInDim S16x100000 ![0, 1] bcast_S1x100000_S16x100000_0_1 v25
  let v27 : FVec F S16x100000 .f32 := addf v24 v26
  let cst_1 : FVec F S_ .f32 := constant S_ .f32 0x3F800000#32
  let v28 : FVec F S100000 .f32 := broadcastInDim S100000 ![] bcast_S_S100000 cst_1
  let v29 : FVec F S100000 .f32 := subf v28 na
  let v30 : FVec F S1x100000 .f32 := broadcastInDim S1x100000 ![1] bcast_S100000_S1x100000_1 v29
  let v31 : FVec F S16x100000 .f32 := broadcastInDim S16x100000 ![0, 1] bcast_S1x100000_S16x100000_0_1 v30
  let v32 : FVec F S16x100000 .f32 := mulf v31 v27
  let v33 : FVec F S16x100000 .f32 := Host.tanh v27
  let v34 : FVec F S1x100000 .f32 := broadcastInDim S1x100000 ![1] bcast_S100000_S1x100000_1 na
  let v35 : FVec F S16x100000 .f32 := broadcastInDim S16x100000 ![0, 1] bcast_S1x100000_S16x100000_0_1 v34
  let v36 : FVec F S16x100000 .f32 := mulf v35 v33
  addf v32 v36

/-! ## The program as a list of operations -/

/-- The sixty-three operations, in order: the gather's twenty-three over the buffers of its call (the inner
    select over the buffer of the call nested in it), then the layer's forty. -/
abbrev ops : List (HloOp τ sig (Elt F)) :=
  [ TRef.nullary main_call0.c (constantI S_ 32 0#32),
    TRef.unary main_call0.c main_call0.v0 (broadcastInDim S3200000 ![] bcast_S_S3200000),
    TRef.binary (.of main_arg1) main_call0.v0 main_call0.v1 (cmpi .slt),
    TRef.nullary main_call0.c_0 (constantI S_ 32 100000#32),
    TRef.unary main_call0.c_0 main_call0.v2 (broadcastInDim S3200000 ![] bcast_S_S3200000),
    TRef.binary (.of main_arg1) main_call0.v2 main_call0.v3 addi,
    TRef.ternary main_call0.v1 main_call0.v3 (.of main_arg1) main_call0.call0.v0 select,
    TRef.unary main_call0.call0.v0 main_call0.v5 (broadcastInDim S3200000x1 ![0] bcast_S3200000_S3200000x1_0),
    TRef.nullary main_call0.c_1 (constantI S1 32 99999#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3200000x1_S3200000_d1 h_S_),
    TRef.binary (.of main_arg0) main_call0.v5 main_call0.v13 (fun x i => Host.gather gather_S16x100000_S3200000x1_S16x3200000_0_1_n_n_1_1_161 x i),
    TRef.unary main_call0.v12 main_call0.v14 (broadcastInDim S16x3200000 ![1] bcast_S3200000_S16x3200000_1),
    TRef.nullary main_call0.cst (constant S_ .f32 0x7FC00000#32),
    TRef.unary main_call0.cst main_call0.v15 (broadcastInDim S16x3200000 ![] bcast_S_S16x3200000),
    TRef.ternary main_call0.v14 main_call0.v13 main_call0.v15 main_call0.v16 select,
    unary main_arg4 main_v1 (broadcastInDim S1x3200000 ![1] bcast_S3200000_S1x3200000_1 : (⟨S3200000, .f32⟩ : BufTy).Contents (Elt F) → (⟨S1x3200000, .f32⟩ : BufTy).Contents (Elt F)),
    unary main_v1 main_v2 (broadcastInDim S16x3200000 ![0, 1] bcast_S1x3200000_S16x3200000_0_1 : (⟨S1x3200000, .f32⟩ : BufTy).Contents (Elt F) → (⟨S16x3200000, .f32⟩ : BufTy).Contents (Elt F)),
    binary main_v2 main_v0 main_v3 (mulf : (⟨S16x3200000, .f32⟩ : BufTy).Contents (Elt F) → (⟨S16x3200000, .f32⟩ : BufTy).Contents (Elt F) → (⟨S16x3200000, .f32⟩ : BufTy).Contents (Elt F)),
    unary main_arg5 main_v4 (broadcastInDim S1x3200000 ![1] bcast_S3200000_S1x3200000_1 : (⟨S3200000, .f32⟩ : BufTy).Contents (Elt F) → (⟨S1x3200000, .f32⟩ : BufTy).Contents (Elt F)),
    unary main_v4 main_v5 (broadcastInDim S16x3200000 ![0, 1] bcast_S1x3200000_S16x3200000_0_1 : (⟨S1x3200000, .f32⟩ : BufTy).Contents (Elt F) → (⟨S16x3200000, .f32⟩ : BufTy).Contents (Elt F)),
    binary main_v3 main_v5 main_v6 (addf : (⟨S16x3200000, .f32⟩ : BufTy).Contents (Elt F) → (⟨S16x3200000, .f32⟩ : BufTy).Contents (Elt F) → (⟨S16x3200000, .f32⟩ : BufTy).Contents (Elt F)),
    nullary main_cst (constant S_ .f32 0x3F800000#32),
    unary main_cst main_v7 (broadcastInDim S3200000 ![] bcast_S_S3200000 : (⟨S_, .f32⟩ : BufTy).Contents (Elt F) → (⟨S3200000, .f32⟩ : BufTy).Contents (Elt F)),
    binary main_v7 main_arg3 main_v8 (subf : (⟨S3200000, .f32⟩ : BufTy).Contents (Elt F) → (⟨S3200000, .f32⟩ : BufTy).Contents (Elt F) → (⟨S3200000, .f32⟩ : BufTy).Contents (Elt F)),
    unary main_v8 main_v9 (broadcastInDim S1x3200000 ![1] bcast_S3200000_S1x3200000_1 : (⟨S3200000, .f32⟩ : BufTy).Contents (Elt F) → (⟨S1x3200000, .f32⟩ : BufTy).Contents (Elt F)),
    unary main_v9 main_v10 (broadcastInDim S16x3200000 ![0, 1] bcast_S1x3200000_S16x3200000_0_1 : (⟨S1x3200000, .f32⟩ : BufTy).Contents (Elt F) → (⟨S16x3200000, .f32⟩ : BufTy).Contents (Elt F)),
    binary main_v10 main_v6 main_v11 (mulf : (⟨S16x3200000, .f32⟩ : BufTy).Contents (Elt F) → (⟨S16x3200000, .f32⟩ : BufTy).Contents (Elt F) → (⟨S16x3200000, .f32⟩ : BufTy).Contents (Elt F)),
    unary main_v6 main_v12 (Host.tanh : (⟨S16x3200000, .f32⟩ : BufTy).Contents (Elt F) → (⟨S16x3200000, .f32⟩ : BufTy).Contents (Elt F)),
    unary main_arg3 main_v13 (broadcastInDim S1x3200000 ![1] bcast_S3200000_S1x3200000_1 : (⟨S3200000, .f32⟩ : BufTy).Contents (Elt F) → (⟨S1x3200000, .f32⟩ : BufTy).Contents (Elt F)),
    unary main_v13 main_v14 (broadcastInDim S16x3200000 ![0, 1] bcast_S1x3200000_S16x3200000_0_1 : (⟨S1x3200000, .f32⟩ : BufTy).Contents (Elt F) → (⟨S16x3200000, .f32⟩ : BufTy).Contents (Elt F)),
    binary main_v14 main_v12 main_v15 (mulf : (⟨S16x3200000, .f32⟩ : BufTy).Contents (Elt F) → (⟨S16x3200000, .f32⟩ : BufTy).Contents (Elt F) → (⟨S16x3200000, .f32⟩ : BufTy).Contents (Elt F)),
    binary main_v11 main_v15 main_v16 (addf : (⟨S16x3200000, .f32⟩ : BufTy).Contents (Elt F) → (⟨S16x3200000, .f32⟩ : BufTy).Contents (Elt F) → (⟨S16x3200000, .f32⟩ : BufTy).Contents (Elt F)),
    unary main_v16 main_v17 ((transpose S3200000x16 [1, 0] · transposes_S16x3200000_S3200000x16_1_0) : (⟨S16x3200000, .f32⟩ : BufTy).Contents (Elt F) → (⟨S3200000x16, .f32⟩ : BufTy).Contents (Elt F)),
    nullary main_cst_0 (constant S_ .f32 0x00000000#32),
    unary main_cst_0 main_v18 (broadcastInDim S100000x16 ![] bcast_S_S100000x16 : (⟨S_, .f32⟩ : BufTy).Contents (Elt F) → (⟨S100000x16, .f32⟩ : BufTy).Contents (Elt F)),
    unary main_arg2 main_v19 (broadcastInDim S3200000x1 ![0] bcast_S3200000_S3200000x1_0 : (⟨S3200000, .i32⟩ : BufTy).Contents (Elt F) → (⟨S3200000x1, .i32⟩ : BufTy).Contents (Elt F)),
    ternary main_v18 main_v19 main_v17 main_v20 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_v20 main_v21 ((transpose S16x100000 [1, 0] · transposes_S100000x16_S16x100000_1_0) : (⟨S100000x16, .f32⟩ : BufTy).Contents (Elt F) → (⟨S16x100000, .f32⟩ : BufTy).Contents (Elt F)),
    unary main_arg7 main_v22 (broadcastInDim S1x100000 ![1] bcast_S100000_S1x100000_1 : (⟨S100000, .f32⟩ : BufTy).Contents (Elt F) → (⟨S1x100000, .f32⟩ : BufTy).Contents (Elt F)),
    unary main_v22 main_v23 (broadcastInDim S16x100000 ![0, 1] bcast_S1x100000_S16x100000_0_1 : (⟨S1x100000, .f32⟩ : BufTy).Contents (Elt F) → (⟨S16x100000, .f32⟩ : BufTy).Contents (Elt F)),
    binary main_v23 main_v21 main_v24 (mulf : (⟨S16x100000, .f32⟩ : BufTy).Contents (Elt F) → (⟨S16x100000, .f32⟩ : BufTy).Contents (Elt F) → (⟨S16x100000, .f32⟩ : BufTy).Contents (Elt F)),
    unary main_arg8 main_v25 (broadcastInDim S1x100000 ![1] bcast_S100000_S1x100000_1 : (⟨S100000, .f32⟩ : BufTy).Contents (Elt F) → (⟨S1x100000, .f32⟩ : BufTy).Contents (Elt F)),
    unary main_v25 main_v26 (broadcastInDim S16x100000 ![0, 1] bcast_S1x100000_S16x100000_0_1 : (⟨S1x100000, .f32⟩ : BufTy).Contents (Elt F) → (⟨S16x100000, .f32⟩ : BufTy).Contents (Elt F)),
    binary main_v24 main_v26 main_v27 (addf : (⟨S16x100000, .f32⟩ : BufTy).Contents (Elt F) → (⟨S16x100000, .f32⟩ : BufTy).Contents (Elt F) → (⟨S16x100000, .f32⟩ : BufTy).Contents (Elt F)),
    nullary main_cst_1 (constant S_ .f32 0x3F800000#32),
    unary main_cst_1 main_v28 (broadcastInDim S100000 ![] bcast_S_S100000 : (⟨S_, .f32⟩ : BufTy).Contents (Elt F) → (⟨S100000, .f32⟩ : BufTy).Contents (Elt F)),
    binary main_v28 main_arg6 main_v29 (subf : (⟨S100000, .f32⟩ : BufTy).Contents (Elt F) → (⟨S100000, .f32⟩ : BufTy).Contents (Elt F) → (⟨S100000, .f32⟩ : BufTy).Contents (Elt F)),
    unary main_v29 main_v30 (broadcastInDim S1x100000 ![1] bcast_S100000_S1x100000_1 : (⟨S100000, .f32⟩ : BufTy).Contents (Elt F) → (⟨S1x100000, .f32⟩ : BufTy).Contents (Elt F)),
    unary main_v30 main_v31 (broadcastInDim S16x100000 ![0, 1] bcast_S1x100000_S16x100000_0_1 : (⟨S1x100000, .f32⟩ : BufTy).Contents (Elt F) → (⟨S16x100000, .f32⟩ : BufTy).Contents (Elt F)),
    binary main_v31 main_v27 main_v32 (mulf : (⟨S16x100000, .f32⟩ : BufTy).Contents (Elt F) → (⟨S16x100000, .f32⟩ : BufTy).Contents (Elt F) → (⟨S16x100000, .f32⟩ : BufTy).Contents (Elt F)),
    unary main_v27 main_v33 (Host.tanh : (⟨S16x100000, .f32⟩ : BufTy).Contents (Elt F) → (⟨S16x100000, .f32⟩ : BufTy).Contents (Elt F)),
    unary main_arg6 main_v34 (broadcastInDim S1x100000 ![1] bcast_S100000_S1x100000_1 : (⟨S100000, .f32⟩ : BufTy).Contents (Elt F) → (⟨S1x100000, .f32⟩ : BufTy).Contents (Elt F)),
    unary main_v34 main_v35 (broadcastInDim S16x100000 ![0, 1] bcast_S1x100000_S16x100000_0_1 : (⟨S1x100000, .f32⟩ : BufTy).Contents (Elt F) → (⟨S16x100000, .f32⟩ : BufTy).Contents (Elt F)),
    binary main_v35 main_v33 main_v36 (mulf : (⟨S16x100000, .f32⟩ : BufTy).Contents (Elt F) → (⟨S16x100000, .f32⟩ : BufTy).Contents (Elt F) → (⟨S16x100000, .f32⟩ : BufTy).Contents (Elt F)),
    binary main_v32 main_v36 main_v37 (addf : (⟨S16x100000, .f32⟩ : BufTy).Contents (Elt F) → (⟨S16x100000, .f32⟩ : BufTy).Contents (Elt F) → (⟨S16x100000, .f32⟩ : BufTy).Contents (Elt F)) ]

set_option maxRecDepth 2048 in
/-- The program is that list run in sequence: the two outlined functions unfolded at their calls and the
    sequencing reassociated, both sides are one chain of steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., unary_bufs_sub .., binary_bufs_sub .., binary_bufs_sub .., unary_bufs_sub .., nullary_bufs_sub ..,
    unary_bufs_sub .., unary_bufs_sub .., ternary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    unary_bufs_sub .., binary_bufs_sub .., binary_bufs_sub ..⟩

/-! ## The list in two parts -/

/-- The gather's twenty-three operations. -/
abbrev takeOps : List (HloOp τ sig (Elt F)) :=
  [ TRef.nullary main_call0.c (constantI S_ 32 0#32),
    TRef.unary main_call0.c main_call0.v0 (broadcastInDim S3200000 ![] bcast_S_S3200000),
    TRef.binary (.of main_arg1) main_call0.v0 main_call0.v1 (cmpi .slt),
    TRef.nullary main_call0.c_0 (constantI S_ 32 100000#32),
    TRef.unary main_call0.c_0 main_call0.v2 (broadcastInDim S3200000 ![] bcast_S_S3200000),
    TRef.binary (.of main_arg1) main_call0.v2 main_call0.v3 addi,
    TRef.ternary main_call0.v1 main_call0.v3 (.of main_arg1) main_call0.call0.v0 select,
    TRef.unary main_call0.call0.v0 main_call0.v5 (broadcastInDim S3200000x1 ![0] bcast_S3200000_S3200000x1_0),
    TRef.nullary main_call0.c_1 (constantI S1 32 99999#32),
    TRef.nullary main_call0.c_2 (constantI S_ 32 0#32),
    TRef.unary main_call0.c_2 main_call0.v6 (broadcastInDim S3200000x1 ![] bcast_S_S3200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3200000x1 ![0, 1] bcast_S1x1_S3200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3200000x1_S3200000_d1 h_S_),
    TRef.binary (.of main_arg0) main_call0.v5 main_call0.v13 (fun x i => Host.gather gather_S16x100000_S3200000x1_S16x3200000_0_1_n_n_1_1_161 x i),
    TRef.unary main_call0.v12 main_call0.v14 (broadcastInDim S16x3200000 ![1] bcast_S3200000_S16x3200000_1),
    TRef.nullary main_call0.cst (constant S_ .f32 0x7FC00000#32),
    TRef.unary main_call0.cst main_call0.v15 (broadcastInDim S16x3200000 ![] bcast_S_S16x3200000),
    TRef.ternary main_call0.v14 main_call0.v13 main_call0.v15 main_call0.v16 select ]

/-- The layer's forty operations. -/
abbrev layerOps : List (HloOp τ sig (Elt F)) :=
  [ unary main_arg4 main_v1 (broadcastInDim S1x3200000 ![1] bcast_S3200000_S1x3200000_1 : (⟨S3200000, .f32⟩ : BufTy).Contents (Elt F) → (⟨S1x3200000, .f32⟩ : BufTy).Contents (Elt F)),
    unary main_v1 main_v2 (broadcastInDim S16x3200000 ![0, 1] bcast_S1x3200000_S16x3200000_0_1 : (⟨S1x3200000, .f32⟩ : BufTy).Contents (Elt F) → (⟨S16x3200000, .f32⟩ : BufTy).Contents (Elt F)),
    binary main_v2 main_v0 main_v3 (mulf : (⟨S16x3200000, .f32⟩ : BufTy).Contents (Elt F) → (⟨S16x3200000, .f32⟩ : BufTy).Contents (Elt F) → (⟨S16x3200000, .f32⟩ : BufTy).Contents (Elt F)),
    unary main_arg5 main_v4 (broadcastInDim S1x3200000 ![1] bcast_S3200000_S1x3200000_1 : (⟨S3200000, .f32⟩ : BufTy).Contents (Elt F) → (⟨S1x3200000, .f32⟩ : BufTy).Contents (Elt F)),
    unary main_v4 main_v5 (broadcastInDim S16x3200000 ![0, 1] bcast_S1x3200000_S16x3200000_0_1 : (⟨S1x3200000, .f32⟩ : BufTy).Contents (Elt F) → (⟨S16x3200000, .f32⟩ : BufTy).Contents (Elt F)),
    binary main_v3 main_v5 main_v6 (addf : (⟨S16x3200000, .f32⟩ : BufTy).Contents (Elt F) → (⟨S16x3200000, .f32⟩ : BufTy).Contents (Elt F) → (⟨S16x3200000, .f32⟩ : BufTy).Contents (Elt F)),
    nullary main_cst (constant S_ .f32 0x3F800000#32),
    unary main_cst main_v7 (broadcastInDim S3200000 ![] bcast_S_S3200000 : (⟨S_, .f32⟩ : BufTy).Contents (Elt F) → (⟨S3200000, .f32⟩ : BufTy).Contents (Elt F)),
    binary main_v7 main_arg3 main_v8 (subf : (⟨S3200000, .f32⟩ : BufTy).Contents (Elt F) → (⟨S3200000, .f32⟩ : BufTy).Contents (Elt F) → (⟨S3200000, .f32⟩ : BufTy).Contents (Elt F)),
    unary main_v8 main_v9 (broadcastInDim S1x3200000 ![1] bcast_S3200000_S1x3200000_1 : (⟨S3200000, .f32⟩ : BufTy).Contents (Elt F) → (⟨S1x3200000, .f32⟩ : BufTy).Contents (Elt F)),
    unary main_v9 main_v10 (broadcastInDim S16x3200000 ![0, 1] bcast_S1x3200000_S16x3200000_0_1 : (⟨S1x3200000, .f32⟩ : BufTy).Contents (Elt F) → (⟨S16x3200000, .f32⟩ : BufTy).Contents (Elt F)),
    binary main_v10 main_v6 main_v11 (mulf : (⟨S16x3200000, .f32⟩ : BufTy).Contents (Elt F) → (⟨S16x3200000, .f32⟩ : BufTy).Contents (Elt F) → (⟨S16x3200000, .f32⟩ : BufTy).Contents (Elt F)),
    unary main_v6 main_v12 (Host.tanh : (⟨S16x3200000, .f32⟩ : BufTy).Contents (Elt F) → (⟨S16x3200000, .f32⟩ : BufTy).Contents (Elt F)),
    unary main_arg3 main_v13 (broadcastInDim S1x3200000 ![1] bcast_S3200000_S1x3200000_1 : (⟨S3200000, .f32⟩ : BufTy).Contents (Elt F) → (⟨S1x3200000, .f32⟩ : BufTy).Contents (Elt F)),
    unary main_v13 main_v14 (broadcastInDim S16x3200000 ![0, 1] bcast_S1x3200000_S16x3200000_0_1 : (⟨S1x3200000, .f32⟩ : BufTy).Contents (Elt F) → (⟨S16x3200000, .f32⟩ : BufTy).Contents (Elt F)),
    binary main_v14 main_v12 main_v15 (mulf : (⟨S16x3200000, .f32⟩ : BufTy).Contents (Elt F) → (⟨S16x3200000, .f32⟩ : BufTy).Contents (Elt F) → (⟨S16x3200000, .f32⟩ : BufTy).Contents (Elt F)),
    binary main_v11 main_v15 main_v16 (addf : (⟨S16x3200000, .f32⟩ : BufTy).Contents (Elt F) → (⟨S16x3200000, .f32⟩ : BufTy).Contents (Elt F) → (⟨S16x3200000, .f32⟩ : BufTy).Contents (Elt F)),
    unary main_v16 main_v17 ((transpose S3200000x16 [1, 0] · transposes_S16x3200000_S3200000x16_1_0) : (⟨S16x3200000, .f32⟩ : BufTy).Contents (Elt F) → (⟨S3200000x16, .f32⟩ : BufTy).Contents (Elt F)),
    nullary main_cst_0 (constant S_ .f32 0x00000000#32),
    unary main_cst_0 main_v18 (broadcastInDim S100000x16 ![] bcast_S_S100000x16 : (⟨S_, .f32⟩ : BufTy).Contents (Elt F) → (⟨S100000x16, .f32⟩ : BufTy).Contents (Elt F)),
    unary main_arg2 main_v19 (broadcastInDim S3200000x1 ![0] bcast_S3200000_S3200000x1_0 : (⟨S3200000, .i32⟩ : BufTy).Contents (Elt F) → (⟨S3200000x1, .i32⟩ : BufTy).Contents (Elt F)),
    ternary main_v18 main_v19 main_v17 main_v20 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_v20 main_v21 ((transpose S16x100000 [1, 0] · transposes_S100000x16_S16x100000_1_0) : (⟨S100000x16, .f32⟩ : BufTy).Contents (Elt F) → (⟨S16x100000, .f32⟩ : BufTy).Contents (Elt F)),
    unary main_arg7 main_v22 (broadcastInDim S1x100000 ![1] bcast_S100000_S1x100000_1 : (⟨S100000, .f32⟩ : BufTy).Contents (Elt F) → (⟨S1x100000, .f32⟩ : BufTy).Contents (Elt F)),
    unary main_v22 main_v23 (broadcastInDim S16x100000 ![0, 1] bcast_S1x100000_S16x100000_0_1 : (⟨S1x100000, .f32⟩ : BufTy).Contents (Elt F) → (⟨S16x100000, .f32⟩ : BufTy).Contents (Elt F)),
    binary main_v23 main_v21 main_v24 (mulf : (⟨S16x100000, .f32⟩ : BufTy).Contents (Elt F) → (⟨S16x100000, .f32⟩ : BufTy).Contents (Elt F) → (⟨S16x100000, .f32⟩ : BufTy).Contents (Elt F)),
    unary main_arg8 main_v25 (broadcastInDim S1x100000 ![1] bcast_S100000_S1x100000_1 : (⟨S100000, .f32⟩ : BufTy).Contents (Elt F) → (⟨S1x100000, .f32⟩ : BufTy).Contents (Elt F)),
    unary main_v25 main_v26 (broadcastInDim S16x100000 ![0, 1] bcast_S1x100000_S16x100000_0_1 : (⟨S1x100000, .f32⟩ : BufTy).Contents (Elt F) → (⟨S16x100000, .f32⟩ : BufTy).Contents (Elt F)),
    binary main_v24 main_v26 main_v27 (addf : (⟨S16x100000, .f32⟩ : BufTy).Contents (Elt F) → (⟨S16x100000, .f32⟩ : BufTy).Contents (Elt F) → (⟨S16x100000, .f32⟩ : BufTy).Contents (Elt F)),
    nullary main_cst_1 (constant S_ .f32 0x3F800000#32),
    unary main_cst_1 main_v28 (broadcastInDim S100000 ![] bcast_S_S100000 : (⟨S_, .f32⟩ : BufTy).Contents (Elt F) → (⟨S100000, .f32⟩ : BufTy).Contents (Elt F)),
    binary main_v28 main_arg6 main_v29 (subf : (⟨S100000, .f32⟩ : BufTy).Contents (Elt F) → (⟨S100000, .f32⟩ : BufTy).Contents (Elt F) → (⟨S100000, .f32⟩ : BufTy).Contents (Elt F)),
    unary main_v29 main_v30 (broadcastInDim S1x100000 ![1] bcast_S100000_S1x100000_1 : (⟨S100000, .f32⟩ : BufTy).Contents (Elt F) → (⟨S1x100000, .f32⟩ : BufTy).Contents (Elt F)),
    unary main_v30 main_v31 (broadcastInDim S16x100000 ![0, 1] bcast_S1x100000_S16x100000_0_1 : (⟨S1x100000, .f32⟩ : BufTy).Contents (Elt F) → (⟨S16x100000, .f32⟩ : BufTy).Contents (Elt F)),
    binary main_v31 main_v27 main_v32 (mulf : (⟨S16x100000, .f32⟩ : BufTy).Contents (Elt F) → (⟨S16x100000, .f32⟩ : BufTy).Contents (Elt F) → (⟨S16x100000, .f32⟩ : BufTy).Contents (Elt F)),
    unary main_v27 main_v33 (Host.tanh : (⟨S16x100000, .f32⟩ : BufTy).Contents (Elt F) → (⟨S16x100000, .f32⟩ : BufTy).Contents (Elt F)),
    unary main_arg6 main_v34 (broadcastInDim S1x100000 ![1] bcast_S100000_S1x100000_1 : (⟨S100000, .f32⟩ : BufTy).Contents (Elt F) → (⟨S1x100000, .f32⟩ : BufTy).Contents (Elt F)),
    unary main_v34 main_v35 (broadcastInDim S16x100000 ![0, 1] bcast_S1x100000_S16x100000_0_1 : (⟨S1x100000, .f32⟩ : BufTy).Contents (Elt F) → (⟨S16x100000, .f32⟩ : BufTy).Contents (Elt F)),
    binary main_v35 main_v33 main_v36 (mulf : (⟨S16x100000, .f32⟩ : BufTy).Contents (Elt F) → (⟨S16x100000, .f32⟩ : BufTy).Contents (Elt F) → (⟨S16x100000, .f32⟩ : BufTy).Contents (Elt F)),
    binary main_v32 main_v36 main_v37 (addf : (⟨S16x100000, .f32⟩ : BufTy).Contents (Elt F) → (⟨S16x100000, .f32⟩ : BufTy).Contents (Elt F) → (⟨S16x100000, .f32⟩ : BufTy).Contents (Elt F)) ]

/-- Running one list after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What the buffers hold after the list -/

theorem ops_split : (ops : List (HloOp τ sig (Elt F))) = takeOps ++ layerOps := rfl

-- the row-wise "and" and the gather are folds and searches over their operands' entries: kept folded, so that the two
-- sides are compared operation by operation and never entry by entry
attribute [local irreducible] Host.reduce Host.gather in
set_option maxRecDepth 8192 in
set_option maxHeartbeats 400000 in
/-- The gather's result buffer after its operations: each operation's result read at its own buffer is its function
    of its operands' buffers; moving contents to a buffer's own type and back changes nothing. -/
theorem take_out_eq (V : Valuation τ sig (Elt F)) :
    after takeOps V (main_v0 : DevRef τ sig) = takeR (V (main_arg0 : DevRef τ sig)) (V (main_arg1 : DevRef τ sig)) := by
  after_results_simp
  simp only [Cert.Lib.TypedRef.ofBuf_toBuf]
  rfl

/-! The gather's operations write none of the other seven arguments. -/

theorem take_arg2_eq (V : Valuation τ sig (Elt F)) : after takeOps V (main_arg2 : DevRef τ sig) = V (main_arg2 : DevRef τ sig) := by
  after_results_simp

theorem take_arg3_eq (V : Valuation τ sig (Elt F)) : after takeOps V (main_arg3 : DevRef τ sig) = V (main_arg3 : DevRef τ sig) := by
  after_results_simp

theorem take_arg4_eq (V : Valuation τ sig (Elt F)) : after takeOps V (main_arg4 : DevRef τ sig) = V (main_arg4 : DevRef τ sig) := by
  after_results_simp

theorem take_arg5_eq (V : Valuation τ sig (Elt F)) : after takeOps V (main_arg5 : DevRef τ sig) = V (main_arg5 : DevRef τ sig) := by
  after_results_simp

theorem take_arg6_eq (V : Valuation τ sig (Elt F)) : after takeOps V (main_arg6 : DevRef τ sig) = V (main_arg6 : DevRef τ sig) := by
  after_results_simp

theorem take_arg7_eq (V : Valuation τ sig (Elt F)) : after takeOps V (main_arg7 : DevRef τ sig) = V (main_arg7 : DevRef τ sig) := by
  after_results_simp

theorem take_arg8_eq (V : Valuation τ sig (Elt F)) : after takeOps V (main_arg8 : DevRef τ sig) = V (main_arg8 : DevRef τ sig) := by
  after_results_simp

set_option maxRecDepth 8192 in
set_option maxHeartbeats 400000 in
/-- The result buffer after the layer's operations, from any contents. -/
theorem layer_out_eq (W : Valuation τ sig (Elt F)) :
    after layerOps W (main_v37 : DevRef τ sig)
      = refOut (W (main_v0 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := by
  after_results_simp
  rfl

/-- The result buffer after the whole list. -/
theorem out_eq (V : Valuation τ sig (Elt F)) :
    after ops V (main_v37 : DevRef τ sig)
      = refOut (takeR (V (main_arg0 : DevRef τ sig)) (V (main_arg1 : DevRef τ sig))) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  rw [ops_split, after_append, layer_out_eq, take_out_eq, take_arg2_eq, take_arg3_eq, take_arg4_eq, take_arg5_eq,
    take_arg6_eq, take_arg7_eq, take_arg8_eq]

/-! No operation writes an argument's buffer. -/

set_option maxHeartbeats 400000 in
theorem arg0_eq (V : Valuation τ sig (Elt F)) : after ops V (main_arg0 : DevRef τ sig) = V (main_arg0 : DevRef τ sig) := by
  after_results_simp

set_option maxHeartbeats 400000 in
theorem arg1_eq (V : Valuation τ sig (Elt F)) : after ops V (main_arg1 : DevRef τ sig) = V (main_arg1 : DevRef τ sig) := by
  after_results_simp

set_option maxHeartbeats 400000 in
theorem arg2_eq (V : Valuation τ sig (Elt F)) : after ops V (main_arg2 : DevRef τ sig) = V (main_arg2 : DevRef τ sig) := by
  after_results_simp

set_option maxHeartbeats 400000 in
theorem arg3_eq (V : Valuation τ sig (Elt F)) : after ops V (main_arg3 : DevRef τ sig) = V (main_arg3 : DevRef τ sig) := by
  after_results_simp

set_option maxHeartbeats 400000 in
theorem arg4_eq (V : Valuation τ sig (Elt F)) : after ops V (main_arg4 : DevRef τ sig) = V (main_arg4 : DevRef τ sig) := by
  after_results_simp

set_option maxHeartbeats 400000 in
theorem arg5_eq (V : Valuation τ sig (Elt F)) : after ops V (main_arg5 : DevRef τ sig) = V (main_arg5 : DevRef τ sig) := by
  after_results_simp

set_option maxHeartbeats 400000 in
theorem arg6_eq (V : Valuation τ sig (Elt F)) : after ops V (main_arg6 : DevRef τ sig) = V (main_arg6 : DevRef τ sig) := by
  after_results_simp

set_option maxHeartbeats 400000 in
theorem arg7_eq (V : Valuation τ sig (Elt F)) : after ops V (main_arg7 : DevRef τ sig) = V (main_arg7 : DevRef τ sig) := by
  after_results_simp

set_option maxHeartbeats 400000 in
theorem arg8_eq (V : Valuation τ sig (Elt F)) : after ops V (main_arg8 : DevRef τ sig) = V (main_arg8 : DevRef τ sig) := by
  after_results_simp

/-! ## The run -/

/-- From any memory with zero counters, every weakly fair execution of the reference terminates, with the result
    buffer at the layer's composed term of the gather of the first two arguments and the other seven, and the nine
    arguments as they were. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v37) = refOut (takeR (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v37).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.RefSide

end
-- ==== Proof.LibTranspose.lean ====
/-
  A matrix transposed, read at an entry, for any element type and any extents: the transpose of an [a, b] array,
  an array [b, a], holds at (i, j) the operand's entry (j, i).
-/
import Idealize.ShloMosaic.Lib.Pipeline.Value
import Idealize.ShloMosaic.Lib.ValueIdx

noncomputable section

namespace Cert.Lib.Transpose

open Idealize.ShloMosaic Idealize.ShloMosaic.ValueIdx

/-- The transpose (axes swapped) of an [a, b] array reads, at (i, j), the operand at (j, i). -/
theorem transpose_swap_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply _ x h (ix2 i j) (ix2 j i) (fun d => by
    match d with
    | ⟨0, _⟩ => rfl
    | ⟨1, _⟩ => rfl)

end Cert.Lib.Transpose

end
-- ==== Proof.RefRead.lean ====
/-
  The reference's composed term read at one entry, on the extended reals.

  The layer blends twice with the same pattern of operations: three parameter vectors of length b, each laid
  along the second axis of an [a, b] array and repeated down the rows, meet an [a, b] array x entry by entry as
      (1 - al) * (w * x + bb) + al * tanh (w * x + bb),
  the number one being the word the program carries. That pattern is named once here (`blendArr`) and read at an
  entry (`blendArr_apply`); the layer is the node pattern over the transposed accumulating scatter of the
  transposed edge pattern (`refOut_eq`, by unfolding). Reading the outer pattern at (r, n), the transposes at
  swapped coordinates, the scatter as "zero plus the segment sum over the edges ending at n", and the inner
  pattern at (r, e) under that sum gives the specification's entry, the sum never opened.
-/
import proofs.«120978_j38508676776060_2_alg».proof.Proof.RefRun
import proofs.«120978_j38508676776060_2_alg».proof.Proof.Spec
import proofs.«120978_j38508676776060_2_alg».proof.Proof.LibSegmentSum
import proofs.«120978_j38508676776060_2_alg».proof.Proof.LibTranspose
import Idealize.ShloMosaic.Lib.Pipeline.Value
import Idealize.ShloMosaic.Lib.ValueIdx
import Idealize.ShloMosaic.Lib.IdealHost
import Idealize.ShloMosaic.PureOps.Ideal

noncomputable section

namespace Cert.RefSide

open Idealize.ShloMosaic Idealize.ShloMosaic.ValueIdx Idealize.SL.Sem Cert.ReferenceIdeal

/-! ## Broadcasts of a vector along the second axis, read at an entry (any element type, any extents) -/

section Layout
variable {α : Type} {a b : ℕ}

/-- A length-b vector laid out as the one row of a [1, b] array reads, at (p, c), the vector at c. -/
theorem bcast_row_apply (h : (⟨1, ![b]⟩ : Shape).BroadcastsInDim ⟨2, ![1, b]⟩ ![1])
    (x : (⟨1, ![b]⟩ : Shape).Idx → α) (p : Fin 1) (c : Fin b) :
    broadcastInDim ⟨2, ![1, b]⟩ ![1] h x (ix2 p c) = x (ix1 c) :=
  broadcastInDim_apply _ h x (ix2 p c) (ix1 c) fun ax =>
    match ax with
    | ⟨0, _⟩ => by
      show c.val = if b = 1 then 0 else c.val
      split
      · have := c.isLt; omega
      · rfl

/-- A [1, b] array repeated down a rows reads, at (p, c), its one row at c. -/
theorem bcast_rows_apply (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply _ h x (ix2 p c) (ix2 (0 : Fin 1) c) fun ax =>
    match ax with
    | ⟨0, _⟩ => rfl
    | ⟨1, _⟩ => by
      show c.val = if b = 1 then 0 else c.val
      split
      · have := c.isLt; omega
      · rfl

end Layout

/-- The host's tanh at an entry is the extended reals' tanh of the entry. -/
theorem hostTanh_apply {s : Shape} {φ : FTy} (x : FVec Ideal s φ) (i : s.Idx) : Host.tanh x i = Ideal.tanh (x i) := rfl

/-! ## The blend pattern -/

section Blend
variable {a b : ℕ}
  (h0 : (⟨0, ![]⟩ : Shape).BroadcastsInDim ⟨1, ![b]⟩ ![])
  (h1 : (⟨1, ![b]⟩ : Shape).BroadcastsInDim ⟨2, ![1, b]⟩ ![1])
  (h2 : (⟨2, ![1, b]⟩ : Shape).BroadcastsInDim ⟨2, ![a, b]⟩ ![0, 1])

/-- The blend as the program spells it: each parameter vector laid along the second axis and repeated down the
    rows, (1 - al) * (w * x + bb) + al * tanh (w * x + bb) entry by entry. -/
def blendArr (w bb al : FVec Ideal ⟨1, ![b]⟩ .f32) (x : FVec Ideal ⟨2, ![a, b]⟩ .f32) : FVec Ideal ⟨2, ![a, b]⟩ .f32 :=
  addf
    (mulf
      (broadcastInDim ⟨2, ![a, b]⟩ ![0, 1] h2 (broadcastInDim ⟨2, ![1, b]⟩ ![1] h1
        (subf (broadcastInDim ⟨1, ![b]⟩ ![] h0 (constant (F := Ideal) ⟨0, ![]⟩ .f32 0x3F800000#32)) al)))
      (addf (mulf (broadcastInDim ⟨2, ![a, b]⟩ ![0, 1] h2 (broadcastInDim ⟨2, ![1, b]⟩ ![1] h1 w)) x)
        (broadcastInDim ⟨2, ![a, b]⟩ ![0, 1] h2 (broadcastInDim ⟨2, ![1, b]⟩ ![1] h1 bb))))
    (mulf (broadcastInDim ⟨2, ![a, b]⟩ ![0, 1] h2 (broadcastInDim ⟨2, ![1, b]⟩ ![1] h1 al))
      (Host.tanh (F := Ideal)
        (addf (mulf (broadcastInDim ⟨2, ![a, b]⟩ ![0, 1] h2 (broadcastInDim ⟨2, ![1, b]⟩ ![1] h1 w)) x)
          (broadcastInDim ⟨2, ![a, b]⟩ ![0, 1] h2 (broadcastInDim ⟨2, ![1, b]⟩ ![1] h1 bb)))))

/-- The pattern at entry (p, c) is the specification's blend of the three parameters at c and x at (p, c). -/
theorem blendArr_apply (w bb al : FVec Ideal ⟨1, ![b]⟩ .f32) (x : FVec Ideal ⟨2, ![a, b]⟩ .f32) (p : Fin a) (c : Fin b) :
    blendArr h0 h1 h2 w bb al x (ix2 p c) = Cert.Spec.blend (w (ix1 c)) (bb (ix1 c)) (al (ix1 c)) (x (ix2 p c)) := by
  unfold blendArr Cert.Spec.blend
  simp only [addf_apply, mulf_apply, hostTanh_apply]
  repeat rw [bcast_rows_apply]
  repeat rw [bcast_row_apply]
  rw [subf_apply, broadcastInDim_scalar_apply, constant_apply]

end Blend

/-! ## The layer -/

variable [Cert.ReferenceIdeal.Facts]
open Cert.ReferenceIdeal.Facts₀

-- the accumulating scatter is a sum over every update entry: kept folded, the two sides are compared operation by operation
attribute [local irreducible] Host.scatterAdd in
/-- The layer is the node blend over the transposed scatter, by destination onto zeros, of the transposed edge blend. -/
theorem refOut_eq (xs : FVec Ideal S16x3200000 .f32) (dst : IVec S3200000 32) (ea ew eb : FVec Ideal S3200000 .f32)
    (na nw nb : FVec Ideal S100000 .f32) :
    refOut (F := Ideal) xs dst ea ew eb na nw nb
      = blendArr bcast_S_S100000 bcast_S100000_S1x100000_1 bcast_S1x100000_S16x100000_0_1 nw nb na
          (transpose S16x100000 [1, 0]
            (Host.scatterAdd scatter_S100000x16_S3200000x1_S3200000x16_1_0_0_1
              (broadcastInDim S100000x16 ![] bcast_S_S100000x16 (constant (F := Ideal) S_ .f32 0x00000000#32))
              (dstCol dst)
              (transpose S3200000x16 [1, 0]
                (blendArr bcast_S_S3200000 bcast_S3200000_S1x3200000_1 bcast_S1x3200000_S16x3200000_0_1 ew eb ea xs)
                transposes_S16x3200000_S3200000x16_1_0))
            transposes_S100000x16_S16x100000_1_0) := rfl

/-- ENTRY (r, n) of the reference's result is the specification's: the node blend of zero plus the sum, over the
    edges whose destination is n, of the edge blends of row r. -/
theorem refOut_apply (xs : FVec Ideal S16x3200000 .f32) (dst : IVec S3200000 32) (ea ew eb : FVec Ideal S3200000 .f32)
    (na nw nb : FVec Ideal S100000 .f32) (r : Fin 16) (n : Fin 100000) :
    refOut (F := Ideal) xs dst ea ew eb na nw nb (ValueIdx.ix2 r n)
      = Cert.Spec.out ew eb ea nw nb na (dstCol dst) xs r n := by
  rw [refOut_eq, blendArr_apply]
  unfold Cert.Spec.out Cert.Spec.agg
  refine congrArg (Cert.Spec.blend (nw (ix1 n)) (nb (ix1 n)) (na (ix1 n))) ?_
  rw [Cert.Lib.Transpose.transpose_swap_apply,
    Cert.Lib.SegmentSum.rows_apply_host scatter_S100000x16_S3200000x1_S3200000x16_1_0_0_1_wf
      scatter_S100000x16_S3200000x1_S3200000x16_1_0_0_1 rfl,
    broadcastInDim_scalar_apply, constant_apply]
  refine congrArg (fun f => Cert.Spec.zero + Cert.Lib.SegmentSum.segSum (dstCol dst) f n) (funext fun e => ?_)
  rw [Cert.Lib.Transpose.transpose_swap_apply, blendArr_apply]
  rfl

end Cert.RefSide

end
-- ==== Proof.Bridge.lean ====
/-
  The two programs meet: at the ideal instance, from memories agreeing on the nine arguments and with no negative
  destination index, the kernel program's result buffer is the reference's composed term of those arguments.

  Both programs open with the same twenty-three gather operations on the same two arguments, so the gathered
  source values are one array. Entry by entry, the kernel's result is the layer's output `Cert.Spec.out` of the
  arguments and that array (the two stages and the scatter between them, read backwards), and so is the
  reference's term (its broadcasts, its transposed scatter and its blends, read at an entry); the destination
  column is the same broadcast of the same argument on both sides.
-/
import proofs.«120978_j38508676776060_2_alg».proof.Proof.KIValue
import proofs.«120978_j38508676776060_2_alg».proof.Proof.KITake
import proofs.«120978_j38508676776060_2_alg».proof.Proof.RefRun
import proofs.«120978_j38508676776060_2_alg».proof.Proof.RefRead
import proofs.«120978_j38508676776060_2_alg».proof.Proof.Gen.ReferenceIdeal

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Stage

variable (m : (ℓ : Loc nD τ sig) → Buf (Elt Ideal) ℓ) (ρ : Dev nD → PrngReg)

-- the two gathers are compared operation by operation; the reduction and the gather themselves stay closed
attribute [local irreducible] Host.reduce Host.gather in
/-- The two programs' gathers are one function: the same twenty-three operations, over each program's own names
    for the same shapes and the same dimension numbers. -/
theorem take_same (x : FVec Ideal S16x100000 .f32) (s : IVec S3200000 32) :
    takeK (F := Ideal) x s = Cert.RefSide.takeR (F := Ideal) x s := rfl

/-- The kernel program's gathered source values are the reference's gather of the same two arguments. -/
theorem srcVals_eq (c : Dev nD) :
    srcVals m ρ c = Cert.RefSide.takeR (F := Ideal) (m ((c : Thread nD τ).loc main_arg0)) (m ((c : Thread nD τ).loc main_arg1)) :=
  (take_of_val (W0 m ρ c)).trans (take_same _ _)

/-- THE RESULT BUFFERS AGREE: the kernel program's, after its run, is the reference's composed term. -/
theorem result_eq (hdst : ∀ (c : Dev nD) (j : S3200000.Idx), 0 ≤ ((m ((c : Thread nD τ).loc main_arg2) : IVec S3200000 32) j).toInt)
    (c : Dev nD) :
    W5 m ρ c (Proc.devRef .tc main_v18)
      = Cert.RefSide.refOut (F := Ideal)
          (Cert.RefSide.takeR (m ((c : Thread nD τ).loc main_arg0)) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨r, n, rfl⟩ : ∃ (r : Fin 16) (n : Fin 100000), i = ix2 r n := ⟨i 0, i 1, eq_ix2 i⟩
  rw [Cert.RefSide.refOut_apply, out_at m ρ hdst c r n, srcVals_eq]
  rfl

end Cert.Bridge

end
-- ==== Proof.lean ====
/-
  The proof of `Cert.Claim`: a two-stage graph layer on the accelerator against its plain reference.

  The layer: gather each edge's source value, blend it with the edge's three parameters
  ((1 - a) * (w * x + b) + a * tanh (w * x + b)), add the messages up at the edges' destination nodes, and blend the
  sums with the nodes' three parameters. The kernel program runs the two blends as two pipelined kernel regions
  and the gather and the sum as host operations between them; the reference is host operations throughout.

  * The three frames. Each kernel program is five items in order (host operations, the edge stage, host
    operations, the node stage); its run names what every unscoped buffer holds at the end, and no item writes
    an argument. The reference is one straight line of host operations, none of which writes an argument.
  * The ideal pass rewrote nothing in the kernel, so there is nothing to preserve.
  * The values. The claim is made for destination indices none of which is negative: the kernel's scatter moves
    a negative index up by the number of nodes, the reference's drops it, so on a negative index the two
    programs differ, and for indices from zero up they are given the same column of indices. Then, entry by
    entry and with no finiteness used, both programs compute the layer's output `Cert.Spec.out` of the same
    arguments and of the same gathered array: the two scatters, laid out along columns in one program and along
    rows of the transposed array in the other, are the same sum over the edges that end at a node.
-/
import proofs.«120978_j38508676776060_2_alg».proof.Defs
import proofs.«120978_j38508676776060_2_alg».proof.Proof.Gen.Kernel
import proofs.«120978_j38508676776060_2_alg».proof.Proof.Gen.KernelIdeal
import proofs.«120978_j38508676776060_2_alg».proof.Proof.Gen.ReferenceIdeal
import proofs.«120978_j38508676776060_2_alg».proof.Proof.Gen.Pre_finite_inputs
import proofs.«120978_j38508676776060_2_alg».proof.Proof.KKept
import proofs.«120978_j38508676776060_2_alg».proof.Proof.KIKept
import proofs.«120978_j38508676776060_2_alg».proof.Proof.PreDst
import proofs.«120978_j38508676776060_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.Kernel.Stage.frame (F := Bits) m ρ

/-- So does the idealized kernel program. -/
theorem frame_kernelIdeal : Cert.frame_KernelIdeal := fun m ρ _ => Cert.KernelIdeal.Stage.frame (F := Ideal) m ρ

/-- So does the reference: its run with the result dropped. -/
theorem frame_reference : Cert.frame_ReferenceIdeal := fun m ρ _ =>
  (θ_run Cert.ReferenceIdeal.defs _ _).mono (fun _ h c => (h c).2) (Cert.RefSide.run (F := Ideal) m ρ)

/-- The ideal pass rewrote no operation of the kernel. -/
theorem preserves : Cert.preserves_Kernel_KernelIdeal := trivial

/-- From memories agreeing on the arguments, with no negative destination index, both idealized programs run
    and end with equal result buffers: the kernel's run names its result buffer's contents, the reference's run
    its composed term, and the two are one array. -/
theorem algebraic : Cert.algebraic_KernelIdeal_ReferenceIdeal := by
  intro m ρ m' ρ' hpre hagree
  have hdst := fun c j => Cert.KernelIdeal.PreDst.dst_nonneg m hpre c j
  refine ⟨fun c => Cert.KernelIdeal.Stage.W5 m ρ c (Proc.devRef .tc Cert.KernelIdeal.main_v18), ?_, ?_⟩
  · exact (θ_run Cert.KernelIdeal.defs _ _).mono
      (fun r h c => ⟨h c _ (Cert.KernelIdeal.Stage.mem_uc Cert.KernelIdeal.main_v18 (by decide)),
        Cert.KernelIdeal.Stage.args_kept m ρ r.2 h c⟩)
      (Cert.KernelIdeal.Stage.run_all (F := Ideal) m ρ)
  · refine (θ_run Cert.ReferenceIdeal.defs _ _).mono (fun r h c => ⟨(h c).1.trans ?_, (h c).2⟩)
      (Cert.RefSide.run (F := Ideal) m' ρ')
    obtain ⟨e0, e1, e2, e3, e4, e5, e6, e7, e8⟩ := hagree c
    rw [e0, e1, e2, e3, e4, e5, e6, e7, e8]
    exact (Cert.Bridge.result_eq m ρ hdst c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
